-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x128 : Shape := ⟨2, ![50000, 128]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S128 .f32) (main_arg16 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x3 .f32) (main_arg1 : FVec F S50000x128 .f32) (main_arg2 : IVec S2x800000 32) (main_arg3 : FVec F S257x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_arg15 : FVec F S128 .f32) (main_arg16 : FVec F S128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x3 : Shape := ⟨2, ![50000, 3]⟩
abbrev S50000x128 : Shape := ⟨2, ![50000, 128]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S1x1 : Shape := ⟨2, ![1, 1]⟩
abbrev S4000x128 : Shape := ⟨2, ![4000, 128]⟩
abbrev S4000x3 : Shape := ⟨2, ![4000, 3]⟩
abbrev S4000 : Shape := ⟨1, ![4000]⟩
abbrev S4000x1 : Shape := ⟨2, ![4000, 1]⟩
abbrev S800000x132 : Shape := ⟨2, ![800000, 132]⟩
abbrev S50000x132 : Shape := ⟨2, ![50000, 132]⟩
abbrev S50000x1 : Shape := ⟨2, ![50000, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 94
  | .vmem => 33
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S50000x128, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x3, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x3, .f32⟩
  | .hbm, ⟨58, _⟩ => ⟨S800000x3, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x1, .f32⟩
  | .hbm, ⟨66, _⟩ => ⟨S800000x128, .f32⟩
  | .hbm, ⟨67, _⟩ => ⟨S800000x3, .f32⟩
  | .hbm, ⟨68, _⟩ => ⟨S_, .f32⟩
  | .hbm, ⟨69, _⟩ => ⟨S800000x1, .f32⟩
  | .hbm, ⟨70, _⟩ => ⟨S800000x132, .f32⟩
  | .hbm, ⟨71, _⟩ => ⟨S_, .f32⟩
  | .hbm, ⟨72, _⟩ => ⟨S50000x132, .f32⟩
  | .hbm, ⟨73, _⟩ => ⟨S800000x1, .i32⟩
  | .hbm, ⟨74, _⟩ => ⟨S50000x132, .f32⟩
  | .hbm, ⟨75, _⟩ => ⟨S50000x1, .f32⟩
  | .hbm, ⟨76, _⟩ => ⟨S_, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x3, .f32⟩
  | .hbm, ⟨81, _⟩ => ⟨S50000x3, .f32⟩
  | .hbm, ⟨82, _⟩ => ⟨S50000x3, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x3, .f32⟩
  | .hbm, ⟨87, _⟩ => ⟨S128x128, .f32⟩
  | .hbm, ⟨88, _⟩ => ⟨S128x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S4000x128, .f32⟩
  | .local _ .vmem, ⟨17, _⟩ => ⟨S4000x128, .f32⟩
  | .local _ .vmem, ⟨18, _⟩ => ⟨S4000x3, .f32⟩
  | .local _ .vmem, ⟨19, _⟩ => ⟨S4000x3, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41_0 : Ref sig .tc := ⟨.hbm, 66, rfl⟩
abbrev main_v41_1 : Ref sig .tc := ⟨.hbm, 67, rfl⟩
abbrev main_cst : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_call0_v0 : Ref sig .tc := ⟨.hbm, 77, rfl⟩
abbrev main_call0_v1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem9_1 : DmaSem sig := 32

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x3 : S4000x1.Broadcasts S4000x3
  bcast_S_S800000x1 : S_.BroadcastsInDim S800000x1 (![] : Fin 0 → Fin S800000x1.rank)
  concatenates_S800000x1_S800000x3_S800000x128_S800000x132_d1 : Shape.Concatenates [S800000x1, S800000x3, S800000x128] S800000x132 1
  bcast_S_S50000x132 : S_.BroadcastsInDim S50000x132 (![] : Fin 0 → Fin S50000x132.rank)
  slices_S50000x132_S50000x1_0_0 : S50000x132.Slices ![0, 0] S50000x1
  bcast_S_S50000x1 : S_.BroadcastsInDim S50000x1 (![] : Fin 0 → Fin S50000x1.rank)
  slices_S50000x132_S50000x3_0_1 : S50000x132.Slices ![0, 1] S50000x3
  bcast_S50000x1_S50000x3_0_1 : S50000x1.BroadcastsInDim S50000x3 (![0, 1] : Fin 2 → Fin S50000x3.rank)
  slices_S50000x132_S50000x128_0_4 : S50000x132.Slices ![0, 4] S50000x128
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x132_S800000x1_S800000x132_1_0_0_1_wf : ScatterDims.WF S50000x132 S800000x1 S800000x132 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S800000x3.size a
  hwx0_2 : ∀ i : grid0.Coords, EltTy.bits .f32 = 32 ∨ (Rect.block (s := S800000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S800000x128.size a
  hwx0_13 : ∀ i : grid0.Coords, EltTy.bits .f32 = 32 ∨ (Rect.block (s := S800000x128) S4000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x3.size a ≤ S800000x3.size a
  hwx0_14 : ∀ i : grid0.Coords, EltTy.bits .f32 = 32 ∨ (Rect.block (s := S800000x3) S4000x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x132_S800000x1_S800000x132_1_0_0_1 : ScatterDims S50000x132 S800000x1 S800000x132 where
  updateWindowDims := [1]
  insertedWindowDims := [0]
  scatterDimsToOperandDims := [0]
  indexVectorDim := 1
  wf := scatter_S50000x132_S800000x1_S800000x132_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v41_0) S4000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v41_1) S4000x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v62) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x3 : Shape := ⟨2, ![50000, 3]⟩
abbrev S50000x128 : Shape := ⟨2, ![50000, 128]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S1x1 : Shape := ⟨2, ![1, 1]⟩
abbrev S50000x1 : Shape := ⟨2, ![50000, 1]⟩
abbrev S50000x256 : Shape := ⟨2, ![50000, 256]⟩
abbrev S50000 : Shape := ⟨1, ![50000]⟩

abbrev nBuf : Space → Nat
  | .hbm => 188
  | .vmem => 0
  | .smem => 0
  | _ => 0

abbrev hbmTy0_0 (i : Nat) : BufTy := match i % 128 with
  | 0 => ⟨S50000x3, .f32⟩
  | 1 => ⟨S50000x128, .f32⟩
  | 2 => ⟨S2x800000, .i32⟩
  | 3 => ⟨S257x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S256x128, .f32⟩
  | 12 => ⟨S128, .f32⟩
  | 13 => ⟨S128x128, .f32⟩
  | 14 => ⟨S128, .f32⟩
  | 15 => ⟨S128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x3, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x3, .f32⟩
  | 39 => ⟨S800000x3, .f32⟩
  | 40 => ⟨S800000x3, .f32⟩
  | 41 => ⟨S_, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x257, .f32⟩
  | 63 => ⟨S800000x128, .f32⟩
  | 64 => ⟨S1x128, .f32⟩
  | 65 => ⟨S800000x128, .f32⟩
  | 66 => ⟨S800000x128, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S_, .f32⟩
  | 73 => ⟨S800000x128, .f32⟩
  | 74 => ⟨S800000x128, .f32⟩
  | 75 => ⟨S800000x128, .f32⟩
  | 76 => ⟨S800000x128, .f32⟩
  | 77 => ⟨S1x128, .f32⟩
  | 78 => ⟨S800000x128, .f32⟩
  | 79 => ⟨S800000x128, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S_, .f32⟩
  | 86 => ⟨S800000x128, .f32⟩
  | 87 => ⟨S800000x128, .f32⟩
  | 88 => ⟨S800000x128, .f32⟩
  | 89 => ⟨S800000x128, .f32⟩
  | 90 => ⟨S1x128, .f32⟩
  | 91 => ⟨S800000x128, .f32⟩
  | 92 => ⟨S800000x128, .f32⟩
  | 93 => ⟨S800000x128, .f32⟩
  | 94 => ⟨S800000x128, .f32⟩
  | 95 => ⟨S_, .f32⟩
  | 96 => ⟨S800000x128, .f32⟩
  | 97 => ⟨S800000x128, .f32⟩
  | 98 => ⟨S_, .f32⟩
  | 99 => ⟨S800000x128, .f32⟩
  | 100 => ⟨S800000x128, .f32⟩
  | 101 => ⟨S800000x128, .f32⟩
  | 102 => ⟨S800000x1, .f32⟩
  | 103 => ⟨S1x1, .f32⟩
  | 104 => ⟨S800000x1, .f32⟩
  | 105 => ⟨S800000x1, .f32⟩
  | 106 => ⟨S_, .f32⟩
  | 107 => ⟨S800000x1, .f32⟩
  | 108 => ⟨S_, .f32⟩
  | 109 => ⟨S50000x1, .f32⟩
  | 110 => ⟨S800000x1, .i32⟩
  | 111 => ⟨S50000x1, .f32⟩
  | 112 => ⟨S_, .f32⟩
  | 113 => ⟨S_, .f32⟩
  | 114 => ⟨S50000x1, .f32⟩
  | 115 => ⟨S50000x1, .f32⟩
  | 116 => ⟨S800000x3, .f32⟩
  | 117 => ⟨S800000x3, .f32⟩
  | 118 => ⟨S_, .f32⟩
  | 119 => ⟨S50000x3, .f32⟩
  | 120 => ⟨S800000x1, .i32⟩
  | 121 => ⟨S50000x3, .f32⟩
  | 122 => ⟨S50000x3, .f32⟩
  | 123 => ⟨S50000x3, .f32⟩
  | 124 => ⟨S50000x3, .f32⟩
  | 125 => ⟨S_, .f32⟩
  | 126 => ⟨S50000x128, .f32⟩
  | 127 => ⟨S800000x1, .i32⟩
  | _ => ⟨S50000x3, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x256, .f32⟩
  | 4 => ⟨S50000x128, .f32⟩
  | 5 => ⟨S1x128, .f32⟩
  | 6 => ⟨S50000x128, .f32⟩
  | 7 => ⟨S50000x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S50000x128, .f32⟩
  | 29 => ⟨S50000x128, .f32⟩
  | 30 => ⟨S50000x128, .f32⟩
  | 31 => ⟨S_, .f32⟩
  | 32 => ⟨S50000, .f32⟩
  | 33 => ⟨S50000x1, .f32⟩
  | 34 => ⟨S_, .f32⟩
  | 35 => ⟨S50000x1, .f32⟩
  | 36 => ⟨S50000x1, .f32⟩
  | 37 => ⟨S50000x128, .f32⟩
  | 38 => ⟨S50000x128, .f32⟩
  | 39 => ⟨S_, .f32⟩
  | 40 => ⟨S50000x1, .f32⟩
  | 41 => ⟨S50000x1, .f32⟩
  | 42 => ⟨S50000x1, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_7 : Ref sig .tc := ⟨.hbm, 106, rfl⟩
abbrev main_v56 : Ref sig .tc := ⟨.hbm, 107, rfl⟩
abbrev main_cst_8 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_9 : Ref sig .tc := ⟨.hbm, 112, rfl⟩
abbrev main_call3_v0 : Ref sig .tc := ⟨.hbm, 113, rfl⟩
abbrev main_call3_v1 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_10 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_cst_11 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_cst_12 : Ref sig .tc := ⟨.hbm, 150, rfl⟩
abbrev main_v85 : Ref sig .tc := ⟨.hbm, 151, rfl⟩
abbrev main_v86 : Ref sig .tc := ⟨.hbm, 152, rfl⟩
abbrev main_cst_13 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_14 : Ref sig .tc := ⟨.hbm, 159, rfl⟩
abbrev main_v92 : Ref sig .tc := ⟨.hbm, 160, rfl⟩
abbrev main_v93 : Ref sig .tc := ⟨.hbm, 161, rfl⟩
abbrev main_cst_15 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_16 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_call5_v0 : Ref sig .tc := ⟨.hbm, 179, rfl⟩
abbrev main_call5_v1 : Ref sig .tc := ⟨.hbm, 180, rfl⟩
abbrev main_call5_cst : Ref sig .tc := ⟨.hbm, 181, rfl⟩
abbrev main_call5_v2 : Ref sig .tc := ⟨.hbm, 182, rfl⟩
abbrev main_call5_v3 : Ref sig .tc := ⟨.hbm, 183, rfl⟩
abbrev main_call5_cst_0 : Ref sig .tc := ⟨.hbm, 184, rfl⟩
abbrev main_call5_v4 : Ref sig .tc := ⟨.hbm, 185, rfl⟩
abbrev main_call5_v5 : Ref sig .tc := ⟨.hbm, 186, rfl⟩
abbrev main_v109 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x1_S800000x1_S800000x1_1_0_0_1_wf : ScatterDims.WF S50000x1 S800000x1 S800000x1 [1] [0] [0] 1
  scatter_S50000x3_S800000x1_S800000x3_1_0_0_1_wf : ScatterDims.WF S50000x3 S800000x1 S800000x3 [1] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KBodyDefs.lean ====
import proofs.«166594_j8684423872621_2_alg».proof.Proof.Gen.Kernel.Launch
import proofs.«166594_j8684423872621_2_alg».proof.Proof.Gen.Kernel.Skeleton
import proofs.«166594_j8684423872621_2_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: every region's half is stated at this parameter
variable (V : (c : Dev nD) → (b : Ref sig .tc) → Buf (Elt F) ((c : Thread nD τ).loc b))

/-! # The whole-block rectangles the two bodies load and store through -/

abbrev r4000x128 : Rect S4000x128 := Rect.unit (s := S4000x128) ![0, 0] S4000x128.size inb_S4000x128_S4000x128_0_0
abbrev r4000x3 : Rect S4000x3 := Rect.unit (s := S4000x3) ![0, 0] S4000x3.size inb_S4000x3_S4000x3_0_0
abbrev r128x128 : Rect S128x128 := Rect.unit (s := S128x128) ![0, 0] S128x128.size inb_S128x128_S128x128_0_0
abbrev r1x128 : Rect S1x128 := Rect.unit (s := S1x128) ![0, 0] S1x128.size inb_S1x128_S1x128_0_0
abbrev r128x1 : Rect S128x1 := Rect.unit (s := S128x1) ![0, 0] S128x1.size inb_S128x1_S128x1_0_0
abbrev r1x1 : Rect S1x1 := Rect.unit (s := S1x1) ![0, 0] S1x1.size inb_S1x1_S1x1_0_0
abbrev r2000x128 : Rect S2000x128 := Rect.unit (s := S2000x128) ![0, 0] S2000x128.size inb_S2000x128_S2000x128_0_0

/-! # Region 0: the edge kernel (pipeline 0), at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Output window 13's buffer after the body, as a function of the nine input blocks its one whole-block store reads:
    the message block `silu (h₂ + b₂)` over the skeleton's payloads. -/
def out0_13 (x0 : Vec F S4000x128 .bf16) (x1 : Vec F S4000x128 .bf16) (x2 : Vec F S4000x3 .f32) (x3 : Vec F S128x128 .f32) (x4 : Vec F S128x128 .f32) (x5 : Vec F S1x128 .f32) (x6 : Vec F S1x128 .f32) (x7 : Vec F S128x128 .f32) (x8 : Vec F S1x128 .f32) : Vec F S4000x128 .f32 :=
  View.canon [⟨r4000x128, k0_pay1 (k0_pay4 (View.ld x0 r4000x128) (View.ld x1 r4000x128) (View.ld x2 r4000x3) (View.ld x3 r128x128) (View.ld x4 r128x128) (View.ld x5 r1x128) (View.ld x6 r1x128) (View.ld x7 r128x128)) (k0_pay5 (View.ld x8 r1x128))⟩]

/-- Output window 14's buffer after the body, as a function of all thirteen input blocks: the one whole-block store of
    the weighted relative positions. -/
def out0_14 (x0 : Vec F S4000x128 .bf16) (x1 : Vec F S4000x128 .bf16) (x2 : Vec F S4000x3 .f32) (x3 : Vec F S128x128 .f32) (x4 : Vec F S128x128 .f32) (x5 : Vec F S1x128 .f32) (x6 : Vec F S1x128 .f32) (x7 : Vec F S128x128 .f32) (x8 : Vec F S1x128 .f32) (x9 : Vec F S128x128 .f32) (x10 : Vec F S1x128 .f32) (x11 : Vec F S128x1 .f32) (x12 : Vec F S1x1 .f32) : Vec F S4000x3 .f32 :=
  View.canon [⟨r4000x3, k0_pay2 (k0_pay3 (View.ld x2 r4000x3)) (k0_pay4 (View.ld x0 r4000x128) (View.ld x1 r4000x128) (View.ld x2 r4000x3) (View.ld x3 r128x128) (View.ld x4 r128x128) (View.ld x5 r1x128) (View.ld x6 r1x128) (View.ld x7 r128x128)) (k0_pay5 (View.ld x8 r1x128)) (View.ld x9 r128x128) (View.ld x10 r1x128) (View.ld x11 r128x1) (View.ld x12 r1x1)⟩]

/-- The proof data of pipeline 0 on core `c`: the arrays as the region finds them; after the body at point `t` each
    input's buffer still at its block and each output's at `out0_W` of the input blocks; the class-A invariant;
    full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]

/-! # Region 1: the node kernel (pipeline 1), at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Output window 9's buffer after the body, as a function of the nine input blocks: the one whole-block store of the
    normalised, scaled, shifted and gated node update. -/
def out1_9 (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (x7 : Vec F S1x128 .f32) (x8 : Vec F S1x128 .f32) : Vec F S2000x128 .f32 :=
  View.canon [⟨r2000x128, k1_pay1 (k1_pay2 (View.ld x0 r2000x128) (View.ld x1 r2000x128) (View.ld x2 r128x128) (View.ld x3 r128x128) (View.ld x4 r1x128) (View.ld x5 r128x128) (View.ld x6 r1x128)) (k1_pay3 (View.ld x0 r2000x128) (View.ld x1 r2000x128) (View.ld x2 r128x128) (View.ld x3 r128x128) (View.ld x4 r1x128) (View.ld x5 r128x128) (View.ld x6 r1x128)) (Scalar.ofBits .f32 0x43000000#32) (View.ld x7 r1x128) (View.ld x8 r1x128)⟩]

/-- The proof data of pipeline 1 on core `c`, as `dat0`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

end Regions

end Cert.Kernel.Hand

end
-- ==== Proof.KBody.lean ====
import proofs.«166594_j8684423872621_2_alg».proof.Proof.KBodyDefs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 -/

/-! An input window's current staging buffer holds its block at every point, fetched there or not, for any proof data
    whose array is `V`'s and whose body leaves the block in place: where it was not fetched the block index has not
    moved, so the previous point's block is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- The one whole-block store tiles window 13's buffer, so it covers it. -/
theorem cover0_13 (p0 : Vec F S4000x128 .f32) (y : S4000x128.Idx) :
    ∃ pc ∈ ([⟨r4000x128, p0⟩] : List (View.Piece (Elt F) S4000x128 .f32)), y ∈ pc.1.set :=
  View.cover_of_tiled [⟨r4000x128, p0⟩] S4000x128.size (by rfl) y
/-- The one whole-block store tiles window 14's buffer, so it covers it. -/
theorem cover0_14 (p0 : Vec F S4000x3 .f32) (y : S4000x3.Idx) :
    ∃ pc ∈ ([⟨r4000x3, p0⟩] : List (View.Piece (Elt F) S4000x3 .f32)), y ∈ pc.1.set :=
  View.cover_of_tiled [⟨r4000x3, p0⟩] S4000x3.size (by rfl) y

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg0 : Memref sig .tc .vmem S4000x128 .bf16) (harg0 : arg0.IsWhole) (arg1 : Memref sig .tc .vmem S4000x128 .bf16) (harg1 : arg1.IsWhole) (arg2 : Memref sig .tc .vmem S4000x3 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S4000x128 .f32) (harg13 : arg13.IsWhole) (arg14 : Memref sig .tc .vmem S4000x3 .f32) (harg14 : arg14.IsWhole)
    (x0 : Vec F S4000x128 .bf16) (x1 : Vec F S4000x128 .bf16) (x2 : Vec F S4000x3 .f32) (x3 : Vec F S128x128 .f32) (x4 : Vec F S128x128 .f32) (x5 : Vec F S1x128 .f32) (x6 : Vec F S1x128 .f32) (x7 : Vec F S128x128 .f32) (x8 : Vec F S1x128 .f32) (x9 : Vec F S128x128 .f32) (x10 : Vec F S1x128 .f32) (x11 : Vec F S128x1 .f32) (x12 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out0_13 x0 x1 x2 x3 x4 x5 x6 x7 x8) ∗ owns (c : Thread nD τ) arg14 fullShare (out0_14 x0 x1 x2 x3 x4 x5 x6 x7 x8 x9 x10 x11 x12)) -∗ K ⟨⟩))
      ⊢ wp frame (wpE (defs₀ (F := F)) Variants.none c none) E (cc0__edge_kernel i arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The one whole-block store tiles window 9's buffer, so it covers it. -/
theorem cover1_9 (p0 : Vec F S2000x128 .f32) (y : S2000x128.Idx) :
    ∃ pc ∈ ([⟨r2000x128, p0⟩] : List (View.Piece (Elt F) S2000x128 .f32)), y ∈ pc.1.set :=
  View.cover_of_tiled [⟨r2000x128, p0⟩] S2000x128.size (by rfl) y

set_option maxHeartbeats 4000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (x7 : Vec F S1x128 .f32) (x8 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__node_kernel i arg0 harg0 arg1 harg1 arg2 harg2 arg3 harg3 arg4 harg4 arg5 harg5 arg6 harg6 arg7 harg7 arg8 harg8 arg9 harg9) K := by
  simp only [cc1__node_kernel_eq_skeleton]; unfold cc1__node_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KFold.lean ====
import proofs.«166594_j8684423872621_2_alg».proof.Proof.KBodyDefs
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program's six items: a fold from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the regions, one by one (the last is region 1's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

end Cert.Kernel.Hand

end
-- ==== Proof.KRun.lean ====
import proofs.«166594_j8684423872621_2_alg».proof.Proof.KBody
import proofs.«166594_j8684423872621_2_alg».proof.Proof.KFold
import proofs.«166594_j8684423872621_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arguments end as launched: no host operation and no region writes one (a region reads it through an
    input window or never touches it), so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 0).trans (((dat1 (V5 m ρ) c).arrAt_in 0 rfl _).trans (A_eq1 (V5 m ρ) c 0))
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := (W2_arr m ρ c 7).trans (((dat0 (V1 m ρ) c).arrAt_in 7 rfl _).trans (A_eq0 (V1 m ρ) c 7))
    _ = W0 m ρ c (Proc.devRef .tc main_arg5) := StableHlo.after_of_writes_sub hostOps0 _ hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := (W2_arr m ρ c 9).trans (((dat0 (V1 m ρ) c).arrAt_in 9 rfl _).trans (A_eq0 (V1 m ρ) c 9))
    _ = W0 m ρ c (Proc.devRef .tc main_arg7) := StableHlo.after_of_writes_sub hostOps0 _ hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := (W2_arr m ρ c 11).trans (((dat0 (V1 m ρ) c).arrAt_in 11 rfl _).trans (A_eq0 (V1 m ρ) c 11))
    _ = W0 m ρ c (Proc.devRef .tc main_arg9) := StableHlo.after_of_writes_sub hostOps0 _ hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps1_2 _ hostOps1_2_writes (by decide)
    _ = W3 m ρ c (Proc.devRef .tc main_arg11) := StableHlo.after_of_writes_sub hostOps1_1 _ hostOps1_1_writes (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps1_2 _ hostOps1_2_writes (by decide)
    _ = W3 m ρ c (Proc.devRef .tc main_arg12) := StableHlo.after_of_writes_sub hostOps1_1 _ hostOps1_1_writes (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := (W6_arr m ρ c 5).trans (((dat1 (V5 m ρ) c).arrAt_in 5 rfl _).trans (A_eq1 (V5 m ρ) c 5))
    _ = W4 m ρ c (Proc.devRef .tc main_arg13) := StableHlo.after_of_writes_sub hostOps1_2 _ hostOps1_2_writes (by decide)
    _ = W3 m ρ c (Proc.devRef .tc main_arg13) := StableHlo.after_of_writes_sub hostOps1_1 _ hostOps1_1_writes (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl
theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps1_2 _ hostOps1_2_writes (by decide)
    _ = W3 m ρ c (Proc.devRef .tc main_arg14) := StableHlo.after_of_writes_sub hostOps1_1 _ hostOps1_1_writes (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl
theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_writes_sub hostOps1_2 _ hostOps1_2_writes (by decide)
    _ = W3 m ρ c (Proc.devRef .tc main_arg15) := StableHlo.after_of_writes_sub hostOps1_1 _ hostOps1_1_writes (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl
theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_writes_sub hostOps1_2 _ hostOps1_2_writes (by decide)
    _ = W3 m ρ c (Proc.devRef .tc main_arg16) := StableHlo.after_of_writes_sub hostOps1_1 _ hostOps1_1_writes (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

/-! # The proof data family and the thread state -/

/-- Every pipeline's proof data, each at its region's entry contents: a literal match on the pipeline index. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! # The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays
    are split out of the unscoped buffers at entry and put back at the exit contents; the generator register goes into
    the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W5`, left at `W6`. Its arrays
    are split out of the unscoped buffers at entry and put back at the exit contents; the generator register goes into
    the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The program's six items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- The program IS the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of the program on
    the TensorCores terminates, nothing faulting, and every final memory holds, at every unscoped reference, the last
    fold's contents. -/
theorem run_mem : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME at any `F`: every weakly fair execution terminates, nothing faulting, and every final memory has each of
    the seventeen argument arrays as launched — the run above read at the arguments' references. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c)⟩) (run_mem m ρ)

end Cert.Kernel.Hand

end
-- ==== Proof.KIBodyDefs.lean ====
import proofs.«166594_j8684423872621_2_alg».proof.Proof.Gen.KernelIdeal.Launch
import proofs.«166594_j8684423872621_2_alg».proof.Proof.Gen.KernelIdeal.Skeleton
import proofs.«166594_j8684423872621_2_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: every region's half is stated at this parameter
variable (V : (c : Dev nD) → (b : Ref sig .tc) → Buf (Elt F) ((c : Thread nD τ).loc b))

/-! # The whole-block rectangles the two bodies load and store through -/

abbrev r4000x128 : Rect S4000x128 := Rect.unit (s := S4000x128) ![0, 0] S4000x128.size inb_S4000x128_S4000x128_0_0
abbrev r4000x3 : Rect S4000x3 := Rect.unit (s := S4000x3) ![0, 0] S4000x3.size inb_S4000x3_S4000x3_0_0
abbrev r128x128 : Rect S128x128 := Rect.unit (s := S128x128) ![0, 0] S128x128.size inb_S128x128_S128x128_0_0
abbrev r1x128 : Rect S1x128 := Rect.unit (s := S1x128) ![0, 0] S1x128.size inb_S1x128_S1x128_0_0
abbrev r128x1 : Rect S128x1 := Rect.unit (s := S128x1) ![0, 0] S128x1.size inb_S128x1_S128x1_0_0
abbrev r1x1 : Rect S1x1 := Rect.unit (s := S1x1) ![0, 0] S1x1.size inb_S1x1_S1x1_0_0
abbrev r2000x128 : Rect S2000x128 := Rect.unit (s := S2000x128) ![0, 0] S2000x128.size inb_S2000x128_S2000x128_0_0

/-! # Region 0: the edge kernel (pipeline 0), at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Output window 13's buffer after the body, as a function of the nine input blocks its one whole-block store reads:
    the message block `silu (h₂ + b₂)` over the skeleton's payloads. -/
def out0_13 (x0 : Vec F S4000x128 .bf16) (x1 : Vec F S4000x128 .bf16) (x2 : Vec F S4000x3 .f32) (x3 : Vec F S128x128 .f32) (x4 : Vec F S128x128 .f32) (x5 : Vec F S1x128 .f32) (x6 : Vec F S1x128 .f32) (x7 : Vec F S128x128 .f32) (x8 : Vec F S1x128 .f32) : Vec F S4000x128 .f32 :=
  View.canon [⟨r4000x128, k0_pay1 (k0_pay4 (View.ld x0 r4000x128) (View.ld x1 r4000x128) (View.ld x2 r4000x3) (View.ld x3 r128x128) (View.ld x4 r128x128) (View.ld x5 r1x128) (View.ld x6 r1x128) (View.ld x7 r128x128)) (k0_pay5 (View.ld x8 r1x128))⟩]

/-- Output window 14's buffer after the body, as a function of all thirteen input blocks: the one whole-block store of
    the weighted relative positions. -/
def out0_14 (x0 : Vec F S4000x128 .bf16) (x1 : Vec F S4000x128 .bf16) (x2 : Vec F S4000x3 .f32) (x3 : Vec F S128x128 .f32) (x4 : Vec F S128x128 .f32) (x5 : Vec F S1x128 .f32) (x6 : Vec F S1x128 .f32) (x7 : Vec F S128x128 .f32) (x8 : Vec F S1x128 .f32) (x9 : Vec F S128x128 .f32) (x10 : Vec F S1x128 .f32) (x11 : Vec F S128x1 .f32) (x12 : Vec F S1x1 .f32) : Vec F S4000x3 .f32 :=
  View.canon [⟨r4000x3, k0_pay2 (k0_pay3 (View.ld x2 r4000x3)) (k0_pay4 (View.ld x0 r4000x128) (View.ld x1 r4000x128) (View.ld x2 r4000x3) (View.ld x3 r128x128) (View.ld x4 r128x128) (View.ld x5 r1x128) (View.ld x6 r1x128) (View.ld x7 r128x128)) (k0_pay5 (View.ld x8 r1x128)) (View.ld x9 r128x128) (View.ld x10 r1x128) (View.ld x11 r128x1) (View.ld x12 r1x1)⟩]

/-- The proof data of pipeline 0 on core `c`: the arrays as the region finds them; after the body at point `t` each
    input's buffer still at its block and each output's at `out0_W` of the input blocks; the class-A invariant;
    full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]

/-! # Region 1: the node kernel (pipeline 1), at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Output window 9's buffer after the body, as a function of the nine input blocks: the one whole-block store of the
    normalised, scaled, shifted and gated node update. -/
def out1_9 (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (x7 : Vec F S1x128 .f32) (x8 : Vec F S1x128 .f32) : Vec F S2000x128 .f32 :=
  View.canon [⟨r2000x128, k1_pay1 (k1_pay2 (View.ld x0 r2000x128) (View.ld x1 r2000x128) (View.ld x2 r128x128) (View.ld x3 r128x128) (View.ld x4 r1x128) (View.ld x5 r128x128) (View.ld x6 r1x128)) (k1_pay3 (View.ld x0 r2000x128) (View.ld x1 r2000x128) (View.ld x2 r128x128) (View.ld x3 r128x128) (View.ld x4 r1x128) (View.ld x5 r128x128) (View.ld x6 r1x128)) (Scalar.ofBits .f32 0x43000000#32) (View.ld x7 r1x128) (View.ld x8 r1x128)⟩]

/-- The proof data of pipeline 1 on core `c`, as `dat0`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

end Regions

end Cert.KernelIdeal.Hand

end
-- ==== Proof.KIBody.lean ====
import proofs.«166594_j8684423872621_2_alg».proof.Proof.KIBodyDefs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 -/

/-! An input window's current staging buffer holds its block at every point, fetched there or not, for any proof data
    whose array is `V`'s and whose body leaves the block in place: where it was not fetched the block index has not
    moved, so the previous point's block is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- The one whole-block store tiles window 13's buffer, so it covers it. -/
theorem cover0_13 (p0 : Vec F S4000x128 .f32) (y : S4000x128.Idx) :
    ∃ pc ∈ ([⟨r4000x128, p0⟩] : List (View.Piece (Elt F) S4000x128 .f32)), y ∈ pc.1.set :=
  View.cover_of_tiled [⟨r4000x128, p0⟩] S4000x128.size (by rfl) y
/-- The one whole-block store tiles window 14's buffer, so it covers it. -/
theorem cover0_14 (p0 : Vec F S4000x3 .f32) (y : S4000x3.Idx) :
    ∃ pc ∈ ([⟨r4000x3, p0⟩] : List (View.Piece (Elt F) S4000x3 .f32)), y ∈ pc.1.set :=
  View.cover_of_tiled [⟨r4000x3, p0⟩] S4000x3.size (by rfl) y

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg0 : Memref sig .tc .vmem S4000x128 .bf16) (harg0 : arg0.IsWhole) (arg1 : Memref sig .tc .vmem S4000x128 .bf16) (harg1 : arg1.IsWhole) (arg2 : Memref sig .tc .vmem S4000x3 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S4000x128 .f32) (harg13 : arg13.IsWhole) (arg14 : Memref sig .tc .vmem S4000x3 .f32) (harg14 : arg14.IsWhole)
    (x0 : Vec F S4000x128 .bf16) (x1 : Vec F S4000x128 .bf16) (x2 : Vec F S4000x3 .f32) (x3 : Vec F S128x128 .f32) (x4 : Vec F S128x128 .f32) (x5 : Vec F S1x128 .f32) (x6 : Vec F S1x128 .f32) (x7 : Vec F S128x128 .f32) (x8 : Vec F S1x128 .f32) (x9 : Vec F S128x128 .f32) (x10 : Vec F S1x128 .f32) (x11 : Vec F S128x1 .f32) (x12 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out0_13 x0 x1 x2 x3 x4 x5 x6 x7 x8) ∗ owns (c : Thread nD τ) arg14 fullShare (out0_14 x0 x1 x2 x3 x4 x5 x6 x7 x8 x9 x10 x11 x12)) -∗ K ⟨⟩))
      ⊢ wp frame (wpE (defs₀ (F := F)) Variants.none c none) E (cc0__edge_kernel i arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  iexists _; isplitr
  swap; · iexact H14
  ipureintro
  try dsimp only
  exact View.read_writes_eq_canon _ _ _ (cover0_14 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The one whole-block store tiles window 9's buffer, so it covers it. -/
theorem cover1_9 (p0 : Vec F S2000x128 .f32) (y : S2000x128.Idx) :
    ∃ pc ∈ ([⟨r2000x128, p0⟩] : List (View.Piece (Elt F) S2000x128 .f32)), y ∈ pc.1.set :=
  View.cover_of_tiled [⟨r2000x128, p0⟩] S2000x128.size (by rfl) y

set_option maxHeartbeats 4000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (x7 : Vec F S1x128 .f32) (x8 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__node_kernel i arg0 harg0 arg1 harg1 arg2 harg2 arg3 harg3 arg4 harg4 arg5 harg5 arg6 harg6 arg7 harg7 arg8 harg8 arg9 harg9) K := by
  simp only [cc1__node_kernel_eq_skeleton]; unfold cc1__node_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIFold.lean ====
import proofs.«166594_j8684423872621_2_alg».proof.Proof.KIBodyDefs
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program's six items: a fold from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the regions, one by one (the last is region 1's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

end Cert.KernelIdeal.Hand

end
-- ==== Proof.KIRun.lean ====
import proofs.«166594_j8684423872621_2_alg».proof.Proof.KIBody
import proofs.«166594_j8684423872621_2_alg».proof.Proof.KIFold
import proofs.«166594_j8684423872621_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arguments end as launched: no host operation and no region writes one (a region reads it through an
    input window or never touches it), so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 0).trans (((dat1 (V5 m ρ) c).arrAt_in 0 rfl _).trans (A_eq1 (V5 m ρ) c 0))
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := (W2_arr m ρ c 7).trans (((dat0 (V1 m ρ) c).arrAt_in 7 rfl _).trans (A_eq0 (V1 m ρ) c 7))
    _ = W0 m ρ c (Proc.devRef .tc main_arg5) := StableHlo.after_of_writes_sub hostOps0 _ hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := (W2_arr m ρ c 9).trans (((dat0 (V1 m ρ) c).arrAt_in 9 rfl _).trans (A_eq0 (V1 m ρ) c 9))
    _ = W0 m ρ c (Proc.devRef .tc main_arg7) := StableHlo.after_of_writes_sub hostOps0 _ hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := (W2_arr m ρ c 11).trans (((dat0 (V1 m ρ) c).arrAt_in 11 rfl _).trans (A_eq0 (V1 m ρ) c 11))
    _ = W0 m ρ c (Proc.devRef .tc main_arg9) := StableHlo.after_of_writes_sub hostOps0 _ hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps1_2 _ hostOps1_2_writes (by decide)
    _ = W3 m ρ c (Proc.devRef .tc main_arg11) := StableHlo.after_of_writes_sub hostOps1_1 _ hostOps1_1_writes (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps1_2 _ hostOps1_2_writes (by decide)
    _ = W3 m ρ c (Proc.devRef .tc main_arg12) := StableHlo.after_of_writes_sub hostOps1_1 _ hostOps1_1_writes (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := (W6_arr m ρ c 5).trans (((dat1 (V5 m ρ) c).arrAt_in 5 rfl _).trans (A_eq1 (V5 m ρ) c 5))
    _ = W4 m ρ c (Proc.devRef .tc main_arg13) := StableHlo.after_of_writes_sub hostOps1_2 _ hostOps1_2_writes (by decide)
    _ = W3 m ρ c (Proc.devRef .tc main_arg13) := StableHlo.after_of_writes_sub hostOps1_1 _ hostOps1_1_writes (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl
theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps1_2 _ hostOps1_2_writes (by decide)
    _ = W3 m ρ c (Proc.devRef .tc main_arg14) := StableHlo.after_of_writes_sub hostOps1_1 _ hostOps1_1_writes (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl
theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_writes_sub hostOps1_2 _ hostOps1_2_writes (by decide)
    _ = W3 m ρ c (Proc.devRef .tc main_arg15) := StableHlo.after_of_writes_sub hostOps1_1 _ hostOps1_1_writes (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl
theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_writes_sub hostOps1_2 _ hostOps1_2_writes (by decide)
    _ = W3 m ρ c (Proc.devRef .tc main_arg16) := StableHlo.after_of_writes_sub hostOps1_1 _ hostOps1_1_writes (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

/-! # The proof data family and the thread state -/

/-- Every pipeline's proof data, each at its region's entry contents: a literal match on the pipeline index. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! # The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays
    are split out of the unscoped buffers at entry and put back at the exit contents; the generator register goes into
    the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W5`, left at `W6`. Its arrays
    are split out of the unscoped buffers at entry and put back at the exit contents; the generator register goes into
    the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The program's six items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- The program IS the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of the program on
    the TensorCores terminates, nothing faulting, and every final memory holds, at every unscoped reference, the last
    fold's contents. -/
theorem run_mem : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME at any `F`: every weakly fair execution terminates, nothing faulting, and every final memory has each of
    the seventeen argument arrays as launched — the run above read at the arguments' references. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c)⟩) (run_mem m ρ)

end Cert.KernelIdeal.Hand

end
-- ==== Proof.RefResEq.lean ====
/-
  The reference's two results, as its run leaves them, are the last stages of the stage-by-stage reading of the program.
  The run leaves every buffer at the contents obtained by applying the program's 171 operations in order to the launch
  contents.  Reading that fold in one piece meets every shared intermediate value once per use, and the uses nest (each
  activation z · σ(z) reads its operand twice), so the operations are cut into 17 consecutive stretches, at points where
  few buffers are still to be read: after the position differences, around the two concatenations, after each activation's
  operand or result, after the counts, the first result, the mean edge features, the residual sum, the row mean, the row
  variance, and the normalised row.  For each stretch and each buffer it writes that is read later, one lemma over an
  ARBITRARY valuation W: if W holds, at the buffers the stretch reads, the stages of the arguments x0 … x16, then after the
  stretch the buffer holds its own stage of the arguments (the stretch's operations applied to those stages are the
  stage's definition unfolded).  A buffer a stretch does not write keeps its contents.  Composing the stretches from the
  launch contents, where each argument buffer holds the argument, gives every live buffer's stage after every stretch,
  and after the last stretch the two results.
-/
import proofs.«166594_j8684423872621_2_alg».proof.Proof.RefReadP

noncomputable section

namespace Cert.ReferenceIdeal.ResEq

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The contents after two stretches of operations run one after the other are the second stretch's contents from the
    first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one written buffer is in a list writes inside the list. -/
theorem writes_sub_of_mem {Wl : List (Ref sig .tc)} {op : HloOp τ sig (Elt F)} (y : Ref sig .tc)
    (h : op.writes = {Proc.devRef .tc y}) (hy : y ∈ Wl) :
    op.writes ⊆ (Wl.map (Proc.devRef (τ := τ) .tc)).toFinset := by
  rw [h]
  exact Finset.singleton_subset_iff.mpr (List.mem_toFinset.mpr (List.mem_map_of_mem hy))

/-! ## Stretch 1: operations 0 to 22 -/

/-- Operations 0 to 22 of the program, in order. -/
abbrev chunk1 : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    binary main_v10 main_v17 main_v18 (subf : (⟨S800000x3, .f32⟩ : BufTy).Contents (Elt F) → (⟨S800000x3, .f32⟩ : BufTy).Contents (Elt F) → (⟨S800000x3, .f32⟩ : BufTy).Contents (Elt F)) ]

/-- The buffers stretch 1 writes. -/
def writes1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18]

set_option maxRecDepth 8192 in
theorem chunk1_writes : (chunk1 (F := F)).Forall fun op => op.writes ⊆ ((writes1).map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_c rfl (by decide),
   writes_sub_of_mem main_v4 rfl (by decide),
   writes_sub_of_mem main_v5 rfl (by decide),
   writes_sub_of_mem main_c_0 rfl (by decide),
   writes_sub_of_mem main_v6 rfl (by decide),
   writes_sub_of_mem main_v7 rfl (by decide),
   writes_sub_of_mem main_v8 rfl (by decide),
   writes_sub_of_mem main_v9 rfl (by decide),
   writes_sub_of_mem main_v10 rfl (by decide),
   writes_sub_of_mem main_c_1 rfl (by decide),
   writes_sub_of_mem main_v11 rfl (by decide),
   writes_sub_of_mem main_v12 rfl (by decide),
   writes_sub_of_mem main_c_2 rfl (by decide),
   writes_sub_of_mem main_v13 rfl (by decide),
   writes_sub_of_mem main_v14 rfl (by decide),
   writes_sub_of_mem main_v15 rfl (by decide),
   writes_sub_of_mem main_v16 rfl (by decide),
   writes_sub_of_mem main_v17 rfl (by decide),
   writes_sub_of_mem main_v18 rfl (by decide)⟩

/-- A buffer stretch 1 does not write keeps its contents. -/
theorem keep1 (W : Valuation τ sig (Elt F)) (r : Ref sig .tc) (hr : r ∉ writes1) :
    after (chunk1 (F := F)) W (Proc.devRef .tc r) = W (Proc.devRef .tc r) :=
  after_of_writes_sub _ W chunk1_writes hr

set_option maxRecDepth 8192 in
set_option maxHeartbeats 4000000 in
/-- Stretch 1 leaves main_v1 at its stage of the arguments, from contents that hold the earlier stages it reads. -/
theorem out1_v1 (W : Valuation τ sig (Elt F))
    (x2 : (⟨S2x800000, .i32⟩ : BufTy).Contents (Elt F))
    (h_arg2 : W (Proc.devRef .tc main_arg2) = x2) :
    after (chunk1 (F := F)) W (Proc.devRef .tc main_v1) = val_main_v1 (F := F) x2 := by
  after_results_simp
  simp only [h_arg2]
  rfl

set_option maxRecDepth 8192 in
set_option maxHeartbeats 4000000 in
/-- Stretch 1 leaves main_v18 at its stage of the arguments, from contents that hold the earlier stages it reads. -/
theorem out1_v18 (W : Valuation τ sig (Elt F))
    (x0 : (⟨S50000x3, .f32⟩ : BufTy).Contents (Elt F)) (x2 : (⟨S2x800000, .i32⟩ : BufTy).Contents (Elt F))
    (h_arg2 : W (Proc.devRef .tc main_arg2) = x2)
    (h_arg0 : W (Proc.devRef .tc main_arg0) = x0) :
    after (chunk1 (F := F)) W (Proc.devRef .tc main_v18) = val_main_v18 (F := F) x0 x2 := by
  after_results_simp
  simp only [h_arg2, h_arg0]
  rfl

set_option maxRecDepth 8192 in
set_option maxHeartbeats 4000000 in
/-- Stretch 1 leaves main_v3 at its stage of the arguments, from contents that hold the earlier stages it reads. -/
theorem out1_v3 (W : Valuation τ sig (Elt F))
    (x2 : (⟨S2x800000, .i32⟩ : BufTy).Contents (Elt F))
    (h_arg2 : W (Proc.devRef .tc main_arg2) = x2) :
    after (chunk1 (F := F)) W (Proc.devRef .tc main_v3) = val_main_v3 (F := F) x2 := by
  after_results_simp
  simp only [h_arg2]
  rfl

/-! ## Stretch 2: operations 23 to 44 -/

/-- Operations 23 to 44 of the program, in order. -/
abbrev chunk2 : List (HloOp τ sig (Elt F)) :=
  [ binary main_v18 main_v18 main_v19 (mulf : (⟨S800000x3, .f32⟩ : BufTy).Contents (Elt F) → (⟨S800000x3, .f32⟩ : BufTy).Contents (Elt F) → (⟨S800000x3, .f32⟩ : BufTy).Contents (Elt F)),
    nullary main_cst (constant S_ .f32 0x00000000#32),
    binary main_v19 main_cst main_v20 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    unary main_v20 main_v21 (broadcastInDim S800000x1 ![0] bcast_S800000_S800000x1_0 : (⟨S800000, .f32⟩ : BufTy).Contents (Elt F) → (⟨S800000x1, .f32⟩ : BufTy).Contents (Elt F)),
    nullary main_c_3 (constantI S_ 32 0#32),
    unary main_c_3 main_v22 (broadcastInDim S800000 ![] bcast_S_S800000 : (⟨S_, .i32⟩ : BufTy).Contents (Elt F) → (⟨S800000, .i32⟩ : BufTy).Contents (Elt F)),
    binary main_v1 main_v22 main_v23 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v24 (broadcastInDim S800000 ![] bcast_S_S800000 : (⟨S_, .i32⟩ : BufTy).Contents (Elt F) → (⟨S800000, .i32⟩ : BufTy).Contents (Elt F)),
    binary main_v1 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v1 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_arg1 main_v27 main_v28 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_5 (constantI S_ 32 0#32),
    unary main_c_5 main_v29 (broadcastInDim S800000 ![] bcast_S_S800000 : (⟨S_, .i32⟩ : BufTy).Contents (Elt F) → (⟨S800000, .i32⟩ : BufTy).Contents (Elt F)),
    binary main_v3 main_v29 main_v30 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v31 (broadcastInDim S800000 ![] bcast_S_S800000 : (⟨S_, .i32⟩ : BufTy).Contents (Elt F) → (⟨S800000, .i32⟩ : BufTy).Contents (Elt F)),
    binary main_v3 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v3 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_arg1 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The buffers stretch 2 writes. -/
def writes2 : List (Ref sig .tc) := [main_v19, main_cst, main_v20, main_v21, main_c_3, main_v22, main_v23, main_c_4, main_v24, main_v25, main_v26, main_v27, main_v28, main_c_5, main_v29, main_v30, main_c_6, main_v31, main_v32, main_v33, main_v34, main_v35]

set_option maxRecDepth 8192 in
theorem chunk2_writes : (chunk2 (F := F)).Forall fun op => op.writes ⊆ ((writes2).map (Proc.devRef (τ := τ) .tc)).toFinset :=
  ⟨writes_sub_of_mem main_v19 rfl (by decide),
   writes_sub_of_mem main_cst rfl (by decide),
   writes_sub_of_mem main_v20 rfl (by decide),
   writes_sub_of_mem main_v21 rfl (by decide),
   writes_sub_of_mem main_c_3 rfl (by decide),
   writes_sub_of_mem main_v22 rfl (by decide),
   writes_sub_of_mem main_v23 rfl (by decide),
   writes_sub_of_mem main_c_4 rfl (by decide),
   writes_sub_of_mem main_v24 rfl (by decide),
   writes_sub_of_mem main_v25 rfl (by decide),
   writes_sub_of_mem main_v26 rfl (by decide),
   writes_sub_of_mem main_v27 rfl (by decide),
   writes_sub_of_mem main_v28 rfl (by decide),
   writes_sub_of_mem main_c_5 rfl (by decide),
   writes_sub_of_mem main_v29 rfl (by decide),
   writes_sub_of_mem main_v30 rfl (by decide),
   writes_sub_of_mem main_c_6 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide)⟩

/-- A buffer stretch 2 does not write keeps its contents. -/
theorem keep2 (W : Valuation τ sig (Elt F)) (r : Ref sig .tc) (hr : r ∉ writes2) :
    after (chunk2 (F := F)) W (Proc.devRef .tc r) = W (Proc.devRef .tc r) :=
  after_of_writes_sub _ W chunk2_writes hr

set_option maxRecDepth 8192 in
set_option maxHeartbeats 4000000 in
/-- Stretch 2 leaves main_v21 at its stage of the arguments, from contents that hold the earlier stages it reads. -/
theorem out2_v21 (W : Valuation τ sig (Elt F))
    (x0 : (⟨S50000x3, .f32⟩ : BufTy).Contents (Elt F)) (x2 : (⟨S2x800000, .i32⟩ : BufTy).Contents (Elt F))
    (h_v18 : W (Proc.devRef .tc main_v18) = val_main_v18 (F := F) x0 x2) :
    after (chunk2 (F := F)) W (Proc.devRef .tc main_v21) = val_main_v21 (F := F) x0 x2 := by
  after_results_simp
  simp only [h_v18]
  rfl

set_option maxRecDepth 8192 in
set_option maxHeartbeats 4000000 in
/-- Stretch 2 leaves main_v28 at its stage of the arguments, from contents that hold the earlier stages it reads. -/
theorem out2_v28 (W : Valuation τ sig (Elt F))
    (x1 : (⟨S50000x128, .f32⟩ : BufTy).Contents (Elt F)) (x2 : (⟨S2x800000, .i32⟩ : BufTy).Contents (Elt F))
    (h_v1 : W (Proc.devRef .tc main_v1) = val_main_v1 (F := F) x2)
    (h_arg1 : W (Proc.devRef .tc main_arg1) = x1) :
    after (chunk2 (F := F)) W (Proc.devRef .tc main_v28) = val_main_v28 (F := F) x1 x2 := by
  after_results_simp
  simp only [h_v1, h_arg1]
  rfl

set_option maxRecDepth 8192 in
set_option maxHeartbeats 4000000 in
/-- Stretch 2 leaves main_v35 at its stage of the arguments, from contents that hold the earlier stages it reads. -/
theorem out2_v35 (W : Valuation τ sig (Elt F))
    (x1 : (⟨S50000x128, .f32⟩ : BufTy).Contents (Elt F)) (x2 : (⟨S2x800000, .i32⟩ : BufTy).Contents (Elt F))
    (h_arg1 : W (Proc.devRef .tc main_arg1) = x1)
    (h_v3 : W (Proc.devRef .tc main_v3) = val_main_v3 (F := F) x2) :
    after (chunk2 (F := F)) W (Proc.devRef .tc main_v35) = val_main_v35 (F := F) x1 x2 := by
  after_results_simp
  simp only [h_arg1, h_v3]
  rfl

/-! ## Stretch 3: operations 45 to 45 -/

/-- Operations 45 to 45 of the program, in order. -/
abbrev chunk3 : List (HloOp τ sig (Elt F)) :=
  [ nary ![main_v28, main_v35, main_v21] main_v36 (fun u => concatenate S800000x257 1 [⟨S800000x128, u 0⟩, ⟨S800000x128, u 1⟩, ⟨S800000x1, u 2⟩] concatenates_S800000x128_S800000x128_S800000x1_S800000x257_d1) ]

/-- The buffers stretch 3 writes. -/
def writes3 : List (Ref sig .tc) := [main_v36]

set_option maxRecDepth 8192 in
theorem chunk3_writes : (chunk3 (F := F)).Forall fun op => op.writes ⊆ ((writes3).map (Proc.devRef (τ := τ) .tc)).toFinset :=
  writes_sub_of_mem main_v36 rfl (by decide)

/-- A buffer stretch 3 does not write keeps its contents. -/
theorem keep3 (W : Valuation τ sig (Elt F)) (r : Ref sig .tc) (hr : r ∉ writes3) :
    after (chunk3 (F := F)) W (Proc.devRef .tc r) = W (Proc.devRef .tc r) :=
  after_of_writes_sub _ W chunk3_writes hr

set_option maxRecDepth 8192 in
set_option maxHeartbeats 4000000 in
/-- Stretch 3 leaves main_v36 at its stage of the arguments, from contents that hold the earlier stages it reads. -/
theorem out3_v36 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F))
    (h_v28 : W (Proc.devRef .tc main_v28) = val_main_v28 (F := F) x1 x2)
    (h_v35 : W (Proc.devRef .tc main_v35) = val_main_v35 (F := F) x1 x2)
    (h_v21 : W (Proc.devRef .tc main_v21) = val_main_v21 (F := F) x0 x2) :
    after (chunk3 (F := F)) W (Proc.devRef .tc main_v36) = val_main_v36 (F := F) x0 x1 x2 := by
  simp only [after_cons, after_nil]
  rw [nary_result]
  show concatenate S800000x257 1 [⟨S800000x128, W (Proc.devRef .tc main_v28)⟩, ⟨S800000x128, W (Proc.devRef .tc main_v35)⟩, ⟨S800000x1, W (Proc.devRef .tc main_v21)⟩] concatenates_S800000x128_S800000x128_S800000x1_S800000x257_d1 = _
  rw [h_v28, h_v35, h_v21]
  rfl

/-! ## Stretch 4: operations 46 to 49 -/

/-- Operations 46 to 49 of the program, in order. -/
abbrev chunk4 : List (HloOp τ sig (Elt F)) :=
  [ binary main_v36 main_arg3 main_v37 ((fun l r => Host.dotGeneral dot_S800000x257_S257x128_S800000x128_1_0_0_1_n_n none l r) : (⟨S800000x257, .f32⟩ : BufTy).Contents (Elt F) → (⟨S257x128, .f32⟩ : BufTy).Contents (Elt F) → (⟨S800000x128, .f32⟩ : BufTy).Contents (Elt F)),
    unary main_arg4 main_v38 (broadcastInDim S1x128 ![1] bcast_S128_S1x128_1 : (⟨S128, .f32⟩ : BufTy).Contents (Elt F) → (⟨S1x128, .f32⟩ : BufTy).Contents (Elt F)),
    unary main_v38 main_v39 (broadcastInDim S800000x128 ![0, 1] bcast_S1x128_S800000x128_0_1 : (⟨S1x128, .f32⟩ : BufTy).Contents (Elt F) → (⟨S800000x128, .f32⟩ : BufTy).Contents (Elt F)),
    binary main_v37 main_v39 main_v40 (addf : (⟨S800000x128, .f32⟩ : BufTy).Contents (Elt F) → (⟨S800000x128, .f32⟩ : BufTy).Contents (Elt F) → (⟨S800000x128, .f32⟩ : BufTy).Contents (Elt F)) ]

/-- The buffers stretch 4 writes. -/
def writes4 : List (Ref sig .tc) := [main_v37, main_v38, main_v39, main_v40]

set_option maxRecDepth 8192 in
theorem chunk4_writes : (chunk4 (F := F)).Forall fun op => op.writes ⊆ ((writes4).map (Proc.devRef (τ := τ) .tc)).toFinset :=
  ⟨writes_sub_of_mem main_v37 rfl (by decide),
   writes_sub_of_mem main_v38 rfl (by decide),
   writes_sub_of_mem main_v39 rfl (by decide),
   writes_sub_of_mem main_v40 rfl (by decide)⟩

/-- A buffer stretch 4 does not write keeps its contents. -/
theorem keep4 (W : Valuation τ sig (Elt F)) (r : Ref sig .tc) (hr : r ∉ writes4) :
    after (chunk4 (F := F)) W (Proc.devRef .tc r) = W (Proc.devRef .tc r) :=
  after_of_writes_sub _ W chunk4_writes hr

set_option maxRecDepth 8192 in
set_option maxHeartbeats 4000000 in
/-- Stretch 4 leaves main_v40 at its stage of the arguments, from contents that hold the earlier stages it reads. -/
theorem out4_v40 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F))
    (h_v36 : W (Proc.devRef .tc main_v36) = val_main_v36 (F := F) x0 x1 x2)
    (h_arg3 : W (Proc.devRef .tc main_arg3) = x3)
    (h_arg4 : W (Proc.devRef .tc main_arg4) = x4) :
    after (chunk4 (F := F)) W (Proc.devRef .tc main_v40) = val_main_v40 (F := F) x0 x1 x2 x3 x4 := by
  after_results_simp
  simp only [h_v36, h_arg3, h_arg4]
  rfl

/-! ## Stretch 5: operations 50 to 62 -/

/-- Operations 50 to 62 of the program, in order. -/
abbrev chunk5 : List (HloOp τ sig (Elt F)) :=
  [ TRef.unary (TRef.of (T := ⟨S800000x128, .f32⟩) main_v40) (TRef.of (T := ⟨S800000x128, .f32⟩) main_call0_v0) Host.negf,
    TRef.unary (TRef.of (T := ⟨S800000x128, .f32⟩) main_call0_v0) (TRef.of (T := ⟨S800000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S800000x128, .f32⟩) main_call0_v2) (broadcastInDim S800000x128 ![] bcast_S_S800000x128),
    TRef.binary (TRef.of (T := ⟨S800000x128, .f32⟩) main_call0_v2) (TRef.of (T := ⟨S800000x128, .f32⟩) main_call0_v1) (TRef.of (T := ⟨S800000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S800000x128, .f32⟩) main_call0_v4) (broadcastInDim S800000x128 ![] bcast_S_S800000x128),
    TRef.binary (TRef.of (T := ⟨S800000x128, .f32⟩) main_call0_v4) (TRef.of (T := ⟨S800000x128, .f32⟩) main_call0_v3) (TRef.of (T := ⟨S800000x128, .f32⟩) main_call0_v5) Host.divf,
    TRef.binary (TRef.of (T := ⟨S800000x128, .f32⟩) main_v40) (TRef.of (T := ⟨S800000x128, .f32⟩) main_call0_v5) (TRef.of (T := ⟨S800000x128, .f32⟩) main_v41) mulf,
    binary main_v41 main_arg5 main_v42 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v43 (broadcastInDim S1x128 ![1] bcast_S128_S1x128_1 : (⟨S128, .f32⟩ : BufTy).Contents (Elt F) → (⟨S1x128, .f32⟩ : BufTy).Contents (Elt F)),
    unary main_v43 main_v44 (broadcastInDim S800000x128 ![0, 1] bcast_S1x128_S800000x128_0_1 : (⟨S1x128, .f32⟩ : BufTy).Contents (Elt F) → (⟨S800000x128, .f32⟩ : BufTy).Contents (Elt F)),
    binary main_v42 main_v44 main_v45 (addf : (⟨S800000x128, .f32⟩ : BufTy).Contents (Elt F) → (⟨S800000x128, .f32⟩ : BufTy).Contents (Elt F) → (⟨S800000x128, .f32⟩ : BufTy).Contents (Elt F)) ]

/-- The buffers stretch 5 writes. -/
def writes5 : List (Ref sig .tc) := [main_call0_v0, main_call0_v1, main_call0_cst, main_call0_v2, main_call0_v3, main_call0_cst_0, main_call0_v4, main_call0_v5, main_v41, main_v42, main_v43, main_v44, main_v45]

set_option maxRecDepth 8192 in
theorem chunk5_writes : (chunk5 (F := F)).Forall fun op => op.writes ⊆ ((writes5).map (Proc.devRef (τ := τ) .tc)).toFinset :=
  ⟨writes_sub_of_mem main_call0_v0 rfl (by decide),
   writes_sub_of_mem main_call0_v1 rfl (by decide),
   writes_sub_of_mem main_call0_cst rfl (by decide),
   writes_sub_of_mem main_call0_v2 rfl (by decide),
   writes_sub_of_mem main_call0_v3 rfl (by decide),
   writes_sub_of_mem main_call0_cst_0 rfl (by decide),
   writes_sub_of_mem main_call0_v4 rfl (by decide),
   writes_sub_of_mem main_call0_v5 rfl (by decide),
   writes_sub_of_mem main_v41 rfl (by decide),
   writes_sub_of_mem main_v42 rfl (by decide),
   writes_sub_of_mem main_v43 rfl (by decide),
   writes_sub_of_mem main_v44 rfl (by decide),
   writes_sub_of_mem main_v45 rfl (by decide)⟩

/-- A buffer stretch 5 does not write keeps its contents. -/
theorem keep5 (W : Valuation τ sig (Elt F)) (r : Ref sig .tc) (hr : r ∉ writes5) :
    after (chunk5 (F := F)) W (Proc.devRef .tc r) = W (Proc.devRef .tc r) :=
  after_of_writes_sub _ W chunk5_writes hr

set_option maxRecDepth 8192 in
set_option maxHeartbeats 4000000 in
/-- Stretch 5 leaves main_v45 at its stage of the arguments, from contents that hold the earlier stages it reads. -/
theorem out5_v45 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h_v40 : W (Proc.devRef .tc main_v40) = val_main_v40 (F := F) x0 x1 x2 x3 x4)
    (h_arg5 : W (Proc.devRef .tc main_arg5) = x5)
    (h_arg6 : W (Proc.devRef .tc main_arg6) = x6) :
    after (chunk5 (F := F)) W (Proc.devRef .tc main_v45) = val_main_v45 (F := F) x0 x1 x2 x3 x4 x5 x6 := by
  after_results_simp
  simp only [h_v40, h_arg5, h_arg6]
  rfl

/-! ## Stretch 6: operations 63 to 75 -/

/-- Operations 63 to 75 of the program, in order. -/
abbrev chunk6 : List (HloOp τ sig (Elt F)) :=
  [ TRef.unary (TRef.of (T := ⟨S800000x128, .f32⟩) main_v45) (TRef.of (T := ⟨S800000x128, .f32⟩) main_call1_v0) Host.negf,
    TRef.unary (TRef.of (T := ⟨S800000x128, .f32⟩) main_call1_v0) (TRef.of (T := ⟨S800000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S800000x128, .f32⟩) main_call1_v2) (broadcastInDim S800000x128 ![] bcast_S_S800000x128),
    TRef.binary (TRef.of (T := ⟨S800000x128, .f32⟩) main_call1_v2) (TRef.of (T := ⟨S800000x128, .f32⟩) main_call1_v1) (TRef.of (T := ⟨S800000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S800000x128, .f32⟩) main_call1_v4) (broadcastInDim S800000x128 ![] bcast_S_S800000x128),
    TRef.binary (TRef.of (T := ⟨S800000x128, .f32⟩) main_call1_v4) (TRef.of (T := ⟨S800000x128, .f32⟩) main_call1_v3) (TRef.of (T := ⟨S800000x128, .f32⟩) main_call1_v5) Host.divf,
    TRef.binary (TRef.of (T := ⟨S800000x128, .f32⟩) main_v45) (TRef.of (T := ⟨S800000x128, .f32⟩) main_call1_v5) (TRef.of (T := ⟨S800000x128, .f32⟩) main_v46) mulf,
    binary main_v46 main_arg7 main_v47 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg8 main_v48 (broadcastInDim S1x128 ![1] bcast_S128_S1x128_1 : (⟨S128, .f32⟩ : BufTy).Contents (Elt F) → (⟨S1x128, .f32⟩ : BufTy).Contents (Elt F)),
    unary main_v48 main_v49 (broadcastInDim S800000x128 ![0, 1] bcast_S1x128_S800000x128_0_1 : (⟨S1x128, .f32⟩ : BufTy).Contents (Elt F) → (⟨S800000x128, .f32⟩ : BufTy).Contents (Elt F)),
    binary main_v47 main_v49 main_v50 (addf : (⟨S800000x128, .f32⟩ : BufTy).Contents (Elt F) → (⟨S800000x128, .f32⟩ : BufTy).Contents (Elt F) → (⟨S800000x128, .f32⟩ : BufTy).Contents (Elt F)) ]

/-- The buffers stretch 6 writes. -/
def writes6 : List (Ref sig .tc) := [main_call1_v0, main_call1_v1, main_call1_cst, main_call1_v2, main_call1_v3, main_call1_cst_0, main_call1_v4, main_call1_v5, main_v46, main_v47, main_v48, main_v49, main_v50]

set_option maxRecDepth 8192 in
theorem chunk6_writes : (chunk6 (F := F)).Forall fun op => op.writes ⊆ ((writes6).map (Proc.devRef (τ := τ) .tc)).toFinset :=
  ⟨writes_sub_of_mem main_call1_v0 rfl (by decide),
   writes_sub_of_mem main_call1_v1 rfl (by decide),
   writes_sub_of_mem main_call1_cst rfl (by decide),
   writes_sub_of_mem main_call1_v2 rfl (by decide),
   writes_sub_of_mem main_call1_v3 rfl (by decide),
   writes_sub_of_mem main_call1_cst_0 rfl (by decide),
   writes_sub_of_mem main_call1_v4 rfl (by decide),
   writes_sub_of_mem main_call1_v5 rfl (by decide),
   writes_sub_of_mem main_v46 rfl (by decide),
   writes_sub_of_mem main_v47 rfl (by decide),
   writes_sub_of_mem main_v48 rfl (by decide),
   writes_sub_of_mem main_v49 rfl (by decide),
   writes_sub_of_mem main_v50 rfl (by decide)⟩

/-- A buffer stretch 6 does not write keeps its contents. -/
theorem keep6 (W : Valuation τ sig (Elt F)) (r : Ref sig .tc) (hr : r ∉ writes6) :
    after (chunk6 (F := F)) W (Proc.devRef .tc r) = W (Proc.devRef .tc r) :=
  after_of_writes_sub _ W chunk6_writes hr

set_option maxRecDepth 8192 in
set_option maxHeartbeats 4000000 in
/-- Stretch 6 leaves main_v46 at its stage of the arguments, from contents that hold the earlier stages it reads. -/
theorem out6_v46 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h_v45 : W (Proc.devRef .tc main_v45) = val_main_v45 (F := F) x0 x1 x2 x3 x4 x5 x6) :
    after (chunk6 (F := F)) W (Proc.devRef .tc main_v46) = val_main_v46 (F := F) x0 x1 x2 x3 x4 x5 x6 := by
  after_results_simp
  simp only [h_v45]
  rfl

set_option maxRecDepth 8192 in
set_option maxHeartbeats 4000000 in
/-- Stretch 6 leaves main_v50 at its stage of the arguments, from contents that hold the earlier stages it reads. -/
theorem out6_v50 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h_v45 : W (Proc.devRef .tc main_v45) = val_main_v45 (F := F) x0 x1 x2 x3 x4 x5 x6)
    (h_arg7 : W (Proc.devRef .tc main_arg7) = x7)
    (h_arg8 : W (Proc.devRef .tc main_arg8) = x8) :
    after (chunk6 (F := F)) W (Proc.devRef .tc main_v50) = val_main_v50 (F := F) x0 x1 x2 x3 x4 x5 x6 x7 x8 := by
  after_results_simp
  simp only [h_v45, h_arg7, h_arg8]
  rfl

/-! ## Stretch 7: operations 76 to 88 -/

/-- Operations 76 to 88 of the program, in order. -/
abbrev chunk7 : List (HloOp τ sig (Elt F)) :=
  [ TRef.unary (TRef.of (T := ⟨S800000x128, .f32⟩) main_v50) (TRef.of (T := ⟨S800000x128, .f32⟩) main_call2_v0) Host.negf,
    TRef.unary (TRef.of (T := ⟨S800000x128, .f32⟩) main_call2_v0) (TRef.of (T := ⟨S800000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S800000x128, .f32⟩) main_call2_v2) (broadcastInDim S800000x128 ![] bcast_S_S800000x128),
    TRef.binary (TRef.of (T := ⟨S800000x128, .f32⟩) main_call2_v2) (TRef.of (T := ⟨S800000x128, .f32⟩) main_call2_v1) (TRef.of (T := ⟨S800000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S800000x128, .f32⟩) main_call2_v4) (broadcastInDim S800000x128 ![] bcast_S_S800000x128),
    TRef.binary (TRef.of (T := ⟨S800000x128, .f32⟩) main_call2_v4) (TRef.of (T := ⟨S800000x128, .f32⟩) main_call2_v3) (TRef.of (T := ⟨S800000x128, .f32⟩) main_call2_v5) Host.divf,
    TRef.binary (TRef.of (T := ⟨S800000x128, .f32⟩) main_v50) (TRef.of (T := ⟨S800000x128, .f32⟩) main_call2_v5) (TRef.of (T := ⟨S800000x128, .f32⟩) main_v51) mulf,
    binary main_v51 main_arg9 main_v52 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_arg10 main_v53 (broadcastInDim S1x1 ![1] bcast_S1_S1x1_1 : (⟨S1, .f32⟩ : BufTy).Contents (Elt F) → (⟨S1x1, .f32⟩ : BufTy).Contents (Elt F)),
    unary main_v53 main_v54 (broadcastInDim S800000x1 ![0, 1] bcast_S1x1_S800000x1_0_1 : (⟨S1x1, .f32⟩ : BufTy).Contents (Elt F) → (⟨S800000x1, .f32⟩ : BufTy).Contents (Elt F)),
    binary main_v52 main_v54 main_v55 (addf : (⟨S800000x1, .f32⟩ : BufTy).Contents (Elt F) → (⟨S800000x1, .f32⟩ : BufTy).Contents (Elt F) → (⟨S800000x1, .f32⟩ : BufTy).Contents (Elt F)) ]

/-- The buffers stretch 7 writes. -/
def writes7 : List (Ref sig .tc) := [main_call2_v0, main_call2_v1, main_call2_cst, main_call2_v2, main_call2_v3, main_call2_cst_0, main_call2_v4, main_call2_v5, main_v51, main_v52, main_v53, main_v54, main_v55]

set_option maxRecDepth 8192 in
theorem chunk7_writes : (chunk7 (F := F)).Forall fun op => op.writes ⊆ ((writes7).map (Proc.devRef (τ := τ) .tc)).toFinset :=
  ⟨writes_sub_of_mem main_call2_v0 rfl (by decide),
   writes_sub_of_mem main_call2_v1 rfl (by decide),
   writes_sub_of_mem main_call2_cst rfl (by decide),
   writes_sub_of_mem main_call2_v2 rfl (by decide),
   writes_sub_of_mem main_call2_v3 rfl (by decide),
   writes_sub_of_mem main_call2_cst_0 rfl (by decide),
   writes_sub_of_mem main_call2_v4 rfl (by decide),
   writes_sub_of_mem main_call2_v5 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide)⟩

/-- A buffer stretch 7 does not write keeps its contents. -/
theorem keep7 (W : Valuation τ sig (Elt F)) (r : Ref sig .tc) (hr : r ∉ writes7) :
    after (chunk7 (F := F)) W (Proc.devRef .tc r) = W (Proc.devRef .tc r) :=
  after_of_writes_sub _ W chunk7_writes hr

set_option maxRecDepth 8192 in
set_option maxHeartbeats 4000000 in
/-- Stretch 7 leaves main_v55 at its stage of the arguments, from contents that hold the earlier stages it reads. -/
theorem out7_v55 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F))
    (h_v50 : W (Proc.devRef .tc main_v50) = val_main_v50 (F := F) x0 x1 x2 x3 x4 x5 x6 x7 x8)
    (h_arg9 : W (Proc.devRef .tc main_arg9) = x9)
    (h_arg10 : W (Proc.devRef .tc main_arg10) = x10) :
    after (chunk7 (F := F)) W (Proc.devRef .tc main_v55) = val_main_v55 (F := F) x0 x1 x2 x3 x4 x5 x6 x7 x8 x9 x10 := by
  after_results_simp
  simp only [h_v50, h_arg9, h_arg10]
  rfl

/-! ## Stretch 8: operations 89 to 98 -/

/-- Operations 89 to 98 of the program, in order. -/
abbrev chunk8 : List (HloOp τ sig (Elt F)) :=
  [ nullary main_cst_7 (constant S_ .f32 0x3F800000#32),
    unary main_cst_7 main_v56 (broadcastInDim S800000x1 ![] bcast_S_S800000x1 : (⟨S_, .f32⟩ : BufTy).Contents (Elt F) → (⟨S800000x1, .f32⟩ : BufTy).Contents (Elt F)),
    nullary main_cst_8 (constant S_ .f32 0x00000000#32),
    unary main_cst_8 main_v57 (broadcastInDim S50000x1 ![] bcast_S_S50000x1 : (⟨S_, .f32⟩ : BufTy).Contents (Elt F) → (⟨S50000x1, .f32⟩ : BufTy).Contents (Elt F)),
    unary main_v1 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_9 (constant S_ .f32 0x3F800000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S50000x1, .f32⟩) main_call3_v1) (broadcastInDim S50000x1 ![] bcast_S_S50000x1),
    TRef.binary (TRef.of (T := ⟨S50000x1, .f32⟩) main_call3_v1) (TRef.of (T := ⟨S50000x1, .f32⟩) main_v59) (TRef.of (T := ⟨S50000x1, .f32⟩) main_v60) maximumf ]

/-- The buffers stretch 8 writes. -/
def writes8 : List (Ref sig .tc) := [main_cst_7, main_v56, main_cst_8, main_v57, main_v58, main_v59, main_cst_9, main_call3_v0, main_call3_v1, main_v60]

set_option maxRecDepth 8192 in
theorem chunk8_writes : (chunk8 (F := F)).Forall fun op => op.writes ⊆ ((writes8).map (Proc.devRef (τ := τ) .tc)).toFinset :=
  ⟨writes_sub_of_mem main_cst_7 rfl (by decide),
   writes_sub_of_mem main_v56 rfl (by decide),
   writes_sub_of_mem main_cst_8 rfl (by decide),
   writes_sub_of_mem main_v57 rfl (by decide),
   writes_sub_of_mem main_v58 rfl (by decide),
   writes_sub_of_mem main_v59 rfl (by decide),
   writes_sub_of_mem main_cst_9 rfl (by decide),
   writes_sub_of_mem main_call3_v0 rfl (by decide),
   writes_sub_of_mem main_call3_v1 rfl (by decide),
   writes_sub_of_mem main_v60 rfl (by decide)⟩

/-- A buffer stretch 8 does not write keeps its contents. -/
theorem keep8 (W : Valuation τ sig (Elt F)) (r : Ref sig .tc) (hr : r ∉ writes8) :
    after (chunk8 (F := F)) W (Proc.devRef .tc r) = W (Proc.devRef .tc r) :=
  after_of_writes_sub _ W chunk8_writes hr

set_option maxRecDepth 8192 in
set_option maxHeartbeats 4000000 in
/-- Stretch 8 leaves main_v60 at its stage of the arguments, from contents that hold the earlier stages it reads. -/
theorem out8_v60 (W : Valuation τ sig (Elt F))
    (x2 : (⟨S2x800000, .i32⟩ : BufTy).Contents (Elt F))
    (h_v1 : W (Proc.devRef .tc main_v1) = val_main_v1 (F := F) x2) :
    after (chunk8 (F := F)) W (Proc.devRef .tc main_v60) = val_main_v60 (F := F) x2 := by
  after_results_simp
  simp only [h_v1]
  rfl

/-! ## Stretch 9: operations 99 to 107 -/

/-- Operations 99 to 107 of the program, in order. -/
abbrev chunk9 : List (HloOp τ sig (Elt F)) :=
  [ unary main_v55 main_v61 (broadcastInDim S800000x3 ![0, 1] bcast_S800000x1_S800000x3_0_1 : (⟨S800000x1, .f32⟩ : BufTy).Contents (Elt F) → (⟨S800000x3, .f32⟩ : BufTy).Contents (Elt F)),
    binary main_v18 main_v61 main_v62 (mulf : (⟨S800000x3, .f32⟩ : BufTy).Contents (Elt F) → (⟨S800000x3, .f32⟩ : BufTy).Contents (Elt F) → (⟨S800000x3, .f32⟩ : BufTy).Contents (Elt F)),
    nullary main_cst_10 (constant S_ .f32 0x00000000#32),
    unary main_cst_10 main_v63 (broadcastInDim S50000x3 ![] bcast_S_S50000x3 : (⟨S_, .f32⟩ : BufTy).Contents (Elt F) → (⟨S50000x3, .f32⟩ : BufTy).Contents (Elt F)),
    unary main_v1 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    unary main_v60 main_v66 (broadcastInDim S50000x3 ![0, 1] bcast_S50000x1_S50000x3_0_1 : (⟨S50000x1, .f32⟩ : BufTy).Contents (Elt F) → (⟨S50000x3, .f32⟩ : BufTy).Contents (Elt F)),
    binary main_v65 main_v66 main_v67 (Host.divf : (⟨S50000x3, .f32⟩ : BufTy).Contents (Elt F) → (⟨S50000x3, .f32⟩ : BufTy).Contents (Elt F) → (⟨S50000x3, .f32⟩ : BufTy).Contents (Elt F)),
    binary main_arg0 main_v67 main_v68 (addf : (⟨S50000x3, .f32⟩ : BufTy).Contents (Elt F) → (⟨S50000x3, .f32⟩ : BufTy).Contents (Elt F) → (⟨S50000x3, .f32⟩ : BufTy).Contents (Elt F)) ]

/-- The buffers stretch 9 writes. -/
def writes9 : List (Ref sig .tc) := [main_v61, main_v62, main_cst_10, main_v63, main_v64, main_v65, main_v66, main_v67, main_v68]

set_option maxRecDepth 8192 in
theorem chunk9_writes : (chunk9 (F := F)).Forall fun op => op.writes ⊆ ((writes9).map (Proc.devRef (τ := τ) .tc)).toFinset :=
  ⟨writes_sub_of_mem main_v61 rfl (by decide),
   writes_sub_of_mem main_v62 rfl (by decide),
   writes_sub_of_mem main_cst_10 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_v68 rfl (by decide)⟩

/-- A buffer stretch 9 does not write keeps its contents. -/
theorem keep9 (W : Valuation τ sig (Elt F)) (r : Ref sig .tc) (hr : r ∉ writes9) :
    after (chunk9 (F := F)) W (Proc.devRef .tc r) = W (Proc.devRef .tc r) :=
  after_of_writes_sub _ W chunk9_writes hr

set_option maxRecDepth 8192 in
set_option maxHeartbeats 4000000 in
/-- Stretch 9 leaves main_v68 at its stage of the arguments, from contents that hold the earlier stages it reads. -/
theorem out9_v68 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F))
    (h_v55 : W (Proc.devRef .tc main_v55) = val_main_v55 (F := F) x0 x1 x2 x3 x4 x5 x6 x7 x8 x9 x10)
    (h_v18 : W (Proc.devRef .tc main_v18) = val_main_v18 (F := F) x0 x2)
    (h_v1 : W (Proc.devRef .tc main_v1) = val_main_v1 (F := F) x2)
    (h_v60 : W (Proc.devRef .tc main_v60) = val_main_v60 (F := F) x2)
    (h_arg0 : W (Proc.devRef .tc main_arg0) = x0) :
    after (chunk9 (F := F)) W (Proc.devRef .tc main_v68) = val_main_v68 (F := F) x0 x1 x2 x3 x4 x5 x6 x7 x8 x9 x10 := by
  after_results_simp
  simp only [h_v55, h_v18, h_v1, h_v60, h_arg0]
  rfl

/-! ## Stretch 10: operations 108 to 113 -/

/-- Operations 108 to 113 of the program, in order. -/
abbrev chunk10 : List (HloOp τ sig (Elt F)) :=
  [ nullary main_cst_11 (constant S_ .f32 0x00000000#32),
    unary main_cst_11 main_v69 (broadcastInDim S50000x128 ![] bcast_S_S50000x128 : (⟨S_, .f32⟩ : BufTy).Contents (Elt F) → (⟨S50000x128, .f32⟩ : BufTy).Contents (Elt F)),
    unary main_v1 main_v70 (broadcastInDim S800000x1 ![0] bcast_S800000_S800000x1_0 : (⟨S800000, .i32⟩ : BufTy).Contents (Elt F) → (⟨S800000x1, .i32⟩ : BufTy).Contents (Elt F)),
    ternary main_v69 main_v70 main_v46 main_v71 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v60 main_v72 (broadcastInDim S50000x128 ![0, 1] bcast_S50000x1_S50000x128_0_1 : (⟨S50000x1, .f32⟩ : BufTy).Contents (Elt F) → (⟨S50000x128, .f32⟩ : BufTy).Contents (Elt F)),
    binary main_v71 main_v72 main_v73 (Host.divf : (⟨S50000x128, .f32⟩ : BufTy).Contents (Elt F) → (⟨S50000x128, .f32⟩ : BufTy).Contents (Elt F) → (⟨S50000x128, .f32⟩ : BufTy).Contents (Elt F)) ]

/-- The buffers stretch 10 writes. -/
def writes10 : List (Ref sig .tc) := [main_cst_11, main_v69, main_v70, main_v71, main_v72, main_v73]

set_option maxRecDepth 8192 in
theorem chunk10_writes : (chunk10 (F := F)).Forall fun op => op.writes ⊆ ((writes10).map (Proc.devRef (τ := τ) .tc)).toFinset :=
  ⟨writes_sub_of_mem main_cst_11 rfl (by decide),
   writes_sub_of_mem main_v69 rfl (by decide),
   writes_sub_of_mem main_v70 rfl (by decide),
   writes_sub_of_mem main_v71 rfl (by decide),
   writes_sub_of_mem main_v72 rfl (by decide),
   writes_sub_of_mem main_v73 rfl (by decide)⟩

/-- A buffer stretch 10 does not write keeps its contents. -/
theorem keep10 (W : Valuation τ sig (Elt F)) (r : Ref sig .tc) (hr : r ∉ writes10) :
    after (chunk10 (F := F)) W (Proc.devRef .tc r) = W (Proc.devRef .tc r) :=
  after_of_writes_sub _ W chunk10_writes hr

set_option maxRecDepth 8192 in
set_option maxHeartbeats 4000000 in
/-- Stretch 10 leaves main_v73 at its stage of the arguments, from contents that hold the earlier stages it reads. -/
theorem out10_v73 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h_v1 : W (Proc.devRef .tc main_v1) = val_main_v1 (F := F) x2)
    (h_v46 : W (Proc.devRef .tc main_v46) = val_main_v46 (F := F) x0 x1 x2 x3 x4 x5 x6)
    (h_v60 : W (Proc.devRef .tc main_v60) = val_main_v60 (F := F) x2) :
    after (chunk10 (F := F)) W (Proc.devRef .tc main_v73) = val_main_v73 (F := F) x0 x1 x2 x3 x4 x5 x6 := by
  after_results_simp
  simp only [h_v1, h_v46, h_v60]
  rfl

/-! ## Stretch 11: operations 114 to 114 -/

/-- Operations 114 to 114 of the program, in order. -/
abbrev chunk11 : List (HloOp τ sig (Elt F)) :=
  [ binary main_arg1 main_v73 main_v74 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]

/-- The buffers stretch 11 writes. -/
def writes11 : List (Ref sig .tc) := [main_v74]

set_option maxRecDepth 8192 in
theorem chunk11_writes : (chunk11 (F := F)).Forall fun op => op.writes ⊆ ((writes11).map (Proc.devRef (τ := τ) .tc)).toFinset :=
  writes_sub_of_mem main_v74 rfl (by decide)

/-- A buffer stretch 11 does not write keeps its contents. -/
theorem keep11 (W : Valuation τ sig (Elt F)) (r : Ref sig .tc) (hr : r ∉ writes11) :
    after (chunk11 (F := F)) W (Proc.devRef .tc r) = W (Proc.devRef .tc r) :=
  after_of_writes_sub _ W chunk11_writes hr

set_option maxRecDepth 8192 in
set_option maxHeartbeats 4000000 in
/-- Stretch 11 leaves main_v74 at its stage of the arguments, from contents that hold the earlier stages it reads. -/
theorem out11_v74 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h_arg1 : W (Proc.devRef .tc main_arg1) = x1)
    (h_v73 : W (Proc.devRef .tc main_v73) = val_main_v73 (F := F) x0 x1 x2 x3 x4 x5 x6) :
    after (chunk11 (F := F)) W (Proc.devRef .tc main_v74) = val_main_v74 (F := F) x0 x1 x2 x3 x4 x5 x6 := by
  simp only [after_cons, after_nil]
  rw [binary_result]
  rw [h_arg1, h_v73]
  rfl

/-! ## Stretch 12: operations 115 to 118 -/

/-- Operations 115 to 118 of the program, in order. -/
abbrev chunk12 : List (HloOp τ sig (Elt F)) :=
  [ binary main_v74 main_arg11 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg12 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)) ]

/-- The buffers stretch 12 writes. -/
def writes12 : List (Ref sig .tc) := [main_v75, main_v76, main_v77, main_v78]

set_option maxRecDepth 8192 in
theorem chunk12_writes : (chunk12 (F := F)).Forall fun op => op.writes ⊆ ((writes12).map (Proc.devRef (τ := τ) .tc)).toFinset :=
  ⟨writes_sub_of_mem main_v75 rfl (by decide),
   writes_sub_of_mem main_v76 rfl (by decide),
   writes_sub_of_mem main_v77 rfl (by decide),
   writes_sub_of_mem main_v78 rfl (by decide)⟩

/-- A buffer stretch 12 does not write keeps its contents. -/
theorem keep12 (W : Valuation τ sig (Elt F)) (r : Ref sig .tc) (hr : r ∉ writes12) :
    after (chunk12 (F := F)) W (Proc.devRef .tc r) = W (Proc.devRef .tc r) :=
  after_of_writes_sub _ W chunk12_writes hr

set_option maxRecDepth 8192 in
set_option maxHeartbeats 4000000 in
/-- Stretch 12 leaves main_v78 at its stage of the arguments, from contents that hold the earlier stages it reads. -/
theorem out12_v78 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S256x128, .f32⟩ : BufTy).Contents (Elt F)) (x12 : (⟨S128, .f32⟩ : BufTy).Contents (Elt F))
    (h_v74 : W (Proc.devRef .tc main_v74) = val_main_v74 (F := F) x0 x1 x2 x3 x4 x5 x6)
    (h_arg11 : W (Proc.devRef .tc main_arg11) = x11)
    (h_arg12 : W (Proc.devRef .tc main_arg12) = x12) :
    after (chunk12 (F := F)) W (Proc.devRef .tc main_v78) = val_main_v78 (F := F) x0 x1 x2 x3 x4 x5 x6 x11 x12 := by
  after_results_simp
  simp only [h_v74, h_arg11, h_arg12]
  rfl

/-! ## Stretch 13: operations 119 to 132 -/

/-- Operations 119 to 132 of the program, in order. -/
abbrev chunk13 : List (HloOp τ sig (Elt F)) :=
  [ TRef.unary (TRef.of (T := ⟨S50000x128, .f32⟩) main_v78) (TRef.of (T := ⟨S50000x128, .f32⟩) main_call4_v0) Host.negf,
    TRef.unary (TRef.of (T := ⟨S50000x128, .f32⟩) main_call4_v0) (TRef.of (T := ⟨S50000x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S50000x128, .f32⟩) main_call4_v2) (broadcastInDim S50000x128 ![] bcast_S_S50000x128),
    TRef.binary (TRef.of (T := ⟨S50000x128, .f32⟩) main_call4_v2) (TRef.of (T := ⟨S50000x128, .f32⟩) main_call4_v1) (TRef.of (T := ⟨S50000x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S50000x128, .f32⟩) main_call4_v4) (broadcastInDim S50000x128 ![] bcast_S_S50000x128),
    TRef.binary (TRef.of (T := ⟨S50000x128, .f32⟩) main_call4_v4) (TRef.of (T := ⟨S50000x128, .f32⟩) main_call4_v3) (TRef.of (T := ⟨S50000x128, .f32⟩) main_call4_v5) Host.divf,
    TRef.binary (TRef.of (T := ⟨S50000x128, .f32⟩) main_v78) (TRef.of (T := ⟨S50000x128, .f32⟩) main_call4_v5) (TRef.of (T := ⟨S50000x128, .f32⟩) main_v79) mulf,
    binary main_v79 main_arg13 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v80 main_v82 main_v83 (addf : (⟨S50000x128, .f32⟩ : BufTy).Contents (Elt F) → (⟨S50000x128, .f32⟩ : BufTy).Contents (Elt F) → (⟨S50000x128, .f32⟩ : BufTy).Contents (Elt F)),
    binary main_arg1 main_v83 main_v84 (addf : (⟨S50000x128, .f32⟩ : BufTy).Contents (Elt F) → (⟨S50000x128, .f32⟩ : BufTy).Contents (Elt F) → (⟨S50000x128, .f32⟩ : BufTy).Contents (Elt F)) ]

/-- The buffers stretch 13 writes. -/
def writes13 : List (Ref sig .tc) := [main_call4_v0, main_call4_v1, main_call4_cst, main_call4_v2, main_call4_v3, main_call4_cst_0, main_call4_v4, main_call4_v5, main_v79, main_v80, main_v81, main_v82, main_v83, main_v84]

set_option maxRecDepth 8192 in
theorem chunk13_writes : (chunk13 (F := F)).Forall fun op => op.writes ⊆ ((writes13).map (Proc.devRef (τ := τ) .tc)).toFinset :=
  ⟨writes_sub_of_mem main_call4_v0 rfl (by decide),
   writes_sub_of_mem main_call4_v1 rfl (by decide),
   writes_sub_of_mem main_call4_cst rfl (by decide),
   writes_sub_of_mem main_call4_v2 rfl (by decide),
   writes_sub_of_mem main_call4_v3 rfl (by decide),
   writes_sub_of_mem main_call4_cst_0 rfl (by decide),
   writes_sub_of_mem main_call4_v4 rfl (by decide),
   writes_sub_of_mem main_call4_v5 rfl (by decide),
   writes_sub_of_mem main_v79 rfl (by decide),
   writes_sub_of_mem main_v80 rfl (by decide),
   writes_sub_of_mem main_v81 rfl (by decide),
   writes_sub_of_mem main_v82 rfl (by decide),
   writes_sub_of_mem main_v83 rfl (by decide),
   writes_sub_of_mem main_v84 rfl (by decide)⟩

/-- A buffer stretch 13 does not write keeps its contents. -/
theorem keep13 (W : Valuation τ sig (Elt F)) (r : Ref sig .tc) (hr : r ∉ writes13) :
    after (chunk13 (F := F)) W (Proc.devRef .tc r) = W (Proc.devRef .tc r) :=
  after_of_writes_sub _ W chunk13_writes hr

set_option maxRecDepth 8192 in
set_option maxHeartbeats 4000000 in
/-- Stretch 13 leaves main_v84 at its stage of the arguments, from contents that hold the earlier stages it reads. -/
theorem out13_v84 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S256x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F))
    (h_v78 : W (Proc.devRef .tc main_v78) = val_main_v78 (F := F) x0 x1 x2 x3 x4 x5 x6 x11 x12)
    (h_arg13 : W (Proc.devRef .tc main_arg13) = x13)
    (h_arg14 : W (Proc.devRef .tc main_arg14) = x14)
    (h_arg1 : W (Proc.devRef .tc main_arg1) = x1) :
    after (chunk13 (F := F)) W (Proc.devRef .tc main_v84) = val_main_v84 (F := F) x0 x1 x2 x3 x4 x5 x6 x11 x12 x13 x14 := by
  after_results_simp
  simp only [h_v78, h_arg13, h_arg14, h_arg1]
  rfl

/-! ## Stretch 14: operations 133 to 138 -/

/-- Operations 133 to 138 of the program, in order. -/
abbrev chunk14 : List (HloOp τ sig (Elt F)) :=
  [ nullary main_cst_12 (constant S_ .f32 0x00000000#32),
    binary main_v84 main_cst_12 main_v85 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v85 main_v86 (broadcastInDim S50000x1 ![0] bcast_S50000_S50000x1_0 : (⟨S50000, .f32⟩ : BufTy).Contents (Elt F) → (⟨S50000x1, .f32⟩ : BufTy).Contents (Elt F)),
    nullary main_cst_13 (constant S_ .f32 0x43000000#32),
    unary main_cst_13 main_v87 (broadcastInDim S50000x1 ![] bcast_S_S50000x1 : (⟨S_, .f32⟩ : BufTy).Contents (Elt F) → (⟨S50000x1, .f32⟩ : BufTy).Contents (Elt F)),
    binary main_v86 main_v87 main_v88 (Host.divf : (⟨S50000x1, .f32⟩ : BufTy).Contents (Elt F) → (⟨S50000x1, .f32⟩ : BufTy).Contents (Elt F) → (⟨S50000x1, .f32⟩ : BufTy).Contents (Elt F)) ]

/-- The buffers stretch 14 writes. -/
def writes14 : List (Ref sig .tc) := [main_cst_12, main_v85, main_v86, main_cst_13, main_v87, main_v88]

set_option maxRecDepth 8192 in
theorem chunk14_writes : (chunk14 (F := F)).Forall fun op => op.writes ⊆ ((writes14).map (Proc.devRef (τ := τ) .tc)).toFinset :=
  ⟨writes_sub_of_mem main_cst_12 rfl (by decide),
   writes_sub_of_mem main_v85 rfl (by decide),
   writes_sub_of_mem main_v86 rfl (by decide),
   writes_sub_of_mem main_cst_13 rfl (by decide),
   writes_sub_of_mem main_v87 rfl (by decide),
   writes_sub_of_mem main_v88 rfl (by decide)⟩

/-- A buffer stretch 14 does not write keeps its contents. -/
theorem keep14 (W : Valuation τ sig (Elt F)) (r : Ref sig .tc) (hr : r ∉ writes14) :
    after (chunk14 (F := F)) W (Proc.devRef .tc r) = W (Proc.devRef .tc r) :=
  after_of_writes_sub _ W chunk14_writes hr

set_option maxRecDepth 8192 in
set_option maxHeartbeats 4000000 in
/-- Stretch 14 leaves main_v88 at its stage of the arguments, from contents that hold the earlier stages it reads. -/
theorem out14_v88 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S256x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F))
    (h_v84 : W (Proc.devRef .tc main_v84) = val_main_v84 (F := F) x0 x1 x2 x3 x4 x5 x6 x11 x12 x13 x14) :
    after (chunk14 (F := F)) W (Proc.devRef .tc main_v88) = val_main_v88 (F := F) x0 x1 x2 x3 x4 x5 x6 x11 x12 x13 x14 := by
  after_results_simp
  simp only [h_v84]
  rfl

/-! ## Stretch 15: operations 139 to 147 -/

/-- Operations 139 to 147 of the program, in order. -/
abbrev chunk15 : List (HloOp τ sig (Elt F)) :=
  [ unary main_v88 main_v89 (broadcastInDim S50000x128 ![0, 1] bcast_S50000x1_S50000x128_0_1 : (⟨S50000x1, .f32⟩ : BufTy).Contents (Elt F) → (⟨S50000x128, .f32⟩ : BufTy).Contents (Elt F)),
    binary main_v84 main_v89 main_v90 (subf : (⟨S50000x128, .f32⟩ : BufTy).Contents (Elt F) → (⟨S50000x128, .f32⟩ : BufTy).Contents (Elt F) → (⟨S50000x128, .f32⟩ : BufTy).Contents (Elt F)),
    binary main_v90 main_v90 main_v91 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    binary main_v91 main_cst_14 main_v92 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v92 main_v93 (broadcastInDim S50000x1 ![0] bcast_S50000_S50000x1_0 : (⟨S50000, .f32⟩ : BufTy).Contents (Elt F) → (⟨S50000x1, .f32⟩ : BufTy).Contents (Elt F)),
    nullary main_cst_15 (constant S_ .f32 0x43000000#32),
    unary main_cst_15 main_v94 (broadcastInDim S50000x1 ![] bcast_S_S50000x1 : (⟨S_, .f32⟩ : BufTy).Contents (Elt F) → (⟨S50000x1, .f32⟩ : BufTy).Contents (Elt F)),
    binary main_v93 main_v94 main_v95 (Host.divf : (⟨S50000x1, .f32⟩ : BufTy).Contents (Elt F) → (⟨S50000x1, .f32⟩ : BufTy).Contents (Elt F) → (⟨S50000x1, .f32⟩ : BufTy).Contents (Elt F)) ]

/-- The buffers stretch 15 writes. -/
def writes15 : List (Ref sig .tc) := [main_v89, main_v90, main_v91, main_cst_14, main_v92, main_v93, main_cst_15, main_v94, main_v95]

set_option maxRecDepth 8192 in
theorem chunk15_writes : (chunk15 (F := F)).Forall fun op => op.writes ⊆ ((writes15).map (Proc.devRef (τ := τ) .tc)).toFinset :=
  ⟨writes_sub_of_mem main_v89 rfl (by decide),
   writes_sub_of_mem main_v90 rfl (by decide),
   writes_sub_of_mem main_v91 rfl (by decide),
   writes_sub_of_mem main_cst_14 rfl (by decide),
   writes_sub_of_mem main_v92 rfl (by decide),
   writes_sub_of_mem main_v93 rfl (by decide),
   writes_sub_of_mem main_cst_15 rfl (by decide),
   writes_sub_of_mem main_v94 rfl (by decide),
   writes_sub_of_mem main_v95 rfl (by decide)⟩

/-- A buffer stretch 15 does not write keeps its contents. -/
theorem keep15 (W : Valuation τ sig (Elt F)) (r : Ref sig .tc) (hr : r ∉ writes15) :
    after (chunk15 (F := F)) W (Proc.devRef .tc r) = W (Proc.devRef .tc r) :=
  after_of_writes_sub _ W chunk15_writes hr

set_option maxRecDepth 8192 in
set_option maxHeartbeats 4000000 in
/-- Stretch 15 leaves main_v95 at its stage of the arguments, from contents that hold the earlier stages it reads. -/
theorem out15_v95 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S256x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F))
    (h_v88 : W (Proc.devRef .tc main_v88) = val_main_v88 (F := F) x0 x1 x2 x3 x4 x5 x6 x11 x12 x13 x14)
    (h_v84 : W (Proc.devRef .tc main_v84) = val_main_v84 (F := F) x0 x1 x2 x3 x4 x5 x6 x11 x12 x13 x14) :
    after (chunk15 (F := F)) W (Proc.devRef .tc main_v95) = val_main_v95 (F := F) x0 x1 x2 x3 x4 x5 x6 x11 x12 x13 x14 := by
  after_results_simp
  simp only [h_v88, h_v84]
  rfl

/-! ## Stretch 16: operations 148 to 161 -/

/-- Operations 148 to 161 of the program, in order. -/
abbrev chunk16 : List (HloOp τ sig (Elt F)) :=
  [ unary main_v88 main_v96 (broadcastInDim S50000x128 ![0, 1] bcast_S50000x1_S50000x128_0_1 : (⟨S50000x1, .f32⟩ : BufTy).Contents (Elt F) → (⟨S50000x128, .f32⟩ : BufTy).Contents (Elt F)),
    binary main_v84 main_v96 main_v97 (subf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x3727C5AC#32),
    unary main_cst_16 main_v98 (broadcastInDim S50000x1 ![] bcast_S_S50000x1 : (⟨S_, .f32⟩ : BufTy).Contents (Elt F) → (⟨S50000x1, .f32⟩ : BufTy).Contents (Elt F)),
    binary main_v95 main_v98 main_v99 (addf : (⟨S50000x1, .f32⟩ : BufTy).Contents (Elt F) → (⟨S50000x1, .f32⟩ : BufTy).Contents (Elt F) → (⟨S50000x1, .f32⟩ : BufTy).Contents (Elt F)),
    unary main_v99 main_v100 (Host.sqrt : (⟨S50000x1, .f32⟩ : BufTy).Contents (Elt F) → (⟨S50000x1, .f32⟩ : BufTy).Contents (Elt F)),
    unary main_v100 main_v101 (broadcastInDim S50000x128 ![0, 1] bcast_S50000x1_S50000x128_0_1 : (⟨S50000x1, .f32⟩ : BufTy).Contents (Elt F) → (⟨S50000x128, .f32⟩ : BufTy).Contents (Elt F)),
    binary main_v97 main_v101 main_v102 (Host.divf : (⟨S50000x128, .f32⟩ : BufTy).Contents (Elt F) → (⟨S50000x128, .f32⟩ : BufTy).Contents (Elt F) → (⟨S50000x128, .f32⟩ : BufTy).Contents (Elt F)),
    unary main_arg15 main_v103 (broadcastInDim S1x128 ![1] bcast_S128_S1x128_1 : (⟨S128, .f32⟩ : BufTy).Contents (Elt F) → (⟨S1x128, .f32⟩ : BufTy).Contents (Elt F)),
    unary main_v103 main_v104 (broadcastInDim S50000x128 ![0, 1] bcast_S1x128_S50000x128_0_1 : (⟨S1x128, .f32⟩ : BufTy).Contents (Elt F) → (⟨S50000x128, .f32⟩ : BufTy).Contents (Elt F)),
    binary main_v102 main_v104 main_v105 (mulf : (⟨S50000x128, .f32⟩ : BufTy).Contents (Elt F) → (⟨S50000x128, .f32⟩ : BufTy).Contents (Elt F) → (⟨S50000x128, .f32⟩ : BufTy).Contents (Elt F)),
    unary main_arg16 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v105 main_v107 main_v108 (addf : (⟨S50000x128, .f32⟩ : BufTy).Contents (Elt F) → (⟨S50000x128, .f32⟩ : BufTy).Contents (Elt F) → (⟨S50000x128, .f32⟩ : BufTy).Contents (Elt F)) ]

/-- The buffers stretch 16 writes. -/
def writes16 : List (Ref sig .tc) := [main_v96, main_v97, main_cst_16, main_v98, main_v99, main_v100, main_v101, main_v102, main_v103, main_v104, main_v105, main_v106, main_v107, main_v108]

set_option maxRecDepth 8192 in
theorem chunk16_writes : (chunk16 (F := F)).Forall fun op => op.writes ⊆ ((writes16).map (Proc.devRef (τ := τ) .tc)).toFinset :=
  ⟨writes_sub_of_mem main_v96 rfl (by decide),
   writes_sub_of_mem main_v97 rfl (by decide),
   writes_sub_of_mem main_cst_16 rfl (by decide),
   writes_sub_of_mem main_v98 rfl (by decide),
   writes_sub_of_mem main_v99 rfl (by decide),
   writes_sub_of_mem main_v100 rfl (by decide),
   writes_sub_of_mem main_v101 rfl (by decide),
   writes_sub_of_mem main_v102 rfl (by decide),
   writes_sub_of_mem main_v103 rfl (by decide),
   writes_sub_of_mem main_v104 rfl (by decide),
   writes_sub_of_mem main_v105 rfl (by decide),
   writes_sub_of_mem main_v106 rfl (by decide),
   writes_sub_of_mem main_v107 rfl (by decide),
   writes_sub_of_mem main_v108 rfl (by decide)⟩

/-- A buffer stretch 16 does not write keeps its contents. -/
theorem keep16 (W : Valuation τ sig (Elt F)) (r : Ref sig .tc) (hr : r ∉ writes16) :
    after (chunk16 (F := F)) W (Proc.devRef .tc r) = W (Proc.devRef .tc r) :=
  after_of_writes_sub _ W chunk16_writes hr

set_option maxRecDepth 8192 in
set_option maxHeartbeats 4000000 in
/-- Stretch 16 leaves main_v108 at its stage of the arguments, from contents that hold the earlier stages it reads. -/
theorem out16_v108 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S256x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F))
    (h_v88 : W (Proc.devRef .tc main_v88) = val_main_v88 (F := F) x0 x1 x2 x3 x4 x5 x6 x11 x12 x13 x14)
    (h_v84 : W (Proc.devRef .tc main_v84) = val_main_v84 (F := F) x0 x1 x2 x3 x4 x5 x6 x11 x12 x13 x14)
    (h_v95 : W (Proc.devRef .tc main_v95) = val_main_v95 (F := F) x0 x1 x2 x3 x4 x5 x6 x11 x12 x13 x14)
    (h_arg15 : W (Proc.devRef .tc main_arg15) = x15)
    (h_arg16 : W (Proc.devRef .tc main_arg16) = x16) :
    after (chunk16 (F := F)) W (Proc.devRef .tc main_v108) = val_main_v108 (F := F) x0 x1 x2 x3 x4 x5 x6 x11 x12 x13 x14 x15 x16 := by
  after_results_simp
  simp only [h_v88, h_v84, h_v95, h_arg15, h_arg16]
  rfl

/-! ## Stretch 17: operations 162 to 170 -/

/-- Operations 162 to 170 of the program, in order. -/
abbrev chunk17 : List (HloOp τ sig (Elt F)) :=
  [ TRef.unary (TRef.of (T := ⟨S50000x128, .f32⟩) main_v108) (TRef.of (T := ⟨S50000x128, .f32⟩) main_call5_v0) Host.negf,
    TRef.unary (TRef.of (T := ⟨S50000x128, .f32⟩) main_call5_v0) (TRef.of (T := ⟨S50000x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S50000x128, .f32⟩) main_call5_v2) (broadcastInDim S50000x128 ![] bcast_S_S50000x128),
    TRef.binary (TRef.of (T := ⟨S50000x128, .f32⟩) main_call5_v2) (TRef.of (T := ⟨S50000x128, .f32⟩) main_call5_v1) (TRef.of (T := ⟨S50000x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S50000x128, .f32⟩) main_call5_v4) (broadcastInDim S50000x128 ![] bcast_S_S50000x128),
    TRef.binary (TRef.of (T := ⟨S50000x128, .f32⟩) main_call5_v4) (TRef.of (T := ⟨S50000x128, .f32⟩) main_call5_v3) (TRef.of (T := ⟨S50000x128, .f32⟩) main_call5_v5) Host.divf,
    TRef.binary (TRef.of (T := ⟨S50000x128, .f32⟩) main_v108) (TRef.of (T := ⟨S50000x128, .f32⟩) main_call5_v5) (TRef.of (T := ⟨S50000x128, .f32⟩) main_v109) mulf ]

/-- The buffers stretch 17 writes. -/
def writes17 : List (Ref sig .tc) := [main_call5_v0, main_call5_v1, main_call5_cst, main_call5_v2, main_call5_v3, main_call5_cst_0, main_call5_v4, main_call5_v5, main_v109]

set_option maxRecDepth 8192 in
theorem chunk17_writes : (chunk17 (F := F)).Forall fun op => op.writes ⊆ ((writes17).map (Proc.devRef (τ := τ) .tc)).toFinset :=
  ⟨writes_sub_of_mem main_call5_v0 rfl (by decide),
   writes_sub_of_mem main_call5_v1 rfl (by decide),
   writes_sub_of_mem main_call5_cst rfl (by decide),
   writes_sub_of_mem main_call5_v2 rfl (by decide),
   writes_sub_of_mem main_call5_v3 rfl (by decide),
   writes_sub_of_mem main_call5_cst_0 rfl (by decide),
   writes_sub_of_mem main_call5_v4 rfl (by decide),
   writes_sub_of_mem main_call5_v5 rfl (by decide),
   writes_sub_of_mem main_v109 rfl (by decide)⟩

/-- A buffer stretch 17 does not write keeps its contents. -/
theorem keep17 (W : Valuation τ sig (Elt F)) (r : Ref sig .tc) (hr : r ∉ writes17) :
    after (chunk17 (F := F)) W (Proc.devRef .tc r) = W (Proc.devRef .tc r) :=
  after_of_writes_sub _ W chunk17_writes hr

set_option maxRecDepth 8192 in
set_option maxHeartbeats 4000000 in
/-- Stretch 17 leaves main_v109 at its stage of the arguments, from contents that hold the earlier stages it reads. -/
theorem out17_v109 (W : Valuation τ sig (Elt F))
    (x0 : (⟨S50000x3, .f32⟩ : BufTy).Contents (Elt F)) (x1 : (⟨S50000x128, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S256x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F))
    (h_v108 : W (Proc.devRef .tc main_v108) = val_main_v108 (F := F) x0 x1 x2 x3 x4 x5 x6 x11 x12 x13 x14 x15 x16) :
    after (chunk17 (F := F)) W (Proc.devRef .tc main_v109) = val_main_v109 (F := F) x0 x1 x2 x3 x4 x5 x6 x11 x12 x13 x14 x15 x16 := by
  after_results_simp
  simp only [h_v108]
  rfl

/-! ## The stretches composed -/

/-- The buffer contents at launch. -/
def W0 (m : (ℓ : Loc nD τ sig) → Buf (Elt F) ℓ) (c : Dev nD) : Valuation τ sig (Elt F) := launchContents m c
/-- The buffer contents after the first 1 stretches. -/
def W1 (m : (ℓ : Loc nD τ sig) → Buf (Elt F) ℓ) (c : Dev nD) : Valuation τ sig (Elt F) := after chunk1 (W0 m c)
/-- The buffer contents after the first 2 stretches. -/
def W2 (m : (ℓ : Loc nD τ sig) → Buf (Elt F) ℓ) (c : Dev nD) : Valuation τ sig (Elt F) := after chunk2 (W1 m c)
/-- The buffer contents after the first 3 stretches. -/
def W3 (m : (ℓ : Loc nD τ sig) → Buf (Elt F) ℓ) (c : Dev nD) : Valuation τ sig (Elt F) := after chunk3 (W2 m c)
/-- The buffer contents after the first 4 stretches. -/
def W4 (m : (ℓ : Loc nD τ sig) → Buf (Elt F) ℓ) (c : Dev nD) : Valuation τ sig (Elt F) := after chunk4 (W3 m c)
/-- The buffer contents after the first 5 stretches. -/
def W5 (m : (ℓ : Loc nD τ sig) → Buf (Elt F) ℓ) (c : Dev nD) : Valuation τ sig (Elt F) := after chunk5 (W4 m c)
/-- The buffer contents after the first 6 stretches. -/
def W6 (m : (ℓ : Loc nD τ sig) → Buf (Elt F) ℓ) (c : Dev nD) : Valuation τ sig (Elt F) := after chunk6 (W5 m c)
/-- The buffer contents after the first 7 stretches. -/
def W7 (m : (ℓ : Loc nD τ sig) → Buf (Elt F) ℓ) (c : Dev nD) : Valuation τ sig (Elt F) := after chunk7 (W6 m c)
/-- The buffer contents after the first 8 stretches. -/
def W8 (m : (ℓ : Loc nD τ sig) → Buf (Elt F) ℓ) (c : Dev nD) : Valuation τ sig (Elt F) := after chunk8 (W7 m c)
/-- The buffer contents after the first 9 stretches. -/
def W9 (m : (ℓ : Loc nD τ sig) → Buf (Elt F) ℓ) (c : Dev nD) : Valuation τ sig (Elt F) := after chunk9 (W8 m c)
/-- The buffer contents after the first 10 stretches. -/
def W10 (m : (ℓ : Loc nD τ sig) → Buf (Elt F) ℓ) (c : Dev nD) : Valuation τ sig (Elt F) := after chunk10 (W9 m c)
/-- The buffer contents after the first 11 stretches. -/
def W11 (m : (ℓ : Loc nD τ sig) → Buf (Elt F) ℓ) (c : Dev nD) : Valuation τ sig (Elt F) := after chunk11 (W10 m c)
/-- The buffer contents after the first 12 stretches. -/
def W12 (m : (ℓ : Loc nD τ sig) → Buf (Elt F) ℓ) (c : Dev nD) : Valuation τ sig (Elt F) := after chunk12 (W11 m c)
/-- The buffer contents after the first 13 stretches. -/
def W13 (m : (ℓ : Loc nD τ sig) → Buf (Elt F) ℓ) (c : Dev nD) : Valuation τ sig (Elt F) := after chunk13 (W12 m c)
/-- The buffer contents after the first 14 stretches. -/
def W14 (m : (ℓ : Loc nD τ sig) → Buf (Elt F) ℓ) (c : Dev nD) : Valuation τ sig (Elt F) := after chunk14 (W13 m c)
/-- The buffer contents after the first 15 stretches. -/
def W15 (m : (ℓ : Loc nD τ sig) → Buf (Elt F) ℓ) (c : Dev nD) : Valuation τ sig (Elt F) := after chunk15 (W14 m c)
/-- The buffer contents after the first 16 stretches. -/
def W16 (m : (ℓ : Loc nD τ sig) → Buf (Elt F) ℓ) (c : Dev nD) : Valuation τ sig (Elt F) := after chunk16 (W15 m c)
/-- The buffer contents after the first 17 stretches. -/
def W17 (m : (ℓ : Loc nD τ sig) → Buf (Elt F) ℓ) (c : Dev nD) : Valuation τ sig (Elt F) := after chunk17 (W16 m c)

theorem W0_arg0 (m : (ℓ : Loc nD τ sig) → Buf (Elt F) ℓ) (c : Dev nD) : W0 (F := F) m c (Proc.devRef .tc main_arg0) = m ((c.tc : Thread nD τ).loc main_arg0) := rfl
theorem W0_arg1 (m : (ℓ : Loc nD τ sig) → Buf (Elt F) ℓ) (c : Dev nD) : W0 (F := F) m c (Proc.devRef .tc main_arg1) = m ((c.tc : Thread nD τ).loc main_arg1) := rfl
theorem W0_arg2 (m : (ℓ : Loc nD τ sig) → Buf (Elt F) ℓ) (c : Dev nD) : W0 (F := F) m c (Proc.devRef .tc main_arg2) = m ((c.tc : Thread nD τ).loc main_arg2) := rfl
theorem W0_arg3 (m : (ℓ : Loc nD τ sig) → Buf (Elt F) ℓ) (c : Dev nD) : W0 (F := F) m c (Proc.devRef .tc main_arg3) = m ((c.tc : Thread nD τ).loc main_arg3) := rfl
theorem W0_arg4 (m : (ℓ : Loc nD τ sig) → Buf (Elt F) ℓ) (c : Dev nD) : W0 (F := F) m c (Proc.devRef .tc main_arg4) = m ((c.tc : Thread nD τ).loc main_arg4) := rfl
theorem W0_arg5 (m : (ℓ : Loc nD τ sig) → Buf (Elt F) ℓ) (c : Dev nD) : W0 (F := F) m c (Proc.devRef .tc main_arg5) = m ((c.tc : Thread nD τ).loc main_arg5) := rfl
theorem W0_arg6 (m : (ℓ : Loc nD τ sig) → Buf (Elt F) ℓ) (c : Dev nD) : W0 (F := F) m c (Proc.devRef .tc main_arg6) = m ((c.tc : Thread nD τ).loc main_arg6) := rfl
theorem W0_arg7 (m : (ℓ : Loc nD τ sig) → Buf (Elt F) ℓ) (c : Dev nD) : W0 (F := F) m c (Proc.devRef .tc main_arg7) = m ((c.tc : Thread nD τ).loc main_arg7) := rfl
theorem W0_arg8 (m : (ℓ : Loc nD τ sig) → Buf (Elt F) ℓ) (c : Dev nD) : W0 (F := F) m c (Proc.devRef .tc main_arg8) = m ((c.tc : Thread nD τ).loc main_arg8) := rfl
theorem W0_arg9 (m : (ℓ : Loc nD τ sig) → Buf (Elt F) ℓ) (c : Dev nD) : W0 (F := F) m c (Proc.devRef .tc main_arg9) = m ((c.tc : Thread nD τ).loc main_arg9) := rfl
theorem W0_arg10 (m : (ℓ : Loc nD τ sig) → Buf (Elt F) ℓ) (c : Dev nD) : W0 (F := F) m c (Proc.devRef .tc main_arg10) = m ((c.tc : Thread nD τ).loc main_arg10) := rfl
theorem W0_arg11 (m : (ℓ : Loc nD τ sig) → Buf (Elt F) ℓ) (c : Dev nD) : W0 (F := F) m c (Proc.devRef .tc main_arg11) = m ((c.tc : Thread nD τ).loc main_arg11) := rfl
theorem W0_arg12 (m : (ℓ : Loc nD τ sig) → Buf (Elt F) ℓ) (c : Dev nD) : W0 (F := F) m c (Proc.devRef .tc main_arg12) = m ((c.tc : Thread nD τ).loc main_arg12) := rfl
theorem W0_arg13 (m : (ℓ : Loc nD τ sig) → Buf (Elt F) ℓ) (c : Dev nD) : W0 (F := F) m c (Proc.devRef .tc main_arg13) = m ((c.tc : Thread nD τ).loc main_arg13) := rfl
theorem W0_arg14 (m : (ℓ : Loc nD τ sig) → Buf (Elt F) ℓ) (c : Dev nD) : W0 (F := F) m c (Proc.devRef .tc main_arg14) = m ((c.tc : Thread nD τ).loc main_arg14) := rfl
theorem W0_arg15 (m : (ℓ : Loc nD τ sig) → Buf (Elt F) ℓ) (c : Dev nD) : W0 (F := F) m c (Proc.devRef .tc main_arg15) = m ((c.tc : Thread nD τ).loc main_arg15) := rfl
theorem W0_arg16 (m : (ℓ : Loc nD τ sig) → Buf (Elt F) ℓ) (c : Dev nD) : W0 (F := F) m c (Proc.devRef .tc main_arg16) = m ((c.tc : Thread nD τ).loc main_arg16) := rfl

theorem W1_arg0 (m : (ℓ : Loc nD τ sig) → Buf (Elt F) ℓ) (c : Dev nD) :
    W1 (F := F) m c (Proc.devRef .tc main_arg0) = m ((c.tc : Thread nD τ).loc main_arg0) :=
  (keep1 (W0 m c) main_arg0 (by decide)).trans (W0_arg0 m c)

theorem W1_arg1 (m : (ℓ : Loc nD τ sig) → Buf (Elt F) ℓ) (c : Dev nD) :
    W1 (F := F) m c (Proc.devRef .tc main_arg1) = m ((c.tc : Thread nD τ).loc main_arg1) :=
  (keep1 (W0 m c) main_arg1 (by decide)).trans (W0_arg1 m c)

theorem W1_arg10 (m : (ℓ : Loc nD τ sig) → Buf (Elt F) ℓ) (c : Dev nD) :
    W1 (F := F) m c (Proc.devRef .tc main_arg10) = m ((c.tc : Thread nD τ).loc main_arg10) :=
  (keep1 (W0 m c) main_arg10 (by decide)).trans (W0_arg10 m c)

theorem W1_arg11 (m : (ℓ : Loc nD τ sig) → Buf (Elt F) ℓ) (c : Dev nD) :
    W1 (F := F) m c (Proc.devRef .tc main_arg11) = m ((c.tc : Thread nD τ).loc main_arg11) :=
  (keep1 (W0 m c) main_arg11 (by decide)).trans (W0_arg11 m c)

theorem W1_arg12 (m : (ℓ : Loc nD τ sig) → Buf (Elt F) ℓ) (c : Dev nD) :
    W1 (F := F) m c (Proc.devRef .tc main_arg12) = m ((c.tc : Thread nD τ).loc main_arg12) :=
  (keep1 (W0 m c) main_arg12 (by decide)).trans (W0_arg12 m c)

theorem W1_arg13 (m : (ℓ : Loc nD τ sig) → Buf (Elt F) ℓ) (c : Dev nD) :
    W1 (F := F) m c (Proc.devRef .tc main_arg13) = m ((c.tc : Thread nD τ).loc main_arg13) :=
  (keep1 (W0 m c) main_arg13 (by decide)).trans (W0_arg13 m c)

theorem W1_arg14 (m : (ℓ : Loc nD τ sig) → Buf (Elt F) ℓ) (c : Dev nD) :
    W1 (F := F) m c (Proc.devRef .tc main_arg14) = m ((c.tc : Thread nD τ).loc main_arg14) :=
  (keep1 (W0 m c) main_arg14 (by decide)).trans (W0_arg14 m c)

theorem W1_arg15 (m : (ℓ : Loc nD τ sig) → Buf (Elt F) ℓ) (c : Dev nD) :
    W1 (F := F) m c (Proc.devRef .tc main_arg15) = m ((c.tc : Thread nD τ).loc main_arg15) :=
  (keep1 (W0 m c) main_arg15 (by decide)).trans (W0_arg15 m c)

theorem W1_arg16 (m : (ℓ : Loc nD τ sig) → Buf (Elt F) ℓ) (c : Dev nD) :
    W1 (F := F) m c (Proc.devRef .tc main_arg16) = m ((c.tc : Thread nD τ).loc main_arg16) :=
  (keep1 (W0 m c) main_arg16 (by decide)).trans (W0_arg16 m c)

theorem W1_arg3 (m : (ℓ : Loc nD τ sig) → Buf (Elt F) ℓ) (c : Dev nD) :
    W1 (F := F) m c (Proc.devRef .tc main_arg3) = m ((c.tc : Thread nD τ).loc main_arg3) :=
  (keep1 (W0 m c) main_arg3 (by decide)).trans (W0_arg3 m c)

theorem W1_arg4 (m : (ℓ : Loc nD τ sig) → Buf (Elt F) ℓ) (c : Dev nD) :
    W1 (F := F) m c (Proc.devRef .tc main_arg4) = m ((c.tc : Thread nD τ).loc main_arg4) :=
  (keep1 (W0 m c) main_arg4 (by decide)).trans (W0_arg4 m c)

theorem W1_arg5 (m : (ℓ : Loc nD τ sig) → Buf (Elt F) ℓ) (c : Dev nD) :
    W1 (F := F) m c (Proc.devRef .tc main_arg5) = m ((c.tc : Thread nD τ).loc main_arg5) :=
  (keep1 (W0 m c) main_arg5 (by decide)).trans (W0_arg5 m c)

theorem W1_arg6 (m : (ℓ : Loc nD τ sig) → Buf (Elt F) ℓ) (c : Dev nD) :
    W1 (F := F) m c (Proc.devRef .tc main_arg6) = m ((c.tc : Thread nD τ).loc main_arg6) :=
  (keep1 (W0 m c) main_arg6 (by decide)).trans (W0_arg6 m c)

theorem W1_arg7 (m : (ℓ : Loc nD τ sig) → Buf (Elt F) ℓ) (c : Dev nD) :
    W1 (F := F) m c (Proc.devRef .tc main_arg7) = m ((c.tc : Thread nD τ).loc main_arg7) :=
  (keep1 (W0 m c) main_arg7 (by decide)).trans (W0_arg7 m c)

theorem W1_arg8 (m : (ℓ : Loc nD τ sig) → Buf (Elt F) ℓ) (c : Dev nD) :
    W1 (F := F) m c (Proc.devRef .tc main_arg8) = m ((c.tc : Thread nD τ).loc main_arg8) :=
  (keep1 (W0 m c) main_arg8 (by decide)).trans (W0_arg8 m c)

theorem W1_arg9 (m : (ℓ : Loc nD τ sig) → Buf (Elt F) ℓ) (c : Dev nD) :
    W1 (F := F) m c (Proc.devRef .tc main_arg9) = m ((c.tc : Thread nD τ).loc main_arg9) :=
  (keep1 (W0 m c) main_arg9 (by decide)).trans (W0_arg9 m c)

theorem W1_v1 (m : (ℓ : Loc nD τ sig) → Buf (Elt F) ℓ) (c : Dev nD) :
    W1 (F := F) m c (Proc.devRef .tc main_v1) = val_main_v1 (F := F) (m ((c.tc : Thread nD τ).loc main_arg2)) :=
  out1_v1 (W0 m c) (m ((c.tc : Thread nD τ).loc main_arg2)) (W0_arg2 m c)

theorem W1_v18 (m : (ℓ : Loc nD τ sig) → Buf (Elt F) ℓ) (c : Dev nD) :
    W1 (F := F) m c (Proc.devRef .tc main_v18) = val_main_v18 (F := F) (m ((c.tc : Thread nD τ).loc main_arg0)) (m ((c.tc : Thread nD τ).loc main_arg2)) :=
  out1_v18 (W0 m c) (m ((c.tc : Thread nD τ).loc main_arg0)) (m ((c.tc : Thread nD τ).loc main_arg2)) (W0_arg2 m c) (W0_arg0 m c)

theorem W1_v3 (m : (ℓ : Loc nD τ sig) → Buf (Elt F) ℓ) (c : Dev nD) :
    W1 (F := F) m c (Proc.devRef .tc main_v3) = val_main_v3 (F := F) (m ((c.tc : Thread nD τ).loc main_arg2)) :=
  out1_v3 (W0 m c) (m ((c.tc : Thread nD τ).loc main_arg2)) (W0_arg2 m c)

theorem W2_arg0 (m : (ℓ : Loc nD τ sig) → Buf (Elt F) ℓ) (c : Dev nD) :
    W2 (F := F) m c (Proc.devRef .tc main_arg0) = m ((c.tc : Thread nD τ).loc main_arg0) :=
  (keep2 (W1 m c) main_arg0 (by decide)).trans (W1_arg0 m c)

theorem W2_arg1 (m : (ℓ : Loc nD τ sig) → Buf (Elt F) ℓ) (c : Dev nD) :
    W2 (F := F) m c (Proc.devRef .tc main_arg1) = m ((c.tc : Thread nD τ).loc main_arg1) :=
  (keep2 (W1 m c) main_arg1 (by decide)).trans (W1_arg1 m c)

theorem W2_arg10 (m : (ℓ : Loc nD τ sig) → Buf (Elt F) ℓ) (c : Dev nD) :
    W2 (F := F) m c (Proc.devRef .tc main_arg10) = m ((c.tc : Thread nD τ).loc main_arg10) :=
  (keep2 (W1 m c) main_arg10 (by decide)).trans (W1_arg10 m c)

theorem W2_arg11 (m : (ℓ : Loc nD τ sig) → Buf (Elt F) ℓ) (c : Dev nD) :
    W2 (F := F) m c (Proc.devRef .tc main_arg11) = m ((c.tc : Thread nD τ).loc main_arg11) :=
  (keep2 (W1 m c) main_arg11 (by decide)).trans (W1_arg11 m c)

theorem W2_arg12 (m : (ℓ : Loc nD τ sig) → Buf (Elt F) ℓ) (c : Dev nD) :
    W2 (F := F) m c (Proc.devRef .tc main_arg12) = m ((c.tc : Thread nD τ).loc main_arg12) :=
  (keep2 (W1 m c) main_arg12 (by decide)).trans (W1_arg12 m c)

theorem W2_arg13 (m : (ℓ : Loc nD τ sig) → Buf (Elt F) ℓ) (c : Dev nD) :
    W2 (F := F) m c (Proc.devRef .tc main_arg13) = m ((c.tc : Thread nD τ).loc main_arg13) :=
  (keep2 (W1 m c) main_arg13 (by decide)).trans (W1_arg13 m c)

theorem W2_arg14 (m : (ℓ : Loc nD τ sig) → Buf (Elt F) ℓ) (c : Dev nD) :
    W2 (F := F) m c (Proc.devRef .tc main_arg14) = m ((c.tc : Thread nD τ).loc main_arg14) :=
  (keep2 (W1 m c) main_arg14 (by decide)).trans (W1_arg14 m c)

theorem W2_arg15 (m : (ℓ : Loc nD τ sig) → Buf (Elt F) ℓ) (c : Dev nD) :
    W2 (F := F) m c (Proc.devRef .tc main_arg15) = m ((c.tc : Thread nD τ).loc main_arg15) :=
  (keep2 (W1 m c) main_arg15 (by decide)).trans (W1_arg15 m c)

theorem W2_arg16 (m : (ℓ : Loc nD τ sig) → Buf (Elt F) ℓ) (c : Dev nD) :
    W2 (F := F) m c (Proc.devRef .tc main_arg16) = m ((c.tc : Thread nD τ).loc main_arg16) :=
  (keep2 (W1 m c) main_arg16 (by decide)).trans (W1_arg16 m c)

theorem W2_arg3 (m : (ℓ : Loc nD τ sig) → Buf (Elt F) ℓ) (c : Dev nD) :
    W2 (F := F) m c (Proc.devRef .tc main_arg3) = m ((c.tc : Thread nD τ).loc main_arg3) :=
  (keep2 (W1 m c) main_arg3 (by decide)).trans (W1_arg3 m c)

theorem W2_arg4 (m : (ℓ : Loc nD τ sig) → Buf (Elt F) ℓ) (c : Dev nD) :
    W2 (F := F) m c (Proc.devRef .tc main_arg4) = m ((c.tc : Thread nD τ).loc main_arg4) :=
  (keep2 (W1 m c) main_arg4 (by decide)).trans (W1_arg4 m c)

theorem W2_arg5 (m : (ℓ : Loc nD τ sig) → Buf (Elt F) ℓ) (c : Dev nD) :
    W2 (F := F) m c (Proc.devRef .tc main_arg5) = m ((c.tc : Thread nD τ).loc main_arg5) :=
  (keep2 (W1 m c) main_arg5 (by decide)).trans (W1_arg5 m c)

theorem W2_arg6 (m : (ℓ : Loc nD τ sig) → Buf (Elt F) ℓ) (c : Dev nD) :
    W2 (F := F) m c (Proc.devRef .tc main_arg6) = m ((c.tc : Thread nD τ).loc main_arg6) :=
  (keep2 (W1 m c) main_arg6 (by decide)).trans (W1_arg6 m c)

theorem W2_arg7 (m : (ℓ : Loc nD τ sig) → Buf (Elt F) ℓ) (c : Dev nD) :
    W2 (F := F) m c (Proc.devRef .tc main_arg7) = m ((c.tc : Thread nD τ).loc main_arg7) :=
  (keep2 (W1 m c) main_arg7 (by decide)).trans (W1_arg7 m c)

theorem W2_arg8 (m : (ℓ : Loc nD τ sig) → Buf (Elt F) ℓ) (c : Dev nD) :
    W2 (F := F) m c (Proc.devRef .tc main_arg8) = m ((c.tc : Thread nD τ).loc main_arg8) :=
  (keep2 (W1 m c) main_arg8 (by decide)).trans (W1_arg8 m c)

theorem W2_arg9 (m : (ℓ : Loc nD τ sig) → Buf (Elt F) ℓ) (c : Dev nD) :
    W2 (F := F) m c (Proc.devRef .tc main_arg9) = m ((c.tc : Thread nD τ).loc main_arg9) :=
  (keep2 (W1 m c) main_arg9 (by decide)).trans (W1_arg9 m c)

theorem W2_v1 (m : (ℓ : Loc nD τ sig) → Buf (Elt F) ℓ) (c : Dev nD) :
    W2 (F := F) m c (Proc.devRef .tc main_v1) = val_main_v1 (F := F) (m ((c.tc : Thread nD τ).loc main_arg2)) :=
  (keep2 (W1 m c) main_v1 (by decide)).trans (W1_v1 m c)

theorem W2_v18 (m : (ℓ : Loc nD τ sig) → Buf (Elt F) ℓ) (c : Dev nD) :
    W2 (F := F) m c (Proc.devRef .tc main_v18) = val_main_v18 (F := F) (m ((c.tc : Thread nD τ).loc main_arg0)) (m ((c.tc : Thread nD τ).loc main_arg2)) :=
  (keep2 (W1 m c) main_v18 (by decide)).trans (W1_v18 m c)

theorem W2_v21 (m : (ℓ : Loc nD τ sig) → Buf (Elt F) ℓ) (c : Dev nD) :
    W2 (F := F) m c (Proc.devRef .tc main_v21) = val_main_v21 (F := F) (m ((c.tc : Thread nD τ).loc main_arg0)) (m ((c.tc : Thread nD τ).loc main_arg2)) :=
  out2_v21 (W1 m c) (m ((c.tc : Thread nD τ).loc main_arg0)) (m ((c.tc : Thread nD τ).loc main_arg2)) (W1_v18 m c)

theorem W2_v28 (m : (ℓ : Loc nD τ sig) → Buf (Elt F) ℓ) (c : Dev nD) :
    W2 (F := F) m c (Proc.devRef .tc main_v28) = val_main_v28 (F := F) (m ((c.tc : Thread nD τ).loc main_arg1)) (m ((c.tc : Thread nD τ).loc main_arg2)) :=
  out2_v28 (W1 m c) (m ((c.tc : Thread nD τ).loc main_arg1)) (m ((c.tc : Thread nD τ).loc main_arg2)) (W1_v1 m c) (W1_arg1 m c)

theorem W2_v35 (m : (ℓ : Loc nD τ sig) → Buf (Elt F) ℓ) (c : Dev nD) :
    W2 (F := F) m c (Proc.devRef .tc main_v35) = val_main_v35 (F := F) (m ((c.tc : Thread nD τ).loc main_arg1)) (m ((c.tc : Thread nD τ).loc main_arg2)) :=
  out2_v35 (W1 m c) (m ((c.tc : Thread nD τ).loc main_arg1)) (m ((c.tc : Thread nD τ).loc main_arg2)) (W1_arg1 m c) (W1_v3 m c)

theorem W3_arg0 (m : (ℓ : Loc nD τ sig) → Buf (Elt F) ℓ) (c : Dev nD) :
    W3 (F := F) m c (Proc.devRef .tc main_arg0) = m ((c.tc : Thread nD τ).loc main_arg0) :=
  (keep3 (W2 m c) main_arg0 (by decide)).trans (W2_arg0 m c)

theorem W3_arg1 (m : (ℓ : Loc nD τ sig) → Buf (Elt F) ℓ) (c : Dev nD) :
    W3 (F := F) m c (Proc.devRef .tc main_arg1) = m ((c.tc : Thread nD τ).loc main_arg1) :=
  (keep3 (W2 m c) main_arg1 (by decide)).trans (W2_arg1 m c)

theorem W3_arg10 (m : (ℓ : Loc nD τ sig) → Buf (Elt F) ℓ) (c : Dev nD) :
    W3 (F := F) m c (Proc.devRef .tc main_arg10) = m ((c.tc : Thread nD τ).loc main_arg10) :=
  (keep3 (W2 m c) main_arg10 (by decide)).trans (W2_arg10 m c)

theorem W3_arg11 (m : (ℓ : Loc nD τ sig) → Buf (Elt F) ℓ) (c : Dev nD) :
    W3 (F := F) m c (Proc.devRef .tc main_arg11) = m ((c.tc : Thread nD τ).loc main_arg11) :=
  (keep3 (W2 m c) main_arg11 (by decide)).trans (W2_arg11 m c)

theorem W3_arg12 (m : (ℓ : Loc nD τ sig) → Buf (Elt F) ℓ) (c : Dev nD) :
    W3 (F := F) m c (Proc.devRef .tc main_arg12) = m ((c.tc : Thread nD τ).loc main_arg12) :=
  (keep3 (W2 m c) main_arg12 (by decide)).trans (W2_arg12 m c)

theorem W3_arg13 (m : (ℓ : Loc nD τ sig) → Buf (Elt F) ℓ) (c : Dev nD) :
    W3 (F := F) m c (Proc.devRef .tc main_arg13) = m ((c.tc : Thread nD τ).loc main_arg13) :=
  (keep3 (W2 m c) main_arg13 (by decide)).trans (W2_arg13 m c)

theorem W3_arg14 (m : (ℓ : Loc nD τ sig) → Buf (Elt F) ℓ) (c : Dev nD) :
    W3 (F := F) m c (Proc.devRef .tc main_arg14) = m ((c.tc : Thread nD τ).loc main_arg14) :=
  (keep3 (W2 m c) main_arg14 (by decide)).trans (W2_arg14 m c)

theorem W3_arg15 (m : (ℓ : Loc nD τ sig) → Buf (Elt F) ℓ) (c : Dev nD) :
    W3 (F := F) m c (Proc.devRef .tc main_arg15) = m ((c.tc : Thread nD τ).loc main_arg15) :=
  (keep3 (W2 m c) main_arg15 (by decide)).trans (W2_arg15 m c)

theorem W3_arg16 (m : (ℓ : Loc nD τ sig) → Buf (Elt F) ℓ) (c : Dev nD) :
    W3 (F := F) m c (Proc.devRef .tc main_arg16) = m ((c.tc : Thread nD τ).loc main_arg16) :=
  (keep3 (W2 m c) main_arg16 (by decide)).trans (W2_arg16 m c)

theorem W3_arg3 (m : (ℓ : Loc nD τ sig) → Buf (Elt F) ℓ) (c : Dev nD) :
    W3 (F := F) m c (Proc.devRef .tc main_arg3) = m ((c.tc : Thread nD τ).loc main_arg3) :=
  (keep3 (W2 m c) main_arg3 (by decide)).trans (W2_arg3 m c)

theorem W3_arg4 (m : (ℓ : Loc nD τ sig) → Buf (Elt F) ℓ) (c : Dev nD) :
    W3 (F := F) m c (Proc.devRef .tc main_arg4) = m ((c.tc : Thread nD τ).loc main_arg4) :=
  (keep3 (W2 m c) main_arg4 (by decide)).trans (W2_arg4 m c)

theorem W3_arg5 (m : (ℓ : Loc nD τ sig) → Buf (Elt F) ℓ) (c : Dev nD) :
    W3 (F := F) m c (Proc.devRef .tc main_arg5) = m ((c.tc : Thread nD τ).loc main_arg5) :=
  (keep3 (W2 m c) main_arg5 (by decide)).trans (W2_arg5 m c)

theorem W3_arg6 (m : (ℓ : Loc nD τ sig) → Buf (Elt F) ℓ) (c : Dev nD) :
    W3 (F := F) m c (Proc.devRef .tc main_arg6) = m ((c.tc : Thread nD τ).loc main_arg6) :=
  (keep3 (W2 m c) main_arg6 (by decide)).trans (W2_arg6 m c)

theorem W3_arg7 (m : (ℓ : Loc nD τ sig) → Buf (Elt F) ℓ) (c : Dev nD) :
    W3 (F := F) m c (Proc.devRef .tc main_arg7) = m ((c.tc : Thread nD τ).loc main_arg7) :=
  (keep3 (W2 m c) main_arg7 (by decide)).trans (W2_arg7 m c)

theorem W3_arg8 (m : (ℓ : Loc nD τ sig) → Buf (Elt F) ℓ) (c : Dev nD) :
    W3 (F := F) m c (Proc.devRef .tc main_arg8) = m ((c.tc : Thread nD τ).loc main_arg8) :=
  (keep3 (W2 m c) main_arg8 (by decide)).trans (W2_arg8 m c)

theorem W3_arg9 (m : (ℓ : Loc nD τ sig) → Buf (Elt F) ℓ) (c : Dev nD) :
    W3 (F := F) m c (Proc.devRef .tc main_arg9) = m ((c.tc : Thread nD τ).loc main_arg9) :=
  (keep3 (W2 m c) main_arg9 (by decide)).trans (W2_arg9 m c)

theorem W3_v1 (m : (ℓ : Loc nD τ sig) → Buf (Elt F) ℓ) (c : Dev nD) :
    W3 (F := F) m c (Proc.devRef .tc main_v1) = val_main_v1 (F := F) (m ((c.tc : Thread nD τ).loc main_arg2)) :=
  (keep3 (W2 m c) main_v1 (by decide)).trans (W2_v1 m c)

theorem W3_v18 (m : (ℓ : Loc nD τ sig) → Buf (Elt F) ℓ) (c : Dev nD) :
    W3 (F := F) m c (Proc.devRef .tc main_v18) = val_main_v18 (F := F) (m ((c.tc : Thread nD τ).loc main_arg0)) (m ((c.tc : Thread nD τ).loc main_arg2)) :=
  (keep3 (W2 m c) main_v18 (by decide)).trans (W2_v18 m c)

theorem W3_v36 (m : (ℓ : Loc nD τ sig) → Buf (Elt F) ℓ) (c : Dev nD) :
    W3 (F := F) m c (Proc.devRef .tc main_v36) = val_main_v36 (F := F) (m ((c.tc : Thread nD τ).loc main_arg0)) (m ((c.tc : Thread nD τ).loc main_arg1)) (m ((c.tc : Thread nD τ).loc main_arg2)) :=
  out3_v36 (W2 m c) (m ((c.tc : Thread nD τ).loc main_arg0)) (m ((c.tc : Thread nD τ).loc main_arg1)) (m ((c.tc : Thread nD τ).loc main_arg2)) (W2_v28 m c) (W2_v35 m c) (W2_v21 m c)

theorem W4_arg0 (m : (ℓ : Loc nD τ sig) → Buf (Elt F) ℓ) (c : Dev nD) :
    W4 (F := F) m c (Proc.devRef .tc main_arg0) = m ((c.tc : Thread nD τ).loc main_arg0) :=
  (keep4 (W3 m c) main_arg0 (by decide)).trans (W3_arg0 m c)

theorem W4_arg1 (m : (ℓ : Loc nD τ sig) → Buf (Elt F) ℓ) (c : Dev nD) :
    W4 (F := F) m c (Proc.devRef .tc main_arg1) = m ((c.tc : Thread nD τ).loc main_arg1) :=
  (keep4 (W3 m c) main_arg1 (by decide)).trans (W3_arg1 m c)

theorem W4_arg10 (m : (ℓ : Loc nD τ sig) → Buf (Elt F) ℓ) (c : Dev nD) :
    W4 (F := F) m c (Proc.devRef .tc main_arg10) = m ((c.tc : Thread nD τ).loc main_arg10) :=
  (keep4 (W3 m c) main_arg10 (by decide)).trans (W3_arg10 m c)

theorem W4_arg11 (m : (ℓ : Loc nD τ sig) → Buf (Elt F) ℓ) (c : Dev nD) :
    W4 (F := F) m c (Proc.devRef .tc main_arg11) = m ((c.tc : Thread nD τ).loc main_arg11) :=
  (keep4 (W3 m c) main_arg11 (by decide)).trans (W3_arg11 m c)

theorem W4_arg12 (m : (ℓ : Loc nD τ sig) → Buf (Elt F) ℓ) (c : Dev nD) :
    W4 (F := F) m c (Proc.devRef .tc main_arg12) = m ((c.tc : Thread nD τ).loc main_arg12) :=
  (keep4 (W3 m c) main_arg12 (by decide)).trans (W3_arg12 m c)

theorem W4_arg13 (m : (ℓ : Loc nD τ sig) → Buf (Elt F) ℓ) (c : Dev nD) :
    W4 (F := F) m c (Proc.devRef .tc main_arg13) = m ((c.tc : Thread nD τ).loc main_arg13) :=
  (keep4 (W3 m c) main_arg13 (by decide)).trans (W3_arg13 m c)

theorem W4_arg14 (m : (ℓ : Loc nD τ sig) → Buf (Elt F) ℓ) (c : Dev nD) :
    W4 (F := F) m c (Proc.devRef .tc main_arg14) = m ((c.tc : Thread nD τ).loc main_arg14) :=
  (keep4 (W3 m c) main_arg14 (by decide)).trans (W3_arg14 m c)

theorem W4_arg15 (m : (ℓ : Loc nD τ sig) → Buf (Elt F) ℓ) (c : Dev nD) :
    W4 (F := F) m c (Proc.devRef .tc main_arg15) = m ((c.tc : Thread nD τ).loc main_arg15) :=
  (keep4 (W3 m c) main_arg15 (by decide)).trans (W3_arg15 m c)

theorem W4_arg16 (m : (ℓ : Loc nD τ sig) → Buf (Elt F) ℓ) (c : Dev nD) :
    W4 (F := F) m c (Proc.devRef .tc main_arg16) = m ((c.tc : Thread nD τ).loc main_arg16) :=
  (keep4 (W3 m c) main_arg16 (by decide)).trans (W3_arg16 m c)

theorem W4_arg5 (m : (ℓ : Loc nD τ sig) → Buf (Elt F) ℓ) (c : Dev nD) :
    W4 (F := F) m c (Proc.devRef .tc main_arg5) = m ((c.tc : Thread nD τ).loc main_arg5) :=
  (keep4 (W3 m c) main_arg5 (by decide)).trans (W3_arg5 m c)

theorem W4_arg6 (m : (ℓ : Loc nD τ sig) → Buf (Elt F) ℓ) (c : Dev nD) :
    W4 (F := F) m c (Proc.devRef .tc main_arg6) = m ((c.tc : Thread nD τ).loc main_arg6) :=
  (keep4 (W3 m c) main_arg6 (by decide)).trans (W3_arg6 m c)

theorem W4_arg7 (m : (ℓ : Loc nD τ sig) → Buf (Elt F) ℓ) (c : Dev nD) :
    W4 (F := F) m c (Proc.devRef .tc main_arg7) = m ((c.tc : Thread nD τ).loc main_arg7) :=
  (keep4 (W3 m c) main_arg7 (by decide)).trans (W3_arg7 m c)

theorem W4_arg8 (m : (ℓ : Loc nD τ sig) → Buf (Elt F) ℓ) (c : Dev nD) :
    W4 (F := F) m c (Proc.devRef .tc main_arg8) = m ((c.tc : Thread nD τ).loc main_arg8) :=
  (keep4 (W3 m c) main_arg8 (by decide)).trans (W3_arg8 m c)

theorem W4_arg9 (m : (ℓ : Loc nD τ sig) → Buf (Elt F) ℓ) (c : Dev nD) :
    W4 (F := F) m c (Proc.devRef .tc main_arg9) = m ((c.tc : Thread nD τ).loc main_arg9) :=
  (keep4 (W3 m c) main_arg9 (by decide)).trans (W3_arg9 m c)

theorem W4_v1 (m : (ℓ : Loc nD τ sig) → Buf (Elt F) ℓ) (c : Dev nD) :
    W4 (F := F) m c (Proc.devRef .tc main_v1) = val_main_v1 (F := F) (m ((c.tc : Thread nD τ).loc main_arg2)) :=
  (keep4 (W3 m c) main_v1 (by decide)).trans (W3_v1 m c)

theorem W4_v18 (m : (ℓ : Loc nD τ sig) → Buf (Elt F) ℓ) (c : Dev nD) :
    W4 (F := F) m c (Proc.devRef .tc main_v18) = val_main_v18 (F := F) (m ((c.tc : Thread nD τ).loc main_arg0)) (m ((c.tc : Thread nD τ).loc main_arg2)) :=
  (keep4 (W3 m c) main_v18 (by decide)).trans (W3_v18 m c)

theorem W4_v40 (m : (ℓ : Loc nD τ sig) → Buf (Elt F) ℓ) (c : Dev nD) :
    W4 (F := F) m c (Proc.devRef .tc main_v40) = val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  out4_v40 (W3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (W3_v36 m c) (W3_arg3 m c) (W3_arg4 m c)

theorem W5_arg0 (m : (ℓ : Loc nD τ sig) → Buf (Elt F) ℓ) (c : Dev nD) :
    W5 (F := F) m c (Proc.devRef .tc main_arg0) = m ((c.tc : Thread nD τ).loc main_arg0) :=
  (keep5 (W4 m c) main_arg0 (by decide)).trans (W4_arg0 m c)

theorem W5_arg1 (m : (ℓ : Loc nD τ sig) → Buf (Elt F) ℓ) (c : Dev nD) :
    W5 (F := F) m c (Proc.devRef .tc main_arg1) = m ((c.tc : Thread nD τ).loc main_arg1) :=
  (keep5 (W4 m c) main_arg1 (by decide)).trans (W4_arg1 m c)

theorem W5_arg10 (m : (ℓ : Loc nD τ sig) → Buf (Elt F) ℓ) (c : Dev nD) :
    W5 (F := F) m c (Proc.devRef .tc main_arg10) = m ((c.tc : Thread nD τ).loc main_arg10) :=
  (keep5 (W4 m c) main_arg10 (by decide)).trans (W4_arg10 m c)

theorem W5_arg11 (m : (ℓ : Loc nD τ sig) → Buf (Elt F) ℓ) (c : Dev nD) :
    W5 (F := F) m c (Proc.devRef .tc main_arg11) = m ((c.tc : Thread nD τ).loc main_arg11) :=
  (keep5 (W4 m c) main_arg11 (by decide)).trans (W4_arg11 m c)

theorem W5_arg12 (m : (ℓ : Loc nD τ sig) → Buf (Elt F) ℓ) (c : Dev nD) :
    W5 (F := F) m c (Proc.devRef .tc main_arg12) = m ((c.tc : Thread nD τ).loc main_arg12) :=
  (keep5 (W4 m c) main_arg12 (by decide)).trans (W4_arg12 m c)

theorem W5_arg13 (m : (ℓ : Loc nD τ sig) → Buf (Elt F) ℓ) (c : Dev nD) :
    W5 (F := F) m c (Proc.devRef .tc main_arg13) = m ((c.tc : Thread nD τ).loc main_arg13) :=
  (keep5 (W4 m c) main_arg13 (by decide)).trans (W4_arg13 m c)

theorem W5_arg14 (m : (ℓ : Loc nD τ sig) → Buf (Elt F) ℓ) (c : Dev nD) :
    W5 (F := F) m c (Proc.devRef .tc main_arg14) = m ((c.tc : Thread nD τ).loc main_arg14) :=
  (keep5 (W4 m c) main_arg14 (by decide)).trans (W4_arg14 m c)

theorem W5_arg15 (m : (ℓ : Loc nD τ sig) → Buf (Elt F) ℓ) (c : Dev nD) :
    W5 (F := F) m c (Proc.devRef .tc main_arg15) = m ((c.tc : Thread nD τ).loc main_arg15) :=
  (keep5 (W4 m c) main_arg15 (by decide)).trans (W4_arg15 m c)

theorem W5_arg16 (m : (ℓ : Loc nD τ sig) → Buf (Elt F) ℓ) (c : Dev nD) :
    W5 (F := F) m c (Proc.devRef .tc main_arg16) = m ((c.tc : Thread nD τ).loc main_arg16) :=
  (keep5 (W4 m c) main_arg16 (by decide)).trans (W4_arg16 m c)

theorem W5_arg7 (m : (ℓ : Loc nD τ sig) → Buf (Elt F) ℓ) (c : Dev nD) :
    W5 (F := F) m c (Proc.devRef .tc main_arg7) = m ((c.tc : Thread nD τ).loc main_arg7) :=
  (keep5 (W4 m c) main_arg7 (by decide)).trans (W4_arg7 m c)

theorem W5_arg8 (m : (ℓ : Loc nD τ sig) → Buf (Elt F) ℓ) (c : Dev nD) :
    W5 (F := F) m c (Proc.devRef .tc main_arg8) = m ((c.tc : Thread nD τ).loc main_arg8) :=
  (keep5 (W4 m c) main_arg8 (by decide)).trans (W4_arg8 m c)

theorem W5_arg9 (m : (ℓ : Loc nD τ sig) → Buf (Elt F) ℓ) (c : Dev nD) :
    W5 (F := F) m c (Proc.devRef .tc main_arg9) = m ((c.tc : Thread nD τ).loc main_arg9) :=
  (keep5 (W4 m c) main_arg9 (by decide)).trans (W4_arg9 m c)

theorem W5_v1 (m : (ℓ : Loc nD τ sig) → Buf (Elt F) ℓ) (c : Dev nD) :
    W5 (F := F) m c (Proc.devRef .tc main_v1) = val_main_v1 (F := F) (m ((c.tc : Thread nD τ).loc main_arg2)) :=
  (keep5 (W4 m c) main_v1 (by decide)).trans (W4_v1 m c)

theorem W5_v18 (m : (ℓ : Loc nD τ sig) → Buf (Elt F) ℓ) (c : Dev nD) :
    W5 (F := F) m c (Proc.devRef .tc main_v18) = val_main_v18 (F := F) (m ((c.tc : Thread nD τ).loc main_arg0)) (m ((c.tc : Thread nD τ).loc main_arg2)) :=
  (keep5 (W4 m c) main_v18 (by decide)).trans (W4_v18 m c)

theorem W5_v45 (m : (ℓ : Loc nD τ sig) → Buf (Elt F) ℓ) (c : Dev nD) :
    W5 (F := F) m c (Proc.devRef .tc main_v45) = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  out5_v45 (W4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (W4_v40 m c) (W4_arg5 m c) (W4_arg6 m c)

theorem W6_arg0 (m : (ℓ : Loc nD τ sig) → Buf (Elt F) ℓ) (c : Dev nD) :
    W6 (F := F) m c (Proc.devRef .tc main_arg0) = m ((c.tc : Thread nD τ).loc main_arg0) :=
  (keep6 (W5 m c) main_arg0 (by decide)).trans (W5_arg0 m c)

theorem W6_arg1 (m : (ℓ : Loc nD τ sig) → Buf (Elt F) ℓ) (c : Dev nD) :
    W6 (F := F) m c (Proc.devRef .tc main_arg1) = m ((c.tc : Thread nD τ).loc main_arg1) :=
  (keep6 (W5 m c) main_arg1 (by decide)).trans (W5_arg1 m c)

theorem W6_arg10 (m : (ℓ : Loc nD τ sig) → Buf (Elt F) ℓ) (c : Dev nD) :
    W6 (F := F) m c (Proc.devRef .tc main_arg10) = m ((c.tc : Thread nD τ).loc main_arg10) :=
  (keep6 (W5 m c) main_arg10 (by decide)).trans (W5_arg10 m c)

theorem W6_arg11 (m : (ℓ : Loc nD τ sig) → Buf (Elt F) ℓ) (c : Dev nD) :
    W6 (F := F) m c (Proc.devRef .tc main_arg11) = m ((c.tc : Thread nD τ).loc main_arg11) :=
  (keep6 (W5 m c) main_arg11 (by decide)).trans (W5_arg11 m c)

theorem W6_arg12 (m : (ℓ : Loc nD τ sig) → Buf (Elt F) ℓ) (c : Dev nD) :
    W6 (F := F) m c (Proc.devRef .tc main_arg12) = m ((c.tc : Thread nD τ).loc main_arg12) :=
  (keep6 (W5 m c) main_arg12 (by decide)).trans (W5_arg12 m c)

theorem W6_arg13 (m : (ℓ : Loc nD τ sig) → Buf (Elt F) ℓ) (c : Dev nD) :
    W6 (F := F) m c (Proc.devRef .tc main_arg13) = m ((c.tc : Thread nD τ).loc main_arg13) :=
  (keep6 (W5 m c) main_arg13 (by decide)).trans (W5_arg13 m c)

theorem W6_arg14 (m : (ℓ : Loc nD τ sig) → Buf (Elt F) ℓ) (c : Dev nD) :
    W6 (F := F) m c (Proc.devRef .tc main_arg14) = m ((c.tc : Thread nD τ).loc main_arg14) :=
  (keep6 (W5 m c) main_arg14 (by decide)).trans (W5_arg14 m c)

theorem W6_arg15 (m : (ℓ : Loc nD τ sig) → Buf (Elt F) ℓ) (c : Dev nD) :
    W6 (F := F) m c (Proc.devRef .tc main_arg15) = m ((c.tc : Thread nD τ).loc main_arg15) :=
  (keep6 (W5 m c) main_arg15 (by decide)).trans (W5_arg15 m c)

theorem W6_arg16 (m : (ℓ : Loc nD τ sig) → Buf (Elt F) ℓ) (c : Dev nD) :
    W6 (F := F) m c (Proc.devRef .tc main_arg16) = m ((c.tc : Thread nD τ).loc main_arg16) :=
  (keep6 (W5 m c) main_arg16 (by decide)).trans (W5_arg16 m c)

theorem W6_arg9 (m : (ℓ : Loc nD τ sig) → Buf (Elt F) ℓ) (c : Dev nD) :
    W6 (F := F) m c (Proc.devRef .tc main_arg9) = m ((c.tc : Thread nD τ).loc main_arg9) :=
  (keep6 (W5 m c) main_arg9 (by decide)).trans (W5_arg9 m c)

theorem W6_v1 (m : (ℓ : Loc nD τ sig) → Buf (Elt F) ℓ) (c : Dev nD) :
    W6 (F := F) m c (Proc.devRef .tc main_v1) = val_main_v1 (F := F) (m ((c.tc : Thread nD τ).loc main_arg2)) :=
  (keep6 (W5 m c) main_v1 (by decide)).trans (W5_v1 m c)

theorem W6_v18 (m : (ℓ : Loc nD τ sig) → Buf (Elt F) ℓ) (c : Dev nD) :
    W6 (F := F) m c (Proc.devRef .tc main_v18) = val_main_v18 (F := F) (m ((c.tc : Thread nD τ).loc main_arg0)) (m ((c.tc : Thread nD τ).loc main_arg2)) :=
  (keep6 (W5 m c) main_v18 (by decide)).trans (W5_v18 m c)

theorem W6_v46 (m : (ℓ : Loc nD τ sig) → Buf (Elt F) ℓ) (c : Dev nD) :
    W6 (F := F) m c (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  out6_v46 (W5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (W5_v45 m c)

theorem W6_v50 (m : (ℓ : Loc nD τ sig) → Buf (Elt F) ℓ) (c : Dev nD) :
    W6 (F := F) m c (Proc.devRef .tc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  out6_v50 (W5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (W5_v45 m c) (W5_arg7 m c) (W5_arg8 m c)

theorem W7_arg0 (m : (ℓ : Loc nD τ sig) → Buf (Elt F) ℓ) (c : Dev nD) :
    W7 (F := F) m c (Proc.devRef .tc main_arg0) = m ((c.tc : Thread nD τ).loc main_arg0) :=
  (keep7 (W6 m c) main_arg0 (by decide)).trans (W6_arg0 m c)

theorem W7_arg1 (m : (ℓ : Loc nD τ sig) → Buf (Elt F) ℓ) (c : Dev nD) :
    W7 (F := F) m c (Proc.devRef .tc main_arg1) = m ((c.tc : Thread nD τ).loc main_arg1) :=
  (keep7 (W6 m c) main_arg1 (by decide)).trans (W6_arg1 m c)

theorem W7_arg11 (m : (ℓ : Loc nD τ sig) → Buf (Elt F) ℓ) (c : Dev nD) :
    W7 (F := F) m c (Proc.devRef .tc main_arg11) = m ((c.tc : Thread nD τ).loc main_arg11) :=
  (keep7 (W6 m c) main_arg11 (by decide)).trans (W6_arg11 m c)

theorem W7_arg12 (m : (ℓ : Loc nD τ sig) → Buf (Elt F) ℓ) (c : Dev nD) :
    W7 (F := F) m c (Proc.devRef .tc main_arg12) = m ((c.tc : Thread nD τ).loc main_arg12) :=
  (keep7 (W6 m c) main_arg12 (by decide)).trans (W6_arg12 m c)

theorem W7_arg13 (m : (ℓ : Loc nD τ sig) → Buf (Elt F) ℓ) (c : Dev nD) :
    W7 (F := F) m c (Proc.devRef .tc main_arg13) = m ((c.tc : Thread nD τ).loc main_arg13) :=
  (keep7 (W6 m c) main_arg13 (by decide)).trans (W6_arg13 m c)

theorem W7_arg14 (m : (ℓ : Loc nD τ sig) → Buf (Elt F) ℓ) (c : Dev nD) :
    W7 (F := F) m c (Proc.devRef .tc main_arg14) = m ((c.tc : Thread nD τ).loc main_arg14) :=
  (keep7 (W6 m c) main_arg14 (by decide)).trans (W6_arg14 m c)

theorem W7_arg15 (m : (ℓ : Loc nD τ sig) → Buf (Elt F) ℓ) (c : Dev nD) :
    W7 (F := F) m c (Proc.devRef .tc main_arg15) = m ((c.tc : Thread nD τ).loc main_arg15) :=
  (keep7 (W6 m c) main_arg15 (by decide)).trans (W6_arg15 m c)

theorem W7_arg16 (m : (ℓ : Loc nD τ sig) → Buf (Elt F) ℓ) (c : Dev nD) :
    W7 (F := F) m c (Proc.devRef .tc main_arg16) = m ((c.tc : Thread nD τ).loc main_arg16) :=
  (keep7 (W6 m c) main_arg16 (by decide)).trans (W6_arg16 m c)

theorem W7_v1 (m : (ℓ : Loc nD τ sig) → Buf (Elt F) ℓ) (c : Dev nD) :
    W7 (F := F) m c (Proc.devRef .tc main_v1) = val_main_v1 (F := F) (m ((c.tc : Thread nD τ).loc main_arg2)) :=
  (keep7 (W6 m c) main_v1 (by decide)).trans (W6_v1 m c)

theorem W7_v18 (m : (ℓ : Loc nD τ sig) → Buf (Elt F) ℓ) (c : Dev nD) :
    W7 (F := F) m c (Proc.devRef .tc main_v18) = val_main_v18 (F := F) (m ((c.tc : Thread nD τ).loc main_arg0)) (m ((c.tc : Thread nD τ).loc main_arg2)) :=
  (keep7 (W6 m c) main_v18 (by decide)).trans (W6_v18 m c)

theorem W7_v46 (m : (ℓ : Loc nD τ sig) → Buf (Elt F) ℓ) (c : Dev nD) :
    W7 (F := F) m c (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (keep7 (W6 m c) main_v46 (by decide)).trans (W6_v46 m c)

theorem W7_v55 (m : (ℓ : Loc nD τ sig) → Buf (Elt F) ℓ) (c : Dev nD) :
    W7 (F := F) m c (Proc.devRef .tc main_v55) = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  out7_v55 (W6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (W6_v50 m c) (W6_arg9 m c) (W6_arg10 m c)

theorem W8_arg0 (m : (ℓ : Loc nD τ sig) → Buf (Elt F) ℓ) (c : Dev nD) :
    W8 (F := F) m c (Proc.devRef .tc main_arg0) = m ((c.tc : Thread nD τ).loc main_arg0) :=
  (keep8 (W7 m c) main_arg0 (by decide)).trans (W7_arg0 m c)

theorem W8_arg1 (m : (ℓ : Loc nD τ sig) → Buf (Elt F) ℓ) (c : Dev nD) :
    W8 (F := F) m c (Proc.devRef .tc main_arg1) = m ((c.tc : Thread nD τ).loc main_arg1) :=
  (keep8 (W7 m c) main_arg1 (by decide)).trans (W7_arg1 m c)

theorem W8_arg11 (m : (ℓ : Loc nD τ sig) → Buf (Elt F) ℓ) (c : Dev nD) :
    W8 (F := F) m c (Proc.devRef .tc main_arg11) = m ((c.tc : Thread nD τ).loc main_arg11) :=
  (keep8 (W7 m c) main_arg11 (by decide)).trans (W7_arg11 m c)

theorem W8_arg12 (m : (ℓ : Loc nD τ sig) → Buf (Elt F) ℓ) (c : Dev nD) :
    W8 (F := F) m c (Proc.devRef .tc main_arg12) = m ((c.tc : Thread nD τ).loc main_arg12) :=
  (keep8 (W7 m c) main_arg12 (by decide)).trans (W7_arg12 m c)

theorem W8_arg13 (m : (ℓ : Loc nD τ sig) → Buf (Elt F) ℓ) (c : Dev nD) :
    W8 (F := F) m c (Proc.devRef .tc main_arg13) = m ((c.tc : Thread nD τ).loc main_arg13) :=
  (keep8 (W7 m c) main_arg13 (by decide)).trans (W7_arg13 m c)

theorem W8_arg14 (m : (ℓ : Loc nD τ sig) → Buf (Elt F) ℓ) (c : Dev nD) :
    W8 (F := F) m c (Proc.devRef .tc main_arg14) = m ((c.tc : Thread nD τ).loc main_arg14) :=
  (keep8 (W7 m c) main_arg14 (by decide)).trans (W7_arg14 m c)

theorem W8_arg15 (m : (ℓ : Loc nD τ sig) → Buf (Elt F) ℓ) (c : Dev nD) :
    W8 (F := F) m c (Proc.devRef .tc main_arg15) = m ((c.tc : Thread nD τ).loc main_arg15) :=
  (keep8 (W7 m c) main_arg15 (by decide)).trans (W7_arg15 m c)

theorem W8_arg16 (m : (ℓ : Loc nD τ sig) → Buf (Elt F) ℓ) (c : Dev nD) :
    W8 (F := F) m c (Proc.devRef .tc main_arg16) = m ((c.tc : Thread nD τ).loc main_arg16) :=
  (keep8 (W7 m c) main_arg16 (by decide)).trans (W7_arg16 m c)

theorem W8_v1 (m : (ℓ : Loc nD τ sig) → Buf (Elt F) ℓ) (c : Dev nD) :
    W8 (F := F) m c (Proc.devRef .tc main_v1) = val_main_v1 (F := F) (m ((c.tc : Thread nD τ).loc main_arg2)) :=
  (keep8 (W7 m c) main_v1 (by decide)).trans (W7_v1 m c)

theorem W8_v18 (m : (ℓ : Loc nD τ sig) → Buf (Elt F) ℓ) (c : Dev nD) :
    W8 (F := F) m c (Proc.devRef .tc main_v18) = val_main_v18 (F := F) (m ((c.tc : Thread nD τ).loc main_arg0)) (m ((c.tc : Thread nD τ).loc main_arg2)) :=
  (keep8 (W7 m c) main_v18 (by decide)).trans (W7_v18 m c)

theorem W8_v46 (m : (ℓ : Loc nD τ sig) → Buf (Elt F) ℓ) (c : Dev nD) :
    W8 (F := F) m c (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (keep8 (W7 m c) main_v46 (by decide)).trans (W7_v46 m c)

theorem W8_v55 (m : (ℓ : Loc nD τ sig) → Buf (Elt F) ℓ) (c : Dev nD) :
    W8 (F := F) m c (Proc.devRef .tc main_v55) = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep8 (W7 m c) main_v55 (by decide)).trans (W7_v55 m c)

theorem W8_v60 (m : (ℓ : Loc nD τ sig) → Buf (Elt F) ℓ) (c : Dev nD) :
    W8 (F := F) m c (Proc.devRef .tc main_v60) = val_main_v60 (F := F) (m ((c.tc : Thread nD τ).loc main_arg2)) :=
  out8_v60 (W7 m c) (m ((c.tc : Thread nD τ).loc main_arg2)) (W7_v1 m c)

theorem W9_arg1 (m : (ℓ : Loc nD τ sig) → Buf (Elt F) ℓ) (c : Dev nD) :
    W9 (F := F) m c (Proc.devRef .tc main_arg1) = m ((c.tc : Thread nD τ).loc main_arg1) :=
  (keep9 (W8 m c) main_arg1 (by decide)).trans (W8_arg1 m c)

theorem W9_arg11 (m : (ℓ : Loc nD τ sig) → Buf (Elt F) ℓ) (c : Dev nD) :
    W9 (F := F) m c (Proc.devRef .tc main_arg11) = m ((c.tc : Thread nD τ).loc main_arg11) :=
  (keep9 (W8 m c) main_arg11 (by decide)).trans (W8_arg11 m c)

theorem W9_arg12 (m : (ℓ : Loc nD τ sig) → Buf (Elt F) ℓ) (c : Dev nD) :
    W9 (F := F) m c (Proc.devRef .tc main_arg12) = m ((c.tc : Thread nD τ).loc main_arg12) :=
  (keep9 (W8 m c) main_arg12 (by decide)).trans (W8_arg12 m c)

theorem W9_arg13 (m : (ℓ : Loc nD τ sig) → Buf (Elt F) ℓ) (c : Dev nD) :
    W9 (F := F) m c (Proc.devRef .tc main_arg13) = m ((c.tc : Thread nD τ).loc main_arg13) :=
  (keep9 (W8 m c) main_arg13 (by decide)).trans (W8_arg13 m c)

theorem W9_arg14 (m : (ℓ : Loc nD τ sig) → Buf (Elt F) ℓ) (c : Dev nD) :
    W9 (F := F) m c (Proc.devRef .tc main_arg14) = m ((c.tc : Thread nD τ).loc main_arg14) :=
  (keep9 (W8 m c) main_arg14 (by decide)).trans (W8_arg14 m c)

theorem W9_arg15 (m : (ℓ : Loc nD τ sig) → Buf (Elt F) ℓ) (c : Dev nD) :
    W9 (F := F) m c (Proc.devRef .tc main_arg15) = m ((c.tc : Thread nD τ).loc main_arg15) :=
  (keep9 (W8 m c) main_arg15 (by decide)).trans (W8_arg15 m c)

theorem W9_arg16 (m : (ℓ : Loc nD τ sig) → Buf (Elt F) ℓ) (c : Dev nD) :
    W9 (F := F) m c (Proc.devRef .tc main_arg16) = m ((c.tc : Thread nD τ).loc main_arg16) :=
  (keep9 (W8 m c) main_arg16 (by decide)).trans (W8_arg16 m c)

theorem W9_v1 (m : (ℓ : Loc nD τ sig) → Buf (Elt F) ℓ) (c : Dev nD) :
    W9 (F := F) m c (Proc.devRef .tc main_v1) = val_main_v1 (F := F) (m ((c.tc : Thread nD τ).loc main_arg2)) :=
  (keep9 (W8 m c) main_v1 (by decide)).trans (W8_v1 m c)

theorem W9_v46 (m : (ℓ : Loc nD τ sig) → Buf (Elt F) ℓ) (c : Dev nD) :
    W9 (F := F) m c (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (keep9 (W8 m c) main_v46 (by decide)).trans (W8_v46 m c)

theorem W9_v60 (m : (ℓ : Loc nD τ sig) → Buf (Elt F) ℓ) (c : Dev nD) :
    W9 (F := F) m c (Proc.devRef .tc main_v60) = val_main_v60 (F := F) (m ((c.tc : Thread nD τ).loc main_arg2)) :=
  (keep9 (W8 m c) main_v60 (by decide)).trans (W8_v60 m c)

theorem W9_v68 (m : (ℓ : Loc nD τ sig) → Buf (Elt F) ℓ) (c : Dev nD) :
    W9 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  out9_v68 (W8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (W8_v55 m c) (W8_v18 m c) (W8_v1 m c) (W8_v60 m c) (W8_arg0 m c)

theorem W10_arg1 (m : (ℓ : Loc nD τ sig) → Buf (Elt F) ℓ) (c : Dev nD) :
    W10 (F := F) m c (Proc.devRef .tc main_arg1) = m ((c.tc : Thread nD τ).loc main_arg1) :=
  (keep10 (W9 m c) main_arg1 (by decide)).trans (W9_arg1 m c)

theorem W10_arg11 (m : (ℓ : Loc nD τ sig) → Buf (Elt F) ℓ) (c : Dev nD) :
    W10 (F := F) m c (Proc.devRef .tc main_arg11) = m ((c.tc : Thread nD τ).loc main_arg11) :=
  (keep10 (W9 m c) main_arg11 (by decide)).trans (W9_arg11 m c)

theorem W10_arg12 (m : (ℓ : Loc nD τ sig) → Buf (Elt F) ℓ) (c : Dev nD) :
    W10 (F := F) m c (Proc.devRef .tc main_arg12) = m ((c.tc : Thread nD τ).loc main_arg12) :=
  (keep10 (W9 m c) main_arg12 (by decide)).trans (W9_arg12 m c)

theorem W10_arg13 (m : (ℓ : Loc nD τ sig) → Buf (Elt F) ℓ) (c : Dev nD) :
    W10 (F := F) m c (Proc.devRef .tc main_arg13) = m ((c.tc : Thread nD τ).loc main_arg13) :=
  (keep10 (W9 m c) main_arg13 (by decide)).trans (W9_arg13 m c)

theorem W10_arg14 (m : (ℓ : Loc nD τ sig) → Buf (Elt F) ℓ) (c : Dev nD) :
    W10 (F := F) m c (Proc.devRef .tc main_arg14) = m ((c.tc : Thread nD τ).loc main_arg14) :=
  (keep10 (W9 m c) main_arg14 (by decide)).trans (W9_arg14 m c)

theorem W10_arg15 (m : (ℓ : Loc nD τ sig) → Buf (Elt F) ℓ) (c : Dev nD) :
    W10 (F := F) m c (Proc.devRef .tc main_arg15) = m ((c.tc : Thread nD τ).loc main_arg15) :=
  (keep10 (W9 m c) main_arg15 (by decide)).trans (W9_arg15 m c)

theorem W10_arg16 (m : (ℓ : Loc nD τ sig) → Buf (Elt F) ℓ) (c : Dev nD) :
    W10 (F := F) m c (Proc.devRef .tc main_arg16) = m ((c.tc : Thread nD τ).loc main_arg16) :=
  (keep10 (W9 m c) main_arg16 (by decide)).trans (W9_arg16 m c)

theorem W10_v68 (m : (ℓ : Loc nD τ sig) → Buf (Elt F) ℓ) (c : Dev nD) :
    W10 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep10 (W9 m c) main_v68 (by decide)).trans (W9_v68 m c)

theorem W10_v73 (m : (ℓ : Loc nD τ sig) → Buf (Elt F) ℓ) (c : Dev nD) :
    W10 (F := F) m c (Proc.devRef .tc main_v73) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  out10_v73 (W9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (W9_v1 m c) (W9_v46 m c) (W9_v60 m c)

theorem W11_arg1 (m : (ℓ : Loc nD τ sig) → Buf (Elt F) ℓ) (c : Dev nD) :
    W11 (F := F) m c (Proc.devRef .tc main_arg1) = m ((c.tc : Thread nD τ).loc main_arg1) :=
  (keep11 (W10 m c) main_arg1 (by decide)).trans (W10_arg1 m c)

theorem W11_arg11 (m : (ℓ : Loc nD τ sig) → Buf (Elt F) ℓ) (c : Dev nD) :
    W11 (F := F) m c (Proc.devRef .tc main_arg11) = m ((c.tc : Thread nD τ).loc main_arg11) :=
  (keep11 (W10 m c) main_arg11 (by decide)).trans (W10_arg11 m c)

theorem W11_arg12 (m : (ℓ : Loc nD τ sig) → Buf (Elt F) ℓ) (c : Dev nD) :
    W11 (F := F) m c (Proc.devRef .tc main_arg12) = m ((c.tc : Thread nD τ).loc main_arg12) :=
  (keep11 (W10 m c) main_arg12 (by decide)).trans (W10_arg12 m c)

theorem W11_arg13 (m : (ℓ : Loc nD τ sig) → Buf (Elt F) ℓ) (c : Dev nD) :
    W11 (F := F) m c (Proc.devRef .tc main_arg13) = m ((c.tc : Thread nD τ).loc main_arg13) :=
  (keep11 (W10 m c) main_arg13 (by decide)).trans (W10_arg13 m c)

theorem W11_arg14 (m : (ℓ : Loc nD τ sig) → Buf (Elt F) ℓ) (c : Dev nD) :
    W11 (F := F) m c (Proc.devRef .tc main_arg14) = m ((c.tc : Thread nD τ).loc main_arg14) :=
  (keep11 (W10 m c) main_arg14 (by decide)).trans (W10_arg14 m c)

theorem W11_arg15 (m : (ℓ : Loc nD τ sig) → Buf (Elt F) ℓ) (c : Dev nD) :
    W11 (F := F) m c (Proc.devRef .tc main_arg15) = m ((c.tc : Thread nD τ).loc main_arg15) :=
  (keep11 (W10 m c) main_arg15 (by decide)).trans (W10_arg15 m c)

theorem W11_arg16 (m : (ℓ : Loc nD τ sig) → Buf (Elt F) ℓ) (c : Dev nD) :
    W11 (F := F) m c (Proc.devRef .tc main_arg16) = m ((c.tc : Thread nD τ).loc main_arg16) :=
  (keep11 (W10 m c) main_arg16 (by decide)).trans (W10_arg16 m c)

theorem W11_v68 (m : (ℓ : Loc nD τ sig) → Buf (Elt F) ℓ) (c : Dev nD) :
    W11 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep11 (W10 m c) main_v68 (by decide)).trans (W10_v68 m c)

theorem W11_v74 (m : (ℓ : Loc nD τ sig) → Buf (Elt F) ℓ) (c : Dev nD) :
    W11 (F := F) m c (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  out11_v74 (W10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (W10_arg1 m c) (W10_v73 m c)

theorem W12_arg1 (m : (ℓ : Loc nD τ sig) → Buf (Elt F) ℓ) (c : Dev nD) :
    W12 (F := F) m c (Proc.devRef .tc main_arg1) = m ((c.tc : Thread nD τ).loc main_arg1) :=
  (keep12 (W11 m c) main_arg1 (by decide)).trans (W11_arg1 m c)

theorem W12_arg13 (m : (ℓ : Loc nD τ sig) → Buf (Elt F) ℓ) (c : Dev nD) :
    W12 (F := F) m c (Proc.devRef .tc main_arg13) = m ((c.tc : Thread nD τ).loc main_arg13) :=
  (keep12 (W11 m c) main_arg13 (by decide)).trans (W11_arg13 m c)

theorem W12_arg14 (m : (ℓ : Loc nD τ sig) → Buf (Elt F) ℓ) (c : Dev nD) :
    W12 (F := F) m c (Proc.devRef .tc main_arg14) = m ((c.tc : Thread nD τ).loc main_arg14) :=
  (keep12 (W11 m c) main_arg14 (by decide)).trans (W11_arg14 m c)

theorem W12_arg15 (m : (ℓ : Loc nD τ sig) → Buf (Elt F) ℓ) (c : Dev nD) :
    W12 (F := F) m c (Proc.devRef .tc main_arg15) = m ((c.tc : Thread nD τ).loc main_arg15) :=
  (keep12 (W11 m c) main_arg15 (by decide)).trans (W11_arg15 m c)

theorem W12_arg16 (m : (ℓ : Loc nD τ sig) → Buf (Elt F) ℓ) (c : Dev nD) :
    W12 (F := F) m c (Proc.devRef .tc main_arg16) = m ((c.tc : Thread nD τ).loc main_arg16) :=
  (keep12 (W11 m c) main_arg16 (by decide)).trans (W11_arg16 m c)

theorem W12_v68 (m : (ℓ : Loc nD τ sig) → Buf (Elt F) ℓ) (c : Dev nD) :
    W12 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep12 (W11 m c) main_v68 (by decide)).trans (W11_v68 m c)

theorem W12_v78 (m : (ℓ : Loc nD τ sig) → Buf (Elt F) ℓ) (c : Dev nD) :
    W12 (F := F) m c (Proc.devRef .tc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) :=
  out12_v78 (W11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (W11_v74 m c) (W11_arg11 m c) (W11_arg12 m c)

theorem W13_arg15 (m : (ℓ : Loc nD τ sig) → Buf (Elt F) ℓ) (c : Dev nD) :
    W13 (F := F) m c (Proc.devRef .tc main_arg15) = m ((c.tc : Thread nD τ).loc main_arg15) :=
  (keep13 (W12 m c) main_arg15 (by decide)).trans (W12_arg15 m c)

theorem W13_arg16 (m : (ℓ : Loc nD τ sig) → Buf (Elt F) ℓ) (c : Dev nD) :
    W13 (F := F) m c (Proc.devRef .tc main_arg16) = m ((c.tc : Thread nD τ).loc main_arg16) :=
  (keep13 (W12 m c) main_arg16 (by decide)).trans (W12_arg16 m c)

theorem W13_v68 (m : (ℓ : Loc nD τ sig) → Buf (Elt F) ℓ) (c : Dev nD) :
    W13 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep13 (W12 m c) main_v68 (by decide)).trans (W12_v68 m c)

theorem W13_v84 (m : (ℓ : Loc nD τ sig) → Buf (Elt F) ℓ) (c : Dev nD) :
    W13 (F := F) m c (Proc.devRef .tc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) :=
  out13_v84 (W12 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (W12_v78 m c) (W12_arg13 m c) (W12_arg14 m c) (W12_arg1 m c)

theorem W14_arg15 (m : (ℓ : Loc nD τ sig) → Buf (Elt F) ℓ) (c : Dev nD) :
    W14 (F := F) m c (Proc.devRef .tc main_arg15) = m ((c.tc : Thread nD τ).loc main_arg15) :=
  (keep14 (W13 m c) main_arg15 (by decide)).trans (W13_arg15 m c)

theorem W14_arg16 (m : (ℓ : Loc nD τ sig) → Buf (Elt F) ℓ) (c : Dev nD) :
    W14 (F := F) m c (Proc.devRef .tc main_arg16) = m ((c.tc : Thread nD τ).loc main_arg16) :=
  (keep14 (W13 m c) main_arg16 (by decide)).trans (W13_arg16 m c)

theorem W14_v68 (m : (ℓ : Loc nD τ sig) → Buf (Elt F) ℓ) (c : Dev nD) :
    W14 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep14 (W13 m c) main_v68 (by decide)).trans (W13_v68 m c)

theorem W14_v84 (m : (ℓ : Loc nD τ sig) → Buf (Elt F) ℓ) (c : Dev nD) :
    W14 (F := F) m c (Proc.devRef .tc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) :=
  (keep14 (W13 m c) main_v84 (by decide)).trans (W13_v84 m c)

theorem W14_v88 (m : (ℓ : Loc nD τ sig) → Buf (Elt F) ℓ) (c : Dev nD) :
    W14 (F := F) m c (Proc.devRef .tc main_v88) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) :=
  out14_v88 (W13 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (W13_v84 m c)

theorem W15_arg15 (m : (ℓ : Loc nD τ sig) → Buf (Elt F) ℓ) (c : Dev nD) :
    W15 (F := F) m c (Proc.devRef .tc main_arg15) = m ((c.tc : Thread nD τ).loc main_arg15) :=
  (keep15 (W14 m c) main_arg15 (by decide)).trans (W14_arg15 m c)

theorem W15_arg16 (m : (ℓ : Loc nD τ sig) → Buf (Elt F) ℓ) (c : Dev nD) :
    W15 (F := F) m c (Proc.devRef .tc main_arg16) = m ((c.tc : Thread nD τ).loc main_arg16) :=
  (keep15 (W14 m c) main_arg16 (by decide)).trans (W14_arg16 m c)

theorem W15_v68 (m : (ℓ : Loc nD τ sig) → Buf (Elt F) ℓ) (c : Dev nD) :
    W15 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep15 (W14 m c) main_v68 (by decide)).trans (W14_v68 m c)

theorem W15_v84 (m : (ℓ : Loc nD τ sig) → Buf (Elt F) ℓ) (c : Dev nD) :
    W15 (F := F) m c (Proc.devRef .tc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) :=
  (keep15 (W14 m c) main_v84 (by decide)).trans (W14_v84 m c)

theorem W15_v88 (m : (ℓ : Loc nD τ sig) → Buf (Elt F) ℓ) (c : Dev nD) :
    W15 (F := F) m c (Proc.devRef .tc main_v88) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) :=
  (keep15 (W14 m c) main_v88 (by decide)).trans (W14_v88 m c)

theorem W15_v95 (m : (ℓ : Loc nD τ sig) → Buf (Elt F) ℓ) (c : Dev nD) :
    W15 (F := F) m c (Proc.devRef .tc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) :=
  out15_v95 (W14 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (W14_v88 m c) (W14_v84 m c)

theorem W16_v108 (m : (ℓ : Loc nD τ sig) → Buf (Elt F) ℓ) (c : Dev nD) :
    W16 (F := F) m c (Proc.devRef .tc main_v108) = val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  out16_v108 (W15 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (W15_v88 m c) (W15_v84 m c) (W15_v95 m c) (W15_arg15 m c) (W15_arg16 m c)

theorem W16_v68 (m : (ℓ : Loc nD τ sig) → Buf (Elt F) ℓ) (c : Dev nD) :
    W16 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep16 (W15 m c) main_v68 (by decide)).trans (W15_v68 m c)

theorem W17_v109 (m : (ℓ : Loc nD τ sig) → Buf (Elt F) ℓ) (c : Dev nD) :
    W17 (F := F) m c (Proc.devRef .tc main_v109) = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  out17_v109 (W16 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (W16_v108 m c)

theorem W17_v68 (m : (ℓ : Loc nD τ sig) → Buf (Elt F) ℓ) (c : Dev nD) :
    W17 (F := F) m c (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (keep17 (W16 m c) main_v68 (by decide)).trans (W16_v68 m c)

set_option maxRecDepth 16384 in
set_option maxHeartbeats 4000000 in
/-- The program's operations are the stretches laid end to end. -/
theorem ops_split : (Cert.ReferenceIdeal.Value.ops (F := F)) = chunk1 ++ (chunk2 ++ (chunk3 ++ (chunk4 ++ (chunk5 ++ (chunk6 ++ (chunk7 ++ (chunk8 ++ (chunk9 ++ (chunk10 ++ (chunk11 ++ (chunk12 ++ (chunk13 ++ (chunk14 ++ (chunk15 ++ (chunk16 ++ (chunk17)))))))))))))))) := rfl

set_option maxRecDepth 16384 in
/-- The contents after the whole program are the contents after the last stretch. -/
theorem after_ops (m : (ℓ : Loc nD τ sig) → Buf (Elt F) ℓ) (c : Dev nD) :
    after (Cert.ReferenceIdeal.Value.ops (F := F)) (launchContents m c) = W17 m c := by
  rw [ops_split, after_app, after_app, after_app, after_app, after_app, after_app, after_app, after_app, after_app, after_app, after_app, after_app, after_app, after_app, after_app, after_app]
  rfl

end Cert.ReferenceIdeal.ResEq

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The moved positions, as the run leaves them, are the stage of the last addition. -/
theorem val_main_v68_eq (m : (ℓ : Loc nD τ sig) → Buf (Elt F) ℓ) (c : Dev nD) :
    Cert.ReferenceIdeal.Value.res_main_v68 m c = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v68
  rw [ResEq.after_ops]
  exact ResEq.W17_v68 m c

/-- The new features, as the run leaves them, are the stage of the last product. -/
theorem val_main_v109_eq (m : (ℓ : Loc nD τ sig) → Buf (Elt F) ℓ) (c : Dev nD) :
    Cert.ReferenceIdeal.Value.res_main_v109 m c = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.Value.res_main_v109
  rw [ResEq.after_ops]
  exact ResEq.W17_v109 m c

end Cert.ReferenceIdeal.Read

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.EgnnSpec.lean ====
/-
  The layer as mathematics, over the extended reals.  A graph of 50000 nodes and 800000 directed edges; node n carries a
  position x n ∈ ℝ³ and a feature row h n ∈ ℝ¹²⁸.  Edge e reads the rows of its two end nodes (named by the index columns
  `gr` and `gc`, each word clamped into the table), forms the squared distance of the two positions, passes
  [h row | h col | distance] through two dense layers with the activation z ↦ z·σ(z), and from the result a scalar gate by
  two more dense layers.  Each node then receives the mean (sum over the edges whose raw row word `sr` names it, divided
  by the number of such edges, at least one) of the gated position differences and of the edge features; the position is
  moved by the first mean, and the second, beside the node's own row, goes through two dense layers, a residual sum, a
  normalisation of each row to mean zero and unit variance (with ε under the root), a scale and shift, and the activation.
  Every sum below is a finite sum in the extended reals.  The first part states what ONE edge and ONE node compute from the
  rows they read (weights as functions of two coordinates); the second part reads those rows off the arrays.  The first
  layer of each dense pair is written with its weight matrix cut into the row bands that meet the concatenated pieces.
-/
import Idealize.ShloMosaic.PureOps.Ideal
import Idealize.ShloMosaic.Lib.ValueIdx
import proofs.«166594_j8684423872621_2_alg».proof.Proof.LibRows

noncomputable section

namespace Cert.Egnn

open Idealize.ShloMosaic Idealize.ShloMosaic.ValueIdx

/-- A matrix of extended reals with literal extents. -/
abbrev Mat (a b : ℕ) : Type := (⟨2, ![a, b]⟩ : Shape).Idx → EReal
/-- A vector of extended reals. -/
abbrev Vc (a : ℕ) : Type := (⟨1, ![a]⟩ : Shape).Idx → EReal
/-- A column of 32-bit index words. -/
abbrev Col (r : ℕ) : Type := (⟨2, ![r, 1]⟩ : Shape).Idx → BitVec 32

/-- The float words the two programs share, read at the extended reals: 1, 128 and ε. -/
abbrev w1 : EReal := Ideal.ofBits .f32 0x3F800000#32
abbrev w128 : EReal := Ideal.ofBits .f32 0x43000000#32
abbrev wEps : EReal := Ideal.ofBits .f32 0x3727C5AC#32

/-- The activation z ↦ z · σ(z). -/
def silu (z : EReal) : EReal := z * Ideal.logistic z

/-! ## One edge, one node -/

/-- The squared length of a position difference. -/
def d2Row (rl : Fin 3 → EReal) : EReal := ∑ k : Fin 3, rl k * rl k

/-- The first edge layer before the activation, from the two feature rows and the squared distance: the weight band
    `Wa` meets the row node's features, `Wb` the column node's, the weight row `wd` the distance. -/
def pre1Row (hr hc : Fin 128 → EReal) (d2 : EReal) (Wa Wb : Fin 128 → Fin 128 → EReal) (wd b1 : Fin 128 → EReal)
    (j : Fin 128) : EReal :=
  (((∑ k : Fin 128, hr k * Wa k j) + (∑ k : Fin 128, hc k * Wb k j)) + d2 * wd j) + b1 j

/-- The edge feature: the first layer activated, a second dense layer, activated. -/
def efRow (hr hc : Fin 128 → EReal) (rl : Fin 3 → EReal) (Wa Wb : Fin 128 → Fin 128 → EReal) (wd b1 : Fin 128 → EReal)
    (W2 : Fin 128 → Fin 128 → EReal) (b2 : Fin 128 → EReal) (j : Fin 128) : EReal :=
  silu ((∑ k : Fin 128, silu (pre1Row hr hc (d2Row rl) Wa Wb wd b1 k) * W2 k j) + b2 j)

/-- The gate of an edge from its feature row: a dense layer with the activation, then a dense layer onto one number. -/
def gateRow (f : Fin 128 → EReal) (W3 : Fin 128 → Fin 128 → EReal) (b3 : Fin 128 → EReal) (W4 : Fin 128 → EReal)
    (b4 : EReal) : EReal :=
  (∑ k : Fin 128, silu ((∑ l : Fin 128, f l * W3 l k) + b3 k) * W4 k) + b4

/-- A node's row after the residual update, from its own row `hn` and the mean edge feature `an`. -/
def resRow (hn an : Fin 128 → EReal) (Wa Wb : Fin 128 → Fin 128 → EReal) (b1 : Fin 128 → EReal)
    (W2 : Fin 128 → Fin 128 → EReal) (b2 : Fin 128 → EReal) (j : Fin 128) : EReal :=
  hn j + ((∑ k : Fin 128, silu (((∑ l : Fin 128, hn l * Wa l k) + (∑ l : Fin 128, an l * Wb l k)) + b1 k) * W2 k j) + b2 j)

/-- A row's mean. -/
def meanRow (r : Fin 128 → EReal) : EReal := Ideal.div (∑ j : Fin 128, r j) w128

/-- A row's deviation from its mean. -/
def devRow (r : Fin 128 → EReal) (j : Fin 128) : EReal := r j - meanRow r

/-- A row's variance. -/
def varRow (r : Fin 128 → EReal) : EReal := Ideal.div (∑ j : Fin 128, devRow r j * devRow r j) w128

/-- A row normalised to mean zero and unit variance (ε under the root), scaled, shifted, activated. -/
def normRow (r g b : Fin 128 → EReal) (j : Fin 128) : EReal :=
  silu (((devRow r j * Ideal.rsqrt (varRow r + wEps)) * g j) + b j)

/-! ## The arrays -/

/-- The node an index word names: read as a signed integer and clamped into the table of 50000 rows. -/
def node (c : Col 800000) (e : Fin 800000) : Fin 50000 :=
  Cert.RowsLib.rowOf 50000 (by norm_num) (c (ix2 e (0 : Fin 1)))

section Layer

variable (x : Mat 50000 3) (h : Mat 50000 128) (gr gc sr : Col 800000)
  (We1 : Mat 257 128) (be1 : Vc 128) (We2 : Mat 128 128) (be2 : Vc 128)
  (Wc1 : Mat 128 128) (bc1 : Vc 128) (Wc2 : Mat 128 1) (bc2 : Vc 1)
  (Wn1 : Mat 256 128) (bn1 : Vc 128) (Wn2 : Mat 128 128) (bn2 : Vc 128) (gamma beta : Vc 128)

/-- The position difference along edge e. -/
def rel (e : Fin 800000) (k : Fin 3) : EReal := x (ix2 (node gr e) k) - x (ix2 (node gc e) k)

/-- The edge feature of edge e. -/
def ef (e : Fin 800000) (j : Fin 128) : EReal :=
  efRow (fun k => h (ix2 (node gr e) k)) (fun k => h (ix2 (node gc e) k)) (rel x gr gc e)
    (fun k j => We1 (ix2 (⟨k.val, by omega⟩ : Fin 257) j)) (fun k j => We1 (ix2 (⟨128 + k.val, by omega⟩ : Fin 257) j))
    (fun j => We1 (ix2 (⟨256, by norm_num⟩ : Fin 257) j)) (fun j => be1 (ix1 j))
    (fun k j => We2 (ix2 k j)) (fun j => be2 (ix1 j)) j

/-- The gate of edge e. -/
def gate (e : Fin 800000) : EReal :=
  gateRow (ef x h gr gc We1 be1 We2 be2 e) (fun l k => Wc1 (ix2 l k)) (fun k => bc1 (ix1 k))
    (fun k => Wc2 (ix2 k (0 : Fin 1))) (bc2 (ix1 (0 : Fin 1)))

/-- The gated position difference. -/
def relgate (e : Fin 800000) (k : Fin 3) : EReal :=
  rel x gr gc e k * gate x h gr gc We1 be1 We2 be2 Wc1 bc1 Wc2 bc2 e

/-- The edges whose raw row word, read as a signed integer, is n. -/
def hits (n : Fin 50000) : Finset (Fin 800000) :=
  Finset.univ.filter (fun e : Fin 800000 => (sr (ix2 e (0 : Fin 1))).toInt = (n.val : ℤ))

/-- The number of edges into n, at least one. -/
def cnt (n : Fin 50000) : EReal := max w1 (∑ _e ∈ hits sr n, w1)

/-- The moved position. -/
def xout (n : Fin 50000) (k : Fin 3) : EReal :=
  x (ix2 n k) + Ideal.div (∑ e ∈ hits sr n, relgate x h gr gc We1 be1 We2 be2 Wc1 bc1 Wc2 bc2 e k) (cnt sr n)

/-- The mean edge feature at node n. -/
def agg (n : Fin 50000) (j : Fin 128) : EReal :=
  Ideal.div (∑ e ∈ hits sr n, ef x h gr gc We1 be1 We2 be2 e j) (cnt sr n)

/-- The new feature row of node n. -/
def hout (n : Fin 50000) (j : Fin 128) : EReal :=
  normRow
    (resRow (fun k => h (ix2 n k)) (agg x h gr gc sr We1 be1 We2 be2 n)
      (fun l k => Wn1 (ix2 (⟨l.val, by omega⟩ : Fin 256) k)) (fun l k => Wn1 (ix2 (⟨128 + l.val, by omega⟩ : Fin 256) k))
      (fun k => bn1 (ix1 k)) (fun k j => Wn2 (ix2 k j)) (fun j => bn2 (ix1 j)))
    (fun j => gamma (ix1 j)) (fun j => beta (ix1 j)) j

end Layer

end Cert.Egnn

end
-- ==== Proof.RefEdgeLaws.lean ====
/-
  Laws the reference's edge stages need, over abstract operands: the activation as the reference spells it, a sum over
  257 columns cut into the bands of the concatenated row, three arrays laid side by side read in each band, and the
  reference's two row gathers read at an entry.
-/
import proofs.«166594_j8684423872621_2_alg».proof.Proof.Gen.ReferenceIdeal
import proofs.«166594_j8684423872621_2_alg».proof.Proof.EgnnSpec
import proofs.«166594_j8684423872621_2_alg».proof.Proof.LibRows
import Idealize.ShloMosaic.Lib.IdealHost

noncomputable section

namespace Cert.ReferenceIdeal.RefLaws

open Cert.ReferenceIdeal Cert.ReferenceIdeal.Gen Cert.Egnn Idealize.ShloMosaic Idealize.ShloMosaic.ValueIdx

/-- The activation as the reference spells it, z · (1 / (1 + exp (−z))) with the float word of 1, is z · σ(z). -/
theorem silu_printed (z : EReal) :
    z * Ideal.div (Ideal.ofBits .f32 0x3F800000#32) (Ideal.ofBits .f32 0x3F800000#32 + Ideal.exp (-z)) = silu z := by
  rw [Ideal.ofBits_one_f32]
  rfl

/-- A sum over 257 columns is the sum over the first 128, plus the sum over the next 128, plus the last. -/
theorem sum_257 (f : Fin 257 → EReal) :
    ∑ m : Fin 257, f m
      = ((∑ k : Fin 128, f ⟨k.val, by omega⟩) + (∑ k : Fin 128, f ⟨128 + k.val, by omega⟩)) + f ⟨256, by norm_num⟩ := by
  have h2 := Fin.sum_univ_add (M := EReal) (a := 128) (b := 128) (fun i : Fin (128 + 128) => f ⟨i.val, by omega⟩)
  exact (Fin.sum_univ_castSucc (n := 256) f).trans (congrArg₂ (· + ·) h2 rfl)

/-- A sum over 256 columns is the sum over the first 128 plus the sum over the next 128. -/
theorem sum_256 (f : Fin 256 → EReal) :
    ∑ m : Fin 256, f m = (∑ k : Fin 128, f ⟨k.val, by omega⟩) + (∑ k : Fin 128, f ⟨128 + k.val, by omega⟩) :=
  Fin.sum_univ_add (M := EReal) (a := 128) (b := 128) (fun i : Fin (128 + 128) => f ⟨i.val, by omega⟩)

variable {α : Type}

/-- Three arrays of M rows laid side by side: in the first band the result reads the first. -/
theorem concat3_cols_first {M A B C T : ℕ} (x₁ : (⟨2, ![M, A]⟩ : Shape).Idx → α) (x₂ : (⟨2, ![M, B]⟩ : Shape).Idx → α)
    (x₃ : (⟨2, ![M, C]⟩ : Shape).Idx → α)
    (h : Shape.Concatenates [(⟨2, ![M, A]⟩ : Shape), ⟨2, ![M, B]⟩, ⟨2, ![M, C]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩, ⟨⟨2, ![M, C]⟩, x₃⟩] h (ix2 p k')
      = x₁ (ix2 p k) :=
  concatenate_apply_piece (t := ⟨2, ![M, T]⟩) (1 : Fin 2) [⟨⟨2, ![M, A]⟩, x₁⟩, ⟨⟨2, ![M, B]⟩, x₂⟩, ⟨⟨2, ![M, C]⟩, x₃⟩] h (ix2 p k') 0
    (by show (0 : ℕ) < 3; omega) _ x₁ rfl rfl 0 rfl (ix2 p k)
    (fun b hb => by
      match b with
      | ⟨0, _⟩ => rfl
      | ⟨1, _⟩ => exact absurd rfl hb)
    (by show 0 + k.val = k'.val; omega)

/-- In the second band it reads the second, the first one's width less. -/
theorem concat3_cols_second {M A B C T : ℕ} (x₁ : (⟨2, ![M, A]⟩ : Shape).Idx → α) (x₂ : (⟨2, ![M, B]⟩ : Shape).Idx → α)
    (x₃ : (⟨2, ![M, C]⟩ : Shape).Idx → α)
    (h : Shape.Concatenates [(⟨2, ![M, A]⟩ : Shape), ⟨2, ![M, B]⟩, ⟨2, ![M, C]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩, ⟨⟨2, ![M, C]⟩, x₃⟩] h (ix2 p k')
      = x₂ (ix2 p k) :=
  concatenate_apply_piece (t := ⟨2, ![M, T]⟩) (1 : Fin 2) [⟨⟨2, ![M, A]⟩, x₁⟩, ⟨⟨2, ![M, B]⟩, x₂⟩, ⟨⟨2, ![M, C]⟩, x₃⟩] h (ix2 p k') 1
    (by show (1 : ℕ) < 3; omega) _ x₂ rfl rfl A (by simp) (ix2 p k)
    (fun b hb => by
      match b with
      | ⟨0, _⟩ => rfl
      | ⟨1, _⟩ => exact absurd rfl hb)
    (by show A + k.val = k'.val; omega)

/-- In the third band it reads the third, the first two widths less. -/
theorem concat3_cols_third {M A B C T : ℕ} (x₁ : (⟨2, ![M, A]⟩ : Shape).Idx → α) (x₂ : (⟨2, ![M, B]⟩ : Shape).Idx → α)
    (x₃ : (⟨2, ![M, C]⟩ : Shape).Idx → α)
    (h : Shape.Concatenates [(⟨2, ![M, A]⟩ : Shape), ⟨2, ![M, B]⟩, ⟨2, ![M, C]⟩] ⟨2, ![M, T]⟩ (1 : Fin 2))
    (p : Fin M) (k : Fin C) (k' : Fin T) (hk : k'.val = A + B + k.val) :
    concatenate ⟨2, ![M, T]⟩ (1 : Fin 2) [⟨⟨2, ![M, A]⟩, x₁⟩, ⟨⟨2, ![M, B]⟩, x₂⟩, ⟨⟨2, ![M, C]⟩, x₃⟩] h (ix2 p k')
      = x₃ (ix2 p k) :=
  concatenate_apply_piece (t := ⟨2, ![M, T]⟩) (1 : Fin 2) [⟨⟨2, ![M, A]⟩, x₁⟩, ⟨⟨2, ![M, B]⟩, x₂⟩, ⟨⟨2, ![M, C]⟩, x₃⟩] h (ix2 p k') 2
    (by show (2 : ℕ) < 3; omega) _ x₃ rfl rfl (A + B) (by simp) (ix2 p k)
    (fun b hb => by
      match b with
      | ⟨0, _⟩ => rfl
      | ⟨1, _⟩ => exact absurd rfl hb)
    (by show A + B + k.val = k'.val; omega)

variable {F : FTy → Type} [FloatOps F]

/-- The reference's gather of position rows, read at (e, k): the table at the row the index word names. -/
theorem gather_x_apply (x : (⟨S50000x3, .f32⟩ : BufTy).Contents (Elt F))
    (idx : (⟨S800000x1, .i32⟩ : BufTy).Contents (Elt F)) (e : Fin 800000) (k : Fin 3) :
    Host.gather gather_S50000x3_S800000x1_S800000x3_1_0_n_n_0_1_13 x idx (ix2 e k)
      = x (ix2 (Cert.RowsLib.rowOf 50000 (by norm_num) (idx (ix2 e (0 : Fin 1)))) k) :=
  Cert.RowsLib.gather_rows_apply (N := 50000) (C := 3) (R := 800000) (by norm_num)
    Facts₀.gather_S50000x3_S800000x1_S800000x3_1_0_n_n_0_1_13_wf x idx e k

/-- The reference's gather of feature rows, read at (e, k). -/
theorem gather_h_apply (x : (⟨S50000x128, .f32⟩ : BufTy).Contents (Elt F))
    (idx : (⟨S800000x1, .i32⟩ : BufTy).Contents (Elt F)) (e : Fin 800000) (k : Fin 128) :
    Host.gather gather_S50000x128_S800000x1_S800000x128_1_0_n_n_0_1_1128 x idx (ix2 e k)
      = x (ix2 (Cert.RowsLib.rowOf 50000 (by norm_num) (idx (ix2 e (0 : Fin 1)))) k) :=
  Cert.RowsLib.gather_rows_apply (N := 50000) (C := 128) (R := 800000) (by norm_num)
    Facts₀.gather_S50000x128_S800000x1_S800000x128_1_0_n_n_0_1_1128_wf x idx e k

end Cert.ReferenceIdeal.RefLaws

end
-- ==== Proof.RefEdge.lean ====
/-
  The reference's edge stages read at an index, at the extended reals: the position difference, the edge feature and the
  gate of one edge, each equal to the specification's function of the rows the edge reads.  The road: the two row gathers
  read the table at the node an index word names; the concatenated row [h row | h col | distance] is read band by band, so
  the first dense layer's contraction over 257 columns is the sum of the contractions over the three bands; the printed
  activation z · (1 / (1 + exp (−z))) is z · σ(z); the remaining layers are contractions over 128 columns read term by term.
-/
import proofs.«166594_j8684423872621_2_alg».proof.Proof.RefReadP
import proofs.«166594_j8684423872621_2_alg».proof.Proof.EgnnSpec
import proofs.«166594_j8684423872621_2_alg».proof.Proof.RefEdgeLaws

noncomputable section

namespace Cert.ReferenceIdeal.RefValue

open Cert.ReferenceIdeal Cert.ReferenceIdeal.Read Cert.Egnn Idealize.ShloMosaic Idealize.ShloMosaic.ValueIdx

/-- Two rank-two indices with the same coordinates are equal. -/
theorem idx2_ext {n0 n1 : ℕ} (i j : (⟨2, ![n0, n1]⟩ : Shape).Idx)
    (h0 : (i 0).val = (j 0).val) (h1 : (i 1).val = (j 1).val) : i = j := by
  funext a
  match a with
  | ⟨0, _⟩ => exact Fin.ext h0
  | ⟨1, _⟩ => exact Fin.ext h1

/-- Two rank-one indices with the same coordinate are equal. -/
theorem idx1_ext {n0 : ℕ} (i j : (⟨1, ![n0]⟩ : Shape).Idx) (h0 : (i 0).val = (j 0).val) : i = j := by
  funext a
  match a with
  | ⟨0, _⟩ => exact Fin.ext h0

/-! ## The index columns: the same shifted word is computed more than once -/

theorem idx_h_row (x2 : (⟨S2x800000, .i32⟩ : BufTy).Contents (Elt Ideal)) :
    Read.val_main_v27 (F := Ideal) x2 = Read.val_main_v9 x2 := rfl

theorem idx_h_col (x2 : (⟨S2x800000, .i32⟩ : BufTy).Contents (Elt Ideal)) :
    Read.val_main_v34 (F := Ideal) x2 = Read.val_main_v16 x2 := rfl

theorem idx_s1 (x2 : (⟨S2x800000, .i32⟩ : BufTy).Contents (Elt Ideal)) :
    Read.val_main_v64 (F := Ideal) x2 = Read.val_main_v58 x2 := rfl

theorem idx_s2 (x2 : (⟨S2x800000, .i32⟩ : BufTy).Contents (Elt Ideal)) :
    Read.val_main_v70 (F := Ideal) x2 = Read.val_main_v58 x2 := rfl

/-! ## The position difference and the squared distance -/

theorem rel_apply (x0 : (⟨S50000x3, .f32⟩ : BufTy).Contents (Elt Ideal))
    (x2 : (⟨S2x800000, .i32⟩ : BufTy).Contents (Elt Ideal)) (e : Fin 800000) (k : Fin 3) :
    Read.val_main_v18 (F := Ideal) x0 x2 (ix2 e k)
      = Cert.Egnn.rel x0 (Read.val_main_v9 x2) (Read.val_main_v16 x2) e k := by
  rw [val_main_v18_apply]
  unfold val_main_v10 val_main_v17
  rw [RefLaws.gather_x_apply, RefLaws.gather_x_apply]
  rfl

/-- The squared distance column: the zero word plus the sum of the three squares. -/
theorem dist2_apply (x0 : (⟨S50000x3, .f32⟩ : BufTy).Contents (Elt Ideal))
    (x2 : (⟨S2x800000, .i32⟩ : BufTy).Contents (Elt Ideal)) (e : Fin 800000) :
    Read.val_main_v21 (F := Ideal) x0 x2 (ix2 e (0 : Fin 1))
      = d2Row (Cert.Egnn.rel x0 (Read.val_main_v9 x2) (Read.val_main_v16 x2) e) := by
  refine (val_main_v21_apply x0 x2 _).trans ((val_main_v20_apply x0 x2 _).trans ?_)
  rw [val_main_cst_apply, Ideal.ofBits_def, Ideal.ofBits_zero_f32, zero_add]
  unfold d2Row
  refine Finset.sum_congr rfl fun k _ => ?_
  have hi : idx_main_v20 (idx_main_v21 (ix2 e (0 : Fin 1))) k = ix2 e k := idx2_ext _ _ rfl rfl
  rw [hi, val_main_v19_apply, rel_apply]
  rfl

/-! ## The concatenated row, band by band -/

theorem row_first (x0 : (⟨S50000x3, .f32⟩ : BufTy).Contents (Elt Ideal))
    (x1 : (⟨S50000x128, .f32⟩ : BufTy).Contents (Elt Ideal))
    (x2 : (⟨S2x800000, .i32⟩ : BufTy).Contents (Elt Ideal)) (e : Fin 800000) (k : Fin 128) (m : Fin 257)
    (hm : m.val = k.val) :
    Read.val_main_v36 (F := Ideal) x0 x1 x2 (ix2 e m) = x1 (ix2 (node (Read.val_main_v9 x2) e) k) := by
  unfold val_main_v36
  refine (RefLaws.concat3_cols_first (M := 800000) (A := 128) (B := 128) (C := 1) (T := 257)
    (val_main_v28 (F := Ideal) x1 x2) (val_main_v35 (F := Ideal) x1 x2) (val_main_v21 (F := Ideal) x0 x2) _ e k m hm).trans ?_
  unfold val_main_v28
  rw [RefLaws.gather_h_apply, idx_h_row]
  rfl

theorem row_second (x0 : (⟨S50000x3, .f32⟩ : BufTy).Contents (Elt Ideal))
    (x1 : (⟨S50000x128, .f32⟩ : BufTy).Contents (Elt Ideal))
    (x2 : (⟨S2x800000, .i32⟩ : BufTy).Contents (Elt Ideal)) (e : Fin 800000) (k : Fin 128) (m : Fin 257)
    (hm : m.val = 128 + k.val) :
    Read.val_main_v36 (F := Ideal) x0 x1 x2 (ix2 e m) = x1 (ix2 (node (Read.val_main_v16 x2) e) k) := by
  unfold val_main_v36
  refine (RefLaws.concat3_cols_second (M := 800000) (A := 128) (B := 128) (C := 1) (T := 257)
    (val_main_v28 (F := Ideal) x1 x2) (val_main_v35 (F := Ideal) x1 x2) (val_main_v21 (F := Ideal) x0 x2) _ e k m hm).trans ?_
  unfold val_main_v35
  rw [RefLaws.gather_h_apply, idx_h_col]
  rfl

theorem row_third (x0 : (⟨S50000x3, .f32⟩ : BufTy).Contents (Elt Ideal))
    (x1 : (⟨S50000x128, .f32⟩ : BufTy).Contents (Elt Ideal))
    (x2 : (⟨S2x800000, .i32⟩ : BufTy).Contents (Elt Ideal)) (e : Fin 800000) (m : Fin 257) (hm : m.val = 256) :
    Read.val_main_v36 (F := Ideal) x0 x1 x2 (ix2 e m)
      = d2Row (Cert.Egnn.rel x0 (Read.val_main_v9 x2) (Read.val_main_v16 x2) e) := by
  unfold val_main_v36
  refine (RefLaws.concat3_cols_third (M := 800000) (A := 128) (B := 128) (C := 1) (T := 257)
    (val_main_v28 (F := Ideal) x1 x2) (val_main_v35 (F := Ideal) x1 x2) (val_main_v21 (F := Ideal) x0 x2) _ e (0 : Fin 1) m
    (by rw [hm]; rfl)).trans ?_
  exact dist2_apply x0 x2 e

/-! ## The first edge layer -/

/-- The first layer before the activation: the contraction over 257 columns, cut into the three bands, plus the bias. -/
theorem pre1_apply (x0 : (⟨S50000x3, .f32⟩ : BufTy).Contents (Elt Ideal))
    (x1 : (⟨S50000x128, .f32⟩ : BufTy).Contents (Elt Ideal))
    (x2 : (⟨S2x800000, .i32⟩ : BufTy).Contents (Elt Ideal))
    (x3 : (⟨S257x128, .f32⟩ : BufTy).Contents (Elt Ideal))
    (x4 : (⟨S128, .f32⟩ : BufTy).Contents (Elt Ideal)) (e : Fin 800000) (j : Fin 128) :
    Read.val_main_v40 (F := Ideal) x0 x1 x2 x3 x4 (ix2 e j)
      = pre1Row (fun k => x1 (ix2 (node (Read.val_main_v9 x2) e) k)) (fun k => x1 (ix2 (node (Read.val_main_v16 x2) e) k))
          (d2Row (Cert.Egnn.rel x0 (Read.val_main_v9 x2) (Read.val_main_v16 x2) e))
          (fun k j => x3 (ix2 (⟨k.val, by omega⟩ : Fin 257) j)) (fun k j => x3 (ix2 (⟨128 + k.val, by omega⟩ : Fin 257) j))
          (fun j => x3 (ix2 (⟨256, by norm_num⟩ : Fin 257) j)) (fun j => x4 (ix1 j)) j := by
  have hb : val_main_v39 (F := Ideal) x4 (ix2 e j) = x4 (ix1 j) := by
    rw [val_main_v39_apply, val_main_v38_apply]
    exact congrArg x4 (idx1_ext _ _ rfl)
  have hl : ∀ m : Fin 257, lidx_main_v37 (ix2 e j) m = ix2 e m := fun m => idx2_ext _ _ rfl rfl
  have hr : ∀ m : Fin 257, ridx_main_v37 (ix2 e j) m = ix2 m j := fun m => idx2_ext _ _ rfl rfl
  rw [val_main_v40_apply, hb, val_main_v37_apply, RefLaws.sum_257]
  unfold pre1Row
  refine congrArg₂ (· + ·) (congrArg₂ (· + ·) (congrArg₂ (· + ·) (Finset.sum_congr rfl fun k _ => ?_)
    (Finset.sum_congr rfl fun k _ => ?_)) ?_) rfl
  · rw [hl, hr, row_first x0 x1 x2 e k _ rfl]
  · rw [hl, hr, row_second x0 x1 x2 e k _ rfl]
  · rw [hl, hr, row_third x0 x1 x2 e _ rfl]

/-- The first activation is z · σ(z) of the first layer. -/
theorem act1_apply (x0 : (⟨S50000x3, .f32⟩ : BufTy).Contents (Elt Ideal))
    (x1 : (⟨S50000x128, .f32⟩ : BufTy).Contents (Elt Ideal))
    (x2 : (⟨S2x800000, .i32⟩ : BufTy).Contents (Elt Ideal))
    (x3 : (⟨S257x128, .f32⟩ : BufTy).Contents (Elt Ideal))
    (x4 : (⟨S128, .f32⟩ : BufTy).Contents (Elt Ideal)) (i : S800000x128.Idx) :
    Read.val_main_v41 (F := Ideal) x0 x1 x2 x3 x4 i = silu (Read.val_main_v40 (F := Ideal) x0 x1 x2 x3 x4 i) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply]
  exact RefLaws.silu_printed _

/-! ## The second edge layer: the edge feature -/

/-- The second activation is z · σ(z) of the second layer. -/
theorem act2_apply (x0 : (⟨S50000x3, .f32⟩ : BufTy).Contents (Elt Ideal))
    (x1 : (⟨S50000x128, .f32⟩ : BufTy).Contents (Elt Ideal))
    (x2 : (⟨S2x800000, .i32⟩ : BufTy).Contents (Elt Ideal))
    (x3 : (⟨S257x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal)) (i : S800000x128.Idx) :
    Read.val_main_v46 (F := Ideal) x0 x1 x2 x3 x4 x5 x6 i
      = silu (Read.val_main_v45 (F := Ideal) x0 x1 x2 x3 x4 x5 x6 i) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply]
  exact RefLaws.silu_printed _

theorem ef_apply (x0 : (⟨S50000x3, .f32⟩ : BufTy).Contents (Elt Ideal))
    (x1 : (⟨S50000x128, .f32⟩ : BufTy).Contents (Elt Ideal))
    (x2 : (⟨S2x800000, .i32⟩ : BufTy).Contents (Elt Ideal))
    (x3 : (⟨S257x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal)) (e : Fin 800000) (j : Fin 128) :
    Read.val_main_v46 (F := Ideal) x0 x1 x2 x3 x4 x5 x6 (ix2 e j)
      = Cert.Egnn.ef x0 x1 (Read.val_main_v9 x2) (Read.val_main_v16 x2) x3 x4 x5 x6 e j := by
  have hb : val_main_v44 (F := Ideal) x6 (ix2 e j) = x6 (ix1 j) := by
    rw [val_main_v44_apply, val_main_v43_apply]
    exact congrArg x6 (idx1_ext _ _ rfl)
  have hl : ∀ k : Fin 128, lidx_main_v42 (ix2 e j) k = ix2 e k := fun k => idx2_ext _ _ rfl rfl
  have hr : ∀ k : Fin 128, ridx_main_v42 (ix2 e j) k = ix2 k j := fun k => idx2_ext _ _ rfl rfl
  rw [act2_apply, val_main_v45_apply, hb, val_main_v42_apply]
  unfold Cert.Egnn.ef efRow
  refine congrArg silu (congrArg₂ (· + ·) (Finset.sum_congr rfl fun k _ => ?_) rfl)
  rw [hl, hr, act1_apply, pre1_apply]

/-! ## The gate -/

/-- The gate's activation is z · σ(z) of its first layer. -/
theorem act3_apply (x0 : (⟨S50000x3, .f32⟩ : BufTy).Contents (Elt Ideal))
    (x1 : (⟨S50000x128, .f32⟩ : BufTy).Contents (Elt Ideal))
    (x2 : (⟨S2x800000, .i32⟩ : BufTy).Contents (Elt Ideal))
    (x3 : (⟨S257x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal))
    (x8 : (⟨S128, .f32⟩ : BufTy).Contents (Elt Ideal)) (i : S800000x128.Idx) :
    Read.val_main_v51 (F := Ideal) x0 x1 x2 x3 x4 x5 x6 x7 x8 i
      = silu (Read.val_main_v50 (F := Ideal) x0 x1 x2 x3 x4 x5 x6 x7 x8 i) := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply]
  exact RefLaws.silu_printed _

/-- The gate's first layer before the activation, from the edge feature row. -/
theorem gate1_apply (x0 : (⟨S50000x3, .f32⟩ : BufTy).Contents (Elt Ideal))
    (x1 : (⟨S50000x128, .f32⟩ : BufTy).Contents (Elt Ideal))
    (x2 : (⟨S2x800000, .i32⟩ : BufTy).Contents (Elt Ideal))
    (x3 : (⟨S257x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal))
    (x8 : (⟨S128, .f32⟩ : BufTy).Contents (Elt Ideal)) (e : Fin 800000) (k : Fin 128) :
    Read.val_main_v50 (F := Ideal) x0 x1 x2 x3 x4 x5 x6 x7 x8 (ix2 e k)
      = (∑ l : Fin 128, Cert.Egnn.ef x0 x1 (Read.val_main_v9 x2) (Read.val_main_v16 x2) x3 x4 x5 x6 e l * x7 (ix2 l k))
          + x8 (ix1 k) := by
  have hb : val_main_v49 (F := Ideal) x8 (ix2 e k) = x8 (ix1 k) := by
    rw [val_main_v49_apply, val_main_v48_apply]
    exact congrArg x8 (idx1_ext _ _ rfl)
  have hl : ∀ l : Fin 128, lidx_main_v47 (ix2 e k) l = ix2 e l := fun l => idx2_ext _ _ rfl rfl
  have hr : ∀ l : Fin 128, ridx_main_v47 (ix2 e k) l = ix2 l k := fun l => idx2_ext _ _ rfl rfl
  rw [val_main_v50_apply, hb, val_main_v47_apply]
  refine congrArg₂ (· + ·) (Finset.sum_congr rfl fun l _ => ?_) rfl
  rw [hl, hr, ef_apply]

theorem gate_apply (x0 : (⟨S50000x3, .f32⟩ : BufTy).Contents (Elt Ideal))
    (x1 : (⟨S50000x128, .f32⟩ : BufTy).Contents (Elt Ideal))
    (x2 : (⟨S2x800000, .i32⟩ : BufTy).Contents (Elt Ideal))
    (x3 : (⟨S257x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal))
    (x8 : (⟨S128, .f32⟩ : BufTy).Contents (Elt Ideal))
    (x9 : (⟨S128x1, .f32⟩ : BufTy).Contents (Elt Ideal))
    (x10 : (⟨S1, .f32⟩ : BufTy).Contents (Elt Ideal)) (e : Fin 800000) :
    Read.val_main_v55 (F := Ideal) x0 x1 x2 x3 x4 x5 x6 x7 x8 x9 x10 (ix2 e (0 : Fin 1))
      = Cert.Egnn.gate x0 x1 (Read.val_main_v9 x2) (Read.val_main_v16 x2) x3 x4 x5 x6 x7 x8 x9 x10 e := by
  have hb : val_main_v54 (F := Ideal) x10 (ix2 e (0 : Fin 1)) = x10 (ix1 (0 : Fin 1)) := by
    rw [val_main_v54_apply, val_main_v53_apply]
    exact congrArg x10 (idx1_ext _ _ rfl)
  have hl : ∀ k : Fin 128, lidx_main_v52 (ix2 e (0 : Fin 1)) k = ix2 e k := fun k => idx2_ext _ _ rfl rfl
  have hr : ∀ k : Fin 128, ridx_main_v52 (ix2 e (0 : Fin 1)) k = ix2 k (0 : Fin 1) := fun k => idx2_ext _ _ rfl rfl
  rw [val_main_v55_apply, hb, val_main_v52_apply]
  unfold Cert.Egnn.gate gateRow
  refine congrArg₂ (· + ·) (Finset.sum_congr rfl fun k _ => ?_) rfl
  rw [hl, hr, act3_apply, gate1_apply]

end Cert.ReferenceIdeal.RefValue

end
-- ==== Proof.RefNodeLaws.lean ====
/-
  The algebra the reference's node stages need, over the extended reals and with no program in sight: the values of the
  three float words, the activation written as a quotient, a product of a number with itself is not negative, a variance
  plus ε is positive, a quotient by a root of a positive number is the product with the reciprocal root, and a sum over
  256 columns is the sum over its two bands of 128.
-/
import Idealize.ShloMosaic.PureOps.Ideal
import Idealize.ShloMosaic.PureOps.Ideal.Laws
import Idealize.ShloMosaic.Lib.IdealHost
import proofs.«166594_j8684423872621_2_alg».proof.Proof.EgnnSpec

noncomputable section

namespace Cert.NodeLaws

open Idealize.ShloMosaic Cert.Egnn

/-- The word 0x3F800000 is one. -/
theorem w1_eq : w1 = 1 := Ideal.ofBits_one_f32

/-- The word 0x43000000 is 128. -/
theorem w128_eq : w128 = ((128 : ℝ) : EReal) := by
  show Ideal.ofBits .f32 0x43000000#32 = _
  simp [Ideal.ofBits, Ideal.ieee, -EReal.coe_mul]; norm_num

/-- The word 0x3727C5AC is the positive real 10995116 · 2⁻⁴⁰. -/
theorem wEps_eq : wEps = (((10995116 : ℝ) * (2 : ℝ) ^ (-40 : ℤ) : ℝ) : EReal) := by
  show Ideal.ofBits .f32 0x3727C5AC#32 = _
  simp [Ideal.ofBits, Ideal.ieee, -EReal.coe_mul]

theorem wEps_pos : (0 : EReal) < wEps := by
  rw [wEps_eq]
  exact EReal.coe_pos.2 (by positivity)

/-- The activation as the reference writes it: z times the quotient of one by one plus e^(−z). -/
theorem silu_quot (z : EReal) : z * Ideal.div w1 (w1 + Ideal.exp (-z)) = silu z := by
  rw [w1_eq]; rfl

/-- A product of an extended real with itself is not negative. -/
theorem mul_self_nonneg (z : EReal) : 0 ≤ z * z :=
  EReal.mul_nonneg_iff.2 ((le_total 0 z).imp (fun h => ⟨h, h⟩) (fun h => ⟨h, h⟩))

/-- A quotient of a nonnegative number by 128 is not negative. -/
theorem div128_nonneg {s : EReal} (h : 0 ≤ s) : 0 ≤ Ideal.div s w128 := by
  rw [w128_eq, Ideal.div_coe (by norm_num)]
  exact EReal.mul_nonneg h (EReal.coe_nonneg.2 (by norm_num))

/-- A row's variance is not negative. -/
theorem varRow_nonneg (r : Fin 128 → EReal) : 0 ≤ varRow r :=
  div128_nonneg (Finset.sum_nonneg fun j _ => mul_self_nonneg (devRow r j))

/-- A row's variance plus ε is positive. -/
theorem var_eps_pos (r : Fin 128 → EReal) : 0 < varRow r + wEps := by
  rw [add_comm]
  exact EReal.add_pos_of_pos_of_nonneg wEps_pos (varRow_nonneg r)

/-- Dividing by the root of a positive number is multiplying by its reciprocal root. -/
theorem div_sqrt_eq_mul_rsqrt (d v : EReal) (hv : 0 < v) : Ideal.div d (Ideal.sqrt v) = d * Ideal.rsqrt v := by
  induction v using EReal.rec with
  | bot => exact absurd hv (by simp)
  | top =>
    rw [Ideal.sqrt_top, Ideal.rsqrt_top, Ideal.div, if_neg (by simp), EReal.inv_top]
  | coe r =>
    have hr : 0 < r := EReal.coe_pos.1 hv
    have hs : Real.sqrt r ≠ 0 := (Real.sqrt_pos.2 hr).ne'
    rw [Ideal.sqrt_coe, Ideal.rsqrt_coe, if_neg (not_lt.2 hr.le), if_neg (not_lt.2 hr.le), if_neg hr.ne',
      Ideal.div_coe hs, one_div]

/-- A sum over 256 columns is the sum over the first 128 plus the sum over the last 128. -/
theorem sum_256_split (f : Fin 256 → EReal) :
    ∑ k : Fin 256, f k
      = (∑ k : Fin 128, f ⟨k.val, by omega⟩) + ∑ k : Fin 128, f ⟨128 + k.val, by omega⟩ :=
  Fin.sum_univ_add (M := EReal) (a := 128) (b := 128) f

end Cert.NodeLaws

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.RefNodeScatter.lean ====
/-
  The reference's three accumulating scatters, read at an entry over arbitrary operands: each adds, into row n of its
  table, the update rows of the edges whose raw row word, read as a signed integer, is n.
-/
import proofs.«166594_j8684423872621_2_alg».proof.ReferenceIdeal
import proofs.«166594_j8684423872621_2_alg».proof.Proof.Gen.ReferenceIdeal
import proofs.«166594_j8684423872621_2_alg».proof.Proof.EgnnSpec
import proofs.«166594_j8684423872621_2_alg».proof.Proof.LibScatter

noncomputable section

namespace Cert.ReferenceIdeal.RefValue

open Cert.ReferenceIdeal Cert.ReferenceIdeal.Gen Idealize.ShloMosaic Idealize.ShloMosaic.ValueIdx

/-- The scatter of one column: entry (n, k) of the table plus the updates of the edges into n. -/
theorem scatter1_apply (tbl : S50000x1.Idx → EReal) (sr : Cert.Egnn.Col 800000) (upd : S800000x1.Idx → EReal)
    (n : Fin 50000) (k : Fin 1) :
    Host.scatterAdd (F := Ideal) (φ := .f32) scatter_S50000x1_S800000x1_S800000x1_1_0_0_1 tbl sr upd (ix2 n k)
      = tbl (ix2 n k) + ∑ e ∈ Cert.Egnn.hits sr n, upd (ix2 e k) :=
  Cert.ScatterLib.scatterAdd_rows_apply scatter_S50000x1_S800000x1_S800000x1_1_0_0_1_wf tbl sr upd n k

/-- The scatter of three columns. -/
theorem scatter3_apply (tbl : S50000x3.Idx → EReal) (sr : Cert.Egnn.Col 800000) (upd : S800000x3.Idx → EReal)
    (n : Fin 50000) (k : Fin 3) :
    Host.scatterAdd (F := Ideal) (φ := .f32) scatter_S50000x3_S800000x1_S800000x3_1_0_0_1 tbl sr upd (ix2 n k)
      = tbl (ix2 n k) + ∑ e ∈ Cert.Egnn.hits sr n, upd (ix2 e k) :=
  Cert.ScatterLib.scatterAdd_rows_apply scatter_S50000x3_S800000x1_S800000x3_1_0_0_1_wf tbl sr upd n k

/-- The scatter of 128 columns. -/
theorem scatter128_apply (tbl : S50000x128.Idx → EReal) (sr : Cert.Egnn.Col 800000) (upd : S800000x128.Idx → EReal)
    (n : Fin 50000) (k : Fin 128) :
    Host.scatterAdd (F := Ideal) (φ := .f32) scatter_S50000x128_S800000x1_S800000x128_1_0_0_1 tbl sr upd (ix2 n k)
      = tbl (ix2 n k) + ∑ e ∈ Cert.Egnn.hits sr n, upd (ix2 e k) :=
  Cert.ScatterLib.scatterAdd_rows_apply scatter_S50000x128_S800000x1_S800000x128_1_0_0_1_wf tbl sr upd n k

end Cert.ReferenceIdeal.RefValue

end
-- ==== Proof.RefNode.lean ====
/-
  The reference's aggregation and node stages read at an index: the number of edges into a node, the moved position,
  the mean edge feature, and the new feature row, each equal to the layer's mathematical description.
-/
import proofs.«166594_j8684423872621_2_alg».proof.Proof.RefReadP
import proofs.«166594_j8684423872621_2_alg».proof.Proof.EgnnSpec
import proofs.«166594_j8684423872621_2_alg».proof.Proof.LibRows
import proofs.«166594_j8684423872621_2_alg».proof.Proof.RefNodeLaws
import proofs.«166594_j8684423872621_2_alg».proof.Proof.RefNodeScatter
import proofs.«166594_j8684423872621_2_alg».proof.Proof.RefEdge

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-- Two indices of a rank-two shape whose coordinates agree are equal. -/
local macro "idx2" : tactic =>
  `(tactic| exact funext fun a => Fin.ext (by match a with | ⟨0, _⟩ => rfl | ⟨1, _⟩ => rfl))
/-- The same at rank one. -/
local macro "idx1" : tactic =>
  `(tactic| exact funext fun a => Fin.ext (by match a with | ⟨0, _⟩ => rfl))

variable (x0 : (⟨S50000x3, .f32⟩ : BufTy).Contents (Elt Ideal)) (x1 : (⟨S50000x128, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (x10 : (⟨S1, .f32⟩ : BufTy).Contents (Elt Ideal)) (x11 : (⟨S256x128, .f32⟩ : BufTy).Contents (Elt Ideal))
  (x12 : (⟨S128, .f32⟩ : BufTy).Contents (Elt Ideal)) (x13 : (⟨S128x128, .f32⟩ : BufTy).Contents (Elt Ideal))
  (x14 x15 x16 : (⟨S128, .f32⟩ : BufTy).Contents (Elt Ideal))

/-- The word 0x00000000 is zero. -/
theorem zero_word : (FloatOps.ofBits (F := Ideal) .f32 0x00000000#32) = 0 := Ideal.ofBits_zero_f32

/-! ## The number of edges into a node -/

/-- The scatter of ones into a zero column: the sum of a one per edge into n. -/
theorem v59_at (n : Fin 50000) :
    Read.val_main_v59 (F := Ideal) x2 (ix2 n (0 : Fin 1))
      = ∑ _e ∈ Cert.Egnn.hits (Read.val_main_v58 (F := Ideal) x2) n, Cert.Egnn.w1 := by
  refine (scatter1_apply (Read.val_main_v57 (F := Ideal)) (Read.val_main_v58 (F := Ideal) x2)
    (Read.val_main_v56 (F := Ideal)) n 0).trans ?_
  rw [Read.val_main_v57_apply, Read.val_main_cst_8_apply, zero_word, zero_add]
  refine Finset.sum_congr rfl fun e _ => ?_
  rw [Read.val_main_v56_apply, Read.val_main_cst_7_apply]
  rfl

theorem cnt_apply (n : Fin 50000) :
    Read.val_main_v60 (F := Ideal) x2 (ix2 n (0 : Fin 1)) = Cert.Egnn.cnt (Read.val_main_v58 (F := Ideal) x2) n := by
  rw [Read.val_main_v60_apply, Read.val_main_call3_v1_apply, Read.val_main_call3_v0_apply, Read.val_main_cst_9_apply,
    v59_at]
  rfl

/-! ## The moved position -/

theorem xout_apply (n : Fin 50000) (k : Fin 3) :
    Read.val_main_v68 (F := Ideal) x0 x1 x2 x3 x4 x5 x6 x7 x8 x9 x10 (ix2 n k)
      = Cert.Egnn.xout x0 x1 (Read.val_main_v9 (F := Ideal) x2) (Read.val_main_v16 (F := Ideal) x2)
          (Read.val_main_v58 (F := Ideal) x2) x3 x4 x5 x6 x7 x8 x9 x10 n k := by
  rw [Read.val_main_v68_apply, Read.val_main_v67_apply, Read.val_main_v66_apply,
    show Read.idx_main_v66 (ix2 n k) = ix2 n (0 : Fin 1) from by idx2, cnt_apply]
  refine congrArg (fun t => x0 (ix2 n k) + Ideal.div t (Cert.Egnn.cnt (Read.val_main_v58 (F := Ideal) x2) n)) ?_
  refine (scatter3_apply (Read.val_main_v63 (F := Ideal)) (Read.val_main_v64 (F := Ideal) x2)
    (Read.val_main_v62 (F := Ideal) x0 x1 x2 x3 x4 x5 x6 x7 x8 x9 x10) n k).trans ?_
  rw [Read.val_main_v63_apply, Read.val_main_cst_10_apply, zero_word, zero_add]
  refine Finset.sum_congr rfl fun e _ => ?_
  rw [Read.val_main_v62_apply, rel_apply, Read.val_main_v61_apply,
    show Read.idx_main_v61 (ix2 e k) = ix2 e (0 : Fin 1) from by idx2, gate_apply]
  rfl

/-! ## The mean edge feature -/

theorem agg_apply (n : Fin 50000) (j : Fin 128) :
    Read.val_main_v73 (F := Ideal) x0 x1 x2 x3 x4 x5 x6 (ix2 n j)
      = Cert.Egnn.agg x0 x1 (Read.val_main_v9 (F := Ideal) x2) (Read.val_main_v16 (F := Ideal) x2)
          (Read.val_main_v58 (F := Ideal) x2) x3 x4 x5 x6 n j := by
  rw [Read.val_main_v73_apply, Read.val_main_v72_apply,
    show Read.idx_main_v72 (ix2 n j) = ix2 n (0 : Fin 1) from by idx2, cnt_apply]
  refine congrArg (fun t => Ideal.div t (Cert.Egnn.cnt (Read.val_main_v58 (F := Ideal) x2) n)) ?_
  refine (scatter128_apply (Read.val_main_v69 (F := Ideal)) (Read.val_main_v70 (F := Ideal) x2)
    (Read.val_main_v46 (F := Ideal) x0 x1 x2 x3 x4 x5 x6) n j).trans ?_
  rw [Read.val_main_v69_apply, Read.val_main_cst_11_apply, zero_word, zero_add]
  exact Finset.sum_congr rfl fun e _ => ef_apply x0 x1 x2 x3 x4 x5 x6 e j

/-! ## The node row: the concatenated input, two dense layers, the residual sum -/

/-- The left band of the concatenated node input is the node's own row. -/
theorem v74_left (n : Fin 50000) (l : Fin 128) :
    Read.val_main_v74 (F := Ideal) x0 x1 x2 x3 x4 x5 x6 (ix2 n (⟨l.val, by omega⟩ : Fin 256)) = x1 (ix2 n l) :=
  Cert.RowsLib.concat_cols_left x1 (Read.val_main_v73 (F := Ideal) x0 x1 x2 x3 x4 x5 x6)
    concatenates_S50000x128_S50000x128_S50000x256_d1 n l ⟨l.val, by omega⟩ rfl

/-- The right band is the mean edge feature. -/
theorem v74_right (n : Fin 50000) (l : Fin 128) :
    Read.val_main_v74 (F := Ideal) x0 x1 x2 x3 x4 x5 x6 (ix2 n (⟨128 + l.val, by omega⟩ : Fin 256))
      = Read.val_main_v73 (F := Ideal) x0 x1 x2 x3 x4 x5 x6 (ix2 n l) :=
  Cert.RowsLib.concat_cols_right x1 (Read.val_main_v73 (F := Ideal) x0 x1 x2 x3 x4 x5 x6)
    concatenates_S50000x128_S50000x128_S50000x256_d1 n l ⟨128 + l.val, by omega⟩ rfl

/-- A bias vector broadcast over the rows, read at (n, j). -/
theorem v77_at (n : Fin 50000) (j : Fin 128) : Read.val_main_v77 (F := Ideal) x12 (ix2 n j) = x12 (ix1 j) := by
  rw [Read.val_main_v77_apply, Read.val_main_v76_apply]; exact congrArg x12 (by idx1)
theorem v82_at (n : Fin 50000) (j : Fin 128) : Read.val_main_v82 (F := Ideal) x14 (ix2 n j) = x14 (ix1 j) := by
  rw [Read.val_main_v82_apply, Read.val_main_v81_apply]; exact congrArg x14 (by idx1)
theorem v104_at (n : Fin 50000) (j : Fin 128) : Read.val_main_v104 (F := Ideal) x15 (ix2 n j) = x15 (ix1 j) := by
  rw [Read.val_main_v104_apply, Read.val_main_v103_apply]; exact congrArg x15 (by idx1)
theorem v107_at (n : Fin 50000) (j : Fin 128) : Read.val_main_v107 (F := Ideal) x16 (ix2 n j) = x16 (ix1 j) := by
  rw [Read.val_main_v107_apply, Read.val_main_v106_apply]; exact congrArg x16 (by idx1)

/-- The first node layer before the activation: the contraction over the 256 concatenated columns is the sum of the
    contractions over the node's own row and over the mean edge feature, plus the bias. -/
theorem v78_at (n : Fin 50000) (k : Fin 128) :
    Read.val_main_v78 (F := Ideal) x0 x1 x2 x3 x4 x5 x6 x11 x12 (ix2 n k)
      = ((∑ l : Fin 128, x1 (ix2 n l) * x11 (ix2 (⟨l.val, by omega⟩ : Fin 256) k))
          + (∑ l : Fin 128, Cert.Egnn.agg x0 x1 (Read.val_main_v9 (F := Ideal) x2) (Read.val_main_v16 (F := Ideal) x2)
              (Read.val_main_v58 (F := Ideal) x2) x3 x4 x5 x6 n l * x11 (ix2 (⟨128 + l.val, by omega⟩ : Fin 256) k)))
        + x12 (ix1 k) := by
  rw [Read.val_main_v78_apply, v77_at, Read.val_main_v75_apply, Cert.NodeLaws.sum_256_split]
  refine congrArg (fun t => t + x12 (ix1 k)) (congrArg₂ (fun s t => s + t) ?_ ?_)
  · refine Finset.sum_congr rfl fun l _ => ?_
    have e1 : Read.lidx_main_v75 (ix2 n k) (⟨l.val, by omega⟩ : Fin 256) = ix2 n (⟨l.val, by omega⟩ : Fin 256) := by idx2
    have e2 : Read.ridx_main_v75 (ix2 n k) (⟨l.val, by omega⟩ : Fin 256) = ix2 (⟨l.val, by omega⟩ : Fin 256) k := by idx2
    rw [e1, e2, v74_left]
  · refine Finset.sum_congr rfl fun l _ => ?_
    have e1 : Read.lidx_main_v75 (ix2 n k) (⟨128 + l.val, by omega⟩ : Fin 256)
        = ix2 n (⟨128 + l.val, by omega⟩ : Fin 256) := by idx2
    have e2 : Read.ridx_main_v75 (ix2 n k) (⟨128 + l.val, by omega⟩ : Fin 256)
        = ix2 (⟨128 + l.val, by omega⟩ : Fin 256) k := by idx2
    rw [e1, e2, v74_right, agg_apply]

/-- The activation of the first node layer. -/
theorem v79_at (i : S50000x128.Idx) :
    Read.val_main_v79 (F := Ideal) x0 x1 x2 x3 x4 x5 x6 x11 x12 i = Cert.Egnn.silu (Read.val_main_v78 (F := Ideal) x0 x1 x2 x3 x4 x5 x6 x11 x12 i) := by
  rw [Read.val_main_v79_apply, Read.val_main_call4_v5_apply, Read.val_main_call4_v4_apply,
    Read.val_main_call4_cst_0_apply, Read.val_main_call4_v3_apply, Read.val_main_call4_v2_apply,
    Read.val_main_call4_cst_apply, Read.val_main_call4_v1_apply, Read.val_main_call4_v0_apply]
  exact Cert.NodeLaws.silu_quot _

/-- The node's row after the residual update, as the layer's description writes it. -/
abbrev resN (n : Fin 50000) : Fin 128 → EReal :=
  Cert.Egnn.resRow (fun k => x1 (ix2 n k))
    (Cert.Egnn.agg x0 x1 (Read.val_main_v9 (F := Ideal) x2) (Read.val_main_v16 (F := Ideal) x2)
      (Read.val_main_v58 (F := Ideal) x2) x3 x4 x5 x6 n)
    (fun l k => x11 (ix2 (⟨l.val, by omega⟩ : Fin 256) k)) (fun l k => x11 (ix2 (⟨128 + l.val, by omega⟩ : Fin 256) k))
    (fun k => x12 (ix1 k)) (fun k j => x13 (ix2 k j)) (fun j => x14 (ix1 j))

/-- The residual sum is the node's updated row. -/
theorem v84_at (n : Fin 50000) (j : Fin 128) :
    Read.val_main_v84 (F := Ideal) x0 x1 x2 x3 x4 x5 x6 x11 x12 x13 x14 (ix2 n j) = resN x0 x1 x2 x3 x4 x5 x6 x11 x12 x13 x14 n j := by
  rw [Read.val_main_v84_apply, Read.val_main_v83_apply, v82_at, Read.val_main_v80_apply]
  refine congrArg (fun t => x1 (ix2 n j) + (t + x14 (ix1 j))) ?_
  refine Finset.sum_congr rfl fun k _ => ?_
  have e1 : Read.lidx_main_v80 (ix2 n j) k = ix2 n k := by idx2
  have e2 : Read.ridx_main_v80 (ix2 n j) k = ix2 k j := by idx2
  rw [e1, e2, v79_at, v78_at]

/-! ## Mean, deviation, variance -/

/-- The row mean. -/
theorem v88_at (n : Fin 50000) :
    Read.val_main_v88 (F := Ideal) x0 x1 x2 x3 x4 x5 x6 x11 x12 x13 x14 (ix2 n (0 : Fin 1)) = Cert.Egnn.meanRow (resN x0 x1 x2 x3 x4 x5 x6 x11 x12 x13 x14 n) := by
  rw [Read.val_main_v88_apply, Read.val_main_v87_apply, Read.val_main_cst_13_apply, Read.val_main_v86_apply,
    Read.val_main_v85_apply, Read.val_main_cst_12_apply, zero_word, zero_add]
  refine congrArg (fun t => Ideal.div t Cert.Egnn.w128) ?_
  refine Finset.sum_congr rfl fun k _ => ?_
  have e : Read.idx_main_v85 (Read.idx_main_v86 (ix2 n (0 : Fin 1))) k = ix2 n k := by idx2
  rw [e, v84_at]

/-- The deviation from the mean (the copy the variance is taken of). -/
theorem v90_at (n : Fin 50000) (j : Fin 128) :
    Read.val_main_v90 (F := Ideal) x0 x1 x2 x3 x4 x5 x6 x11 x12 x13 x14 (ix2 n j) = Cert.Egnn.devRow (resN x0 x1 x2 x3 x4 x5 x6 x11 x12 x13 x14 n) j := by
  rw [Read.val_main_v90_apply, Read.val_main_v89_apply,
    show Read.idx_main_v89 (ix2 n j) = ix2 n (0 : Fin 1) from by idx2, v88_at, v84_at]
  rfl

/-- The deviation from the mean (the copy that is normalised). -/
theorem v97_at (n : Fin 50000) (j : Fin 128) :
    Read.val_main_v97 (F := Ideal) x0 x1 x2 x3 x4 x5 x6 x11 x12 x13 x14 (ix2 n j) = Cert.Egnn.devRow (resN x0 x1 x2 x3 x4 x5 x6 x11 x12 x13 x14 n) j := by
  rw [Read.val_main_v97_apply, Read.val_main_v96_apply,
    show Read.idx_main_v96 (ix2 n j) = ix2 n (0 : Fin 1) from by idx2, v88_at, v84_at]
  rfl

/-- The row variance. -/
theorem v95_at (n : Fin 50000) :
    Read.val_main_v95 (F := Ideal) x0 x1 x2 x3 x4 x5 x6 x11 x12 x13 x14 (ix2 n (0 : Fin 1)) = Cert.Egnn.varRow (resN x0 x1 x2 x3 x4 x5 x6 x11 x12 x13 x14 n) := by
  rw [Read.val_main_v95_apply, Read.val_main_v94_apply, Read.val_main_cst_15_apply, Read.val_main_v93_apply,
    Read.val_main_v92_apply, Read.val_main_cst_14_apply, zero_word, zero_add]
  refine congrArg (fun t => Ideal.div t Cert.Egnn.w128) ?_
  refine Finset.sum_congr rfl fun k _ => ?_
  have e : Read.idx_main_v92 (Read.idx_main_v93 (ix2 n (0 : Fin 1))) k = ix2 n k := by idx2
  rw [e, Read.val_main_v91_apply, v90_at]
  rfl

/-! ## The normalisation and the final activation -/

/-- The normalised deviation: the quotient by the root of the variance plus ε is the product with the reciprocal root,
    the variance plus ε being positive. -/
theorem v102_at (n : Fin 50000) (j : Fin 128) :
    Read.val_main_v102 (F := Ideal) x0 x1 x2 x3 x4 x5 x6 x11 x12 x13 x14 (ix2 n j)
      = Cert.Egnn.devRow (resN x0 x1 x2 x3 x4 x5 x6 x11 x12 x13 x14 n) j
          * Ideal.rsqrt (Cert.Egnn.varRow (resN x0 x1 x2 x3 x4 x5 x6 x11 x12 x13 x14 n) + Cert.Egnn.wEps) := by
  rw [Read.val_main_v102_apply, v97_at, Read.val_main_v101_apply,
    show Read.idx_main_v101 (ix2 n j) = ix2 n (0 : Fin 1) from by idx2, Read.val_main_v100_apply,
    Read.val_main_v99_apply, v95_at, Read.val_main_v98_apply, Read.val_main_cst_16_apply]
  exact Cert.NodeLaws.div_sqrt_eq_mul_rsqrt _ _ (Cert.NodeLaws.var_eps_pos _)

/-- The final activation. -/
theorem v109_silu (i : S50000x128.Idx) :
    Read.val_main_v109 (F := Ideal) x0 x1 x2 x3 x4 x5 x6 x11 x12 x13 x14 x15 x16 i = Cert.Egnn.silu (Read.val_main_v108 (F := Ideal) x0 x1 x2 x3 x4 x5 x6 x11 x12 x13 x14 x15 x16 i) := by
  rw [Read.val_main_v109_apply, Read.val_main_call5_v5_apply, Read.val_main_call5_v4_apply,
    Read.val_main_call5_cst_0_apply, Read.val_main_call5_v3_apply, Read.val_main_call5_v2_apply,
    Read.val_main_call5_cst_apply, Read.val_main_call5_v1_apply, Read.val_main_call5_v0_apply]
  exact Cert.NodeLaws.silu_quot _

theorem hout_apply (n : Fin 50000) (j : Fin 128) :
    Read.val_main_v109 (F := Ideal) x0 x1 x2 x3 x4 x5 x6 x11 x12 x13 x14 x15 x16 (ix2 n j)
      = Cert.Egnn.hout x0 x1 (Read.val_main_v9 (F := Ideal) x2) (Read.val_main_v16 (F := Ideal) x2)
          (Read.val_main_v58 (F := Ideal) x2) x3 x4 x5 x6 x11 x12 x13 x14 x15 x16 n j := by
  rw [v109_silu, Read.val_main_v108_apply, v107_at, Read.val_main_v105_apply, v104_at, v102_at]
  rfl

end Cert.ReferenceIdeal.RefValue

end
-- ==== Proof.RefClaims.lean ====
/-
  The reference half of the final claims.  The reference is a straight-line host program: it runs, leaves its seventeen
  arguments unchanged, and leaves as its two results the specification's moved positions and new feature rows, read off
  its own arguments (the node an index word names is the word clamped into the table; the edges into a node are those
  whose raw row word is the node's number).
-/
import proofs.«166594_j8684423872621_2_alg».proof.Defs
import proofs.«166594_j8684423872621_2_alg».proof.Proof.Gen.ReferenceIdeal
import proofs.«166594_j8684423872621_2_alg».proof.Proof.Gen.Pre_finite_inputs
import proofs.«166594_j8684423872621_2_alg».proof.Proof.RefRunP
import proofs.«166594_j8684423872621_2_alg».proof.Proof.RefReadP
import proofs.«166594_j8684423872621_2_alg».proof.Proof.RefResEq
import proofs.«166594_j8684423872621_2_alg».proof.Proof.RefEdge
import proofs.«166594_j8684423872621_2_alg».proof.Proof.RefNode

noncomputable section

namespace Cert.Proof.RefSide

open Idealize.ShloMosaic Idealize.SL.Sem Idealize.ShloMosaic.ValueIdx Cert.ReferenceIdeal

/-- The reference runs and keeps its arguments: its run with the two results dropped. -/
theorem frame_ri : Cert.frame_ReferenceIdeal (hReferenceIdeal := Cert.ReferenceIdeal.Gen.facts)
    (hPre_finite_inputs := Cert.Pre_finite_inputs.Gen.facts) := fun m ρ _ =>
  (θ_run (Cert.ReferenceIdeal.defs (F := Ideal)) _ _).mono (fun _ h c => (h c).2.2)
    (Cert.ReferenceIdeal.Value.run (F := Ideal) m ρ)

/-- The first result, as the run leaves it, is the specification's moved positions. -/
theorem res_xout (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v68 m' c
      = (fun i => Cert.Egnn.xout (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
            (Read.val_main_v9 (m' ((c.tc : Thread Cert.ReferenceIdeal.nD Cert.ReferenceIdeal.τ).loc Cert.ReferenceIdeal.main_arg2))) (Read.val_main_v16 (m' ((c.tc : Thread Cert.ReferenceIdeal.nD Cert.ReferenceIdeal.τ).loc Cert.ReferenceIdeal.main_arg2))) (Read.val_main_v58 (m' ((c.tc : Thread Cert.ReferenceIdeal.nD Cert.ReferenceIdeal.τ).loc Cert.ReferenceIdeal.main_arg2)))
            (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (i 0) (i 1)) := by
  refine (Read.val_main_v68_eq m' c).trans (funext fun (i : S50000x3.Idx) => ?_)
  obtain ⟨n, k, rfl⟩ : ∃ (n : Fin 50000) (k : Fin 3), i = ix2 n k := ⟨i 0, i 1, eq_ix2 i⟩
  exact Cert.ReferenceIdeal.RefValue.xout_apply _ _ _ _ _ _ _ _ _ _ _ n k

/-- The second result, as the run leaves it, is the specification's new feature rows. -/
theorem res_hout (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v109 m' c
      = (fun i => Cert.Egnn.hout (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
            (Read.val_main_v9 (m' ((c.tc : Thread Cert.ReferenceIdeal.nD Cert.ReferenceIdeal.τ).loc Cert.ReferenceIdeal.main_arg2))) (Read.val_main_v16 (m' ((c.tc : Thread Cert.ReferenceIdeal.nD Cert.ReferenceIdeal.τ).loc Cert.ReferenceIdeal.main_arg2))) (Read.val_main_v58 (m' ((c.tc : Thread Cert.ReferenceIdeal.nD Cert.ReferenceIdeal.τ).loc Cert.ReferenceIdeal.main_arg2)))
            (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (i 0) (i 1)) := by
  refine (Read.val_main_v109_eq m' c).trans (funext fun (i : S50000x128.Idx) => ?_)
  obtain ⟨n, j, rfl⟩ : ∃ (n : Fin 50000) (j : Fin 128), i = ix2 n j := ⟨i 0, i 1, eq_ix2 i⟩
  exact Cert.ReferenceIdeal.RefValue.hout_apply _ _ _ _ _ _ _ _ _ _ _ _ _ n j

/-- The reference's run: its results are the specification's two arrays of its own arguments, and the arguments end
    unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v68)
          = (fun i => Cert.Egnn.xout (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
            (Read.val_main_v9 (m' ((c.tc : Thread Cert.ReferenceIdeal.nD Cert.ReferenceIdeal.τ).loc Cert.ReferenceIdeal.main_arg2))) (Read.val_main_v16 (m' ((c.tc : Thread Cert.ReferenceIdeal.nD Cert.ReferenceIdeal.τ).loc Cert.ReferenceIdeal.main_arg2))) (Read.val_main_v58 (m' ((c.tc : Thread Cert.ReferenceIdeal.nD Cert.ReferenceIdeal.τ).loc Cert.ReferenceIdeal.main_arg2)))
            (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (i 0) (i 1))
        ∧ r.2.mem ((c.tc : Thread Cert.ReferenceIdeal.nD Cert.ReferenceIdeal.τ).loc Cert.ReferenceIdeal.main_v109)
          = (fun i => Cert.Egnn.hout (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
            (Read.val_main_v9 (m' ((c.tc : Thread Cert.ReferenceIdeal.nD Cert.ReferenceIdeal.τ).loc Cert.ReferenceIdeal.main_arg2))) (Read.val_main_v16 (m' ((c.tc : Thread Cert.ReferenceIdeal.nD Cert.ReferenceIdeal.τ).loc Cert.ReferenceIdeal.main_arg2))) (Read.val_main_v58 (m' ((c.tc : Thread Cert.ReferenceIdeal.nD Cert.ReferenceIdeal.τ).loc Cert.ReferenceIdeal.main_arg2)))
            (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (i 0) (i 1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)) :=
  (θ_run (Cert.ReferenceIdeal.defs (F := Ideal)) _ _).mono
    (fun _ h c => ⟨(h c).1.trans (res_xout m' c), (h c).2.1.trans (res_hout m' c), (h c).2.2⟩)
    (Cert.ReferenceIdeal.Value.run (F := Ideal) m' ρ')

end Cert.Proof.RefSide

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«166594_j8684423872621_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.KIPayOps.lean ====
/-
  Operations of the vector unit on rank-two arrays of extended reals, each read at one index built from coordinates:
  a product accumulated into the zero splat, a sum along the rows from the zero word, the layout operations that keep
  or lay out a row or a column, and the entrywise functions.  None mentions a program.
-/
import proofs.«166594_j8684423872621_2_alg».proof.Proof.LibDense
import proofs.«166594_j8684423872621_2_alg».proof.Proof.EgnnSpec

noncomputable section

namespace Cert.KernelIdeal.Pay

open Idealize.ShloMosaic Idealize.ShloMosaic.ValueIdx Cert.LayoutLib Cert.DenseLib Cert.Egnn

/-- A product accumulated into the zero splat, read at (p, q): the sum over the shared axis. -/
theorem matmul0_apply {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) (p : Fin M) (q : Fin N) :
    matmul D none L R (constant ⟨2, ![M, N]⟩ .f32 0x00000000#32) (ix2 p q) = ∑ k : Fin K, L (ix2 p k) * R (ix2 k q) :=
  congrFun (matmul_eq_mm D hD L R) (ix2 p q)

/-- A sum along the rows from the zero word, read at row p: the sum of that row's entries.  The two side conditions are
    typed as a program spells them: the format is one a sum is compiled at, the word is the zero word. -/
theorem rowsum_apply {a b : ℕ} (x : FVec Ideal ⟨2, ![a, b]⟩ .f32)
    (h : (⟨2, ![a, b]⟩ : Shape).Reduces [(1 : Fin 2)] ⟨1, ![a]⟩) (hφ : FTy.f32 = FTy.f32 ∨ FTy.f32 = FTy.bf16)
    (hacc : (0x00000000#32 : BitVec 32) = 0x00000000#32) (p : Fin a) :
    multiReduction .add [(1 : Fin 2)] ⟨1, ![a]⟩ x 0x00000000#32 h hφ hacc (ix1 p) = ∑ k : Fin b, x (ix2 p k) :=
  reduceAdd_row_apply h x p

/-- A cast to the same shape reads the operand. -/
theorem shapeCast_same_apply {α : Type} {s : Shape} (v : s.Idx → α) (h : s.ShapeCasts s) (i : s.Idx) :
    shapeCast s v h i = v i :=
  congrFun (shapeCast_self v h) i

/-- A one-row array broadcast down the rows reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) :=
  broadcastTo_1b_ab_apply v h p q

/-- The logistic function of a vector, entry by entry. -/
theorem logistic_apply {s : Shape} {φ : FTy} (x : FVec Ideal s φ) (i : s.Idx) : logistic x i = Ideal.logistic (x i) := rfl

/-- The reciprocal root of a vector, entry by entry. -/
theorem rsqrt_apply {s : Shape} {φ : FTy} (x : FVec Ideal s φ) (i : s.Idx) : rsqrt x i = Ideal.rsqrt (x i) := rfl

end Cert.KernelIdeal.Pay

end
-- ==== Proof.KIPayEdge.lean ====
/-
  The edge body's stored values read at one index.  The first layer, the second layer and the gate are each read by
  pushing the index through the entrywise operations and replacing every product, row sum, cast and broadcast by its
  value at that index; what is left is the one-edge function of the specification, term for term.
-/
import proofs.«166594_j8684423872621_2_alg».proof.Proof.Gen.KernelIdeal.Skeleton
import proofs.«166594_j8684423872621_2_alg».proof.Proof.KIPayOps

noncomputable section

namespace Cert.KernelIdeal.Pay

open Cert.KernelIdeal Cert.KernelIdeal.Gen Cert.Egnn Idealize.ShloMosaic Idealize.ShloMosaic.ValueIdx Cert.LayoutLib Cert.DenseLib

/-- The 4000 × 128 by 128 × 128 product contracts the left operand's columns with the right operand's rows. -/
theorem dotE_plain : dot_S4000x128_S128x128_S4000x128_1_0_0_1_n_n = DotDims.plain 4000 128 128 := rfl

/-- So does the 4000 × 128 by 128 × 1 product. -/
theorem dotG_plain : dot_S4000x128_S128x1_S4000x1_1_0_0_1_n_n = DotDims.plain 4000 128 1 := rfl

/-- The second bias laid along every row. -/
theorem pay5_apply (v34 : Vec Ideal S1x128 .f32) (p : Fin 4000) (q : Fin 128) :
    k0_pay5 (F := Ideal) v34 (ix2 p q) = v34 (ix2 (0 : Fin 1) q) := by
  unfold k0_pay5
  simp only [broadcastTo_row_apply, shapeCast_same_apply]

/-- The position differences are kept as loaded. -/
theorem pay3_apply (v4 : Vec Ideal S4000x3 .f32) (i : S4000x3.Idx) : k0_pay3 (F := Ideal) v4 i = v4 i := by
  unfold k0_pay3
  exact shapeCast_same_apply v4 _ i

/-- The second layer's product at (p, q): the first layer of the rows read at p, activated, against column q. -/
theorem pay4_apply (v0 v2 : Vec Ideal S4000x128 .bf16) (v4 : Vec Ideal S4000x3 .f32) (v9 v12 : Vec Ideal S128x128 .f32)
    (v15 v24 : Vec Ideal S1x128 .f32) (v30 : Vec Ideal S128x128 .f32) (p : Fin 4000) (q : Fin 128) :
    k0_pay4 (F := Ideal) v0 v2 v4 v9 v12 v15 v24 v30 (ix2 p q)
      = ∑ k : Fin 128, silu (pre1Row (fun k => v0 (ix2 p k)) (fun k => v2 (ix2 p k)) (d2Row (fun k => v4 (ix2 p k)))
          (fun k j => v9 (ix2 k j)) (fun k j => v12 (ix2 k j)) (fun j => v15 (ix2 (0 : Fin 1) j))
          (fun j => v24 (ix2 (0 : Fin 1) j)) k) * v30 (ix2 k q) := by
  unfold k0_pay4 k0_pay3
  simp only [matmul0_apply dot_S4000x128_S128x128_S4000x128_1_0_0_1_n_n dotE_plain, truncf_apply, mulf_apply, addf_apply,
    logistic_apply, broadcastTo_col_apply, broadcastTo_row_apply, shapeCast_col_apply,
    rowsum_apply _ reduces_S4000x3_S4000 (.inl rfl) rfl, shapeCast_same_apply]
  rfl

/-- The stored feature from the second layer's product and bias: their sum, activated. -/
theorem pay1_apply (v33 v36 : FVec Ideal S4000x128 .f32) (i : S4000x128.Idx) :
    k0_pay1 (F := Ideal) v33 v36 i = silu (v33 i + v36 i) := rfl

/-- The stored gated difference from the stored feature: the difference times the gate of the feature row. -/
theorem pay2_apply (v5 : FVec Ideal S4000x3 .f32) (v33 v36 : FVec Ideal S4000x128 .f32) (v40 : Vec Ideal S128x128 .f32)
    (v44 : Vec Ideal S1x128 .f32) (v50 : Vec Ideal S128x1 .f32) (v54 : Vec Ideal S1x1 .f32) (p : Fin 4000) (k : Fin 3) :
    k0_pay2 (F := Ideal) v5 v33 v36 v40 v44 v50 v54 (ix2 p k)
      = v5 (ix2 p k) * gateRow (fun l => k0_pay1 (F := Ideal) v33 v36 (ix2 p l)) (fun l k => v40 (ix2 l k))
          (fun k => v44 (ix2 (0 : Fin 1) k)) (fun k => v50 (ix2 k (0 : Fin 1))) (v54 (ix2 (0 : Fin 1) (0 : Fin 1))) := by
  unfold k0_pay2
  simp only [matmul0_apply dot_S4000x128_S128x128_S4000x128_1_0_0_1_n_n dotE_plain,
    matmul0_apply dot_S4000x128_S128x1_S4000x1_1_0_0_1_n_n dotG_plain, truncf_apply, mulf_apply, addf_apply,
    logistic_apply, broadcastTo_col_apply, broadcastTo_row_apply, shapeCast_same_apply]
  rfl

end Cert.KernelIdeal.Pay

end
-- ==== Proof.KIPayNode.lean ====
/-
  The node body's stored value read at one index.  The residual row and its deviation from the row mean, the row's sum of
  squared deviations, and the normalisation tail are each read by pushing the index through the entrywise operations and
  replacing every product, row sum, cast and broadcast by its value at that index; what is left is the one-node function
  of the specification, term for term.
-/
import proofs.«166594_j8684423872621_2_alg».proof.Proof.Gen.KernelIdeal.Skeleton
import proofs.«166594_j8684423872621_2_alg».proof.Proof.KIPayOps

noncomputable section

namespace Cert.KernelIdeal.Pay

open Cert.KernelIdeal Cert.KernelIdeal.Gen Cert.Egnn Idealize.ShloMosaic Idealize.ShloMosaic.ValueIdx Cert.LayoutLib Cert.DenseLib

/-- The 2000 × 128 by 128 × 128 product contracts the left operand's columns with the right operand's rows. -/
theorem dotN_plain : dot_S2000x128_S128x128_S2000x128_1_0_0_1_n_n = DotDims.plain 2000 128 128 := rfl

/-- The deviation array at (p, q): the residual row of the rows read at p, less its mean. -/
theorem npay2_apply (v0 v1 : Vec Ideal S2000x128 .f32) (v5 v8 : Vec Ideal S128x128 .f32) (v14 : Vec Ideal S1x128 .f32)
    (v20 : Vec Ideal S128x128 .f32) (v24 : Vec Ideal S1x128 .f32) (p : Fin 2000) (q : Fin 128) :
    k1_pay2 (F := Ideal) v0 v1 v5 v8 v14 v20 v24 (ix2 p q)
      = devRow (resRow (fun k => v0 (ix2 p k)) (fun k => v1 (ix2 p k)) (fun l k => v5 (ix2 l k)) (fun l k => v8 (ix2 l k))
          (fun k => v14 (ix2 (0 : Fin 1) k)) (fun k j => v20 (ix2 k j)) (fun j => v24 (ix2 (0 : Fin 1) j))) q := by
  unfold k1_pay2
  simp only [matmul0_apply dot_S2000x128_S128x128_S2000x128_1_0_0_1_n_n dotN_plain, truncf_apply, mulf_apply, addf_apply,
    subf_apply, divf_apply, logistic_apply, broadcast_apply, broadcastTo_col_apply, broadcastTo_row_apply, shapeCast_col_apply,
    rowsum_apply _ reduces_S2000x128_S2000 (.inl rfl) rfl, shapeCast_same_apply]
  rfl

/-- The column of squared deviations summed along each row. -/
theorem npay3_apply (v0 v1 : Vec Ideal S2000x128 .f32) (v5 v8 : Vec Ideal S128x128 .f32) (v14 : Vec Ideal S1x128 .f32)
    (v20 : Vec Ideal S128x128 .f32) (v24 : Vec Ideal S1x128 .f32) (p : Fin 2000) :
    k1_pay3 (F := Ideal) v0 v1 v5 v8 v14 v20 v24 (ix2 p (0 : Fin 1))
      = ∑ j : Fin 128, devRow (resRow (fun k => v0 (ix2 p k)) (fun k => v1 (ix2 p k)) (fun l k => v5 (ix2 l k)) (fun l k => v8 (ix2 l k))
          (fun k => v14 (ix2 (0 : Fin 1) k)) (fun k j => v20 (ix2 k j)) (fun j => v24 (ix2 (0 : Fin 1) j))) j
          * devRow (resRow (fun k => v0 (ix2 p k)) (fun k => v1 (ix2 p k)) (fun l k => v5 (ix2 l k)) (fun l k => v8 (ix2 l k))
          (fun k => v14 (ix2 (0 : Fin 1) k)) (fun k j => v20 (ix2 k j)) (fun j => v24 (ix2 (0 : Fin 1) j))) j := by
  unfold k1_pay3
  simp only [shapeCast_col_apply, rowsum_apply _ reduces_S2000x128_S2000 (.inl rfl) rfl, mulf_apply, npay2_apply]

/-- The normalisation tail from the deviation array and the column of summed squares. -/
theorem npay1_apply (v34 : FVec Ideal S2000x128 .f32) (v37 : FVec Ideal S2000x1 .f32) (c : Ideal .f32)
    (v45 v49 : Vec Ideal S1x128 .f32) (p : Fin 2000) (q : Fin 128) :
    k1_pay1 (F := Ideal) v34 v37 c v45 v49 (ix2 p q)
      = silu (((v34 (ix2 p q) * Ideal.rsqrt (Ideal.div (v37 (ix2 p (0 : Fin 1))) c + wEps)) * v45 (ix2 (0 : Fin 1) q))
          + v49 (ix2 (0 : Fin 1) q)) := by
  unfold k1_pay1
  simp only [mulf_apply, addf_apply, divf_apply, logistic_apply, rsqrt_apply, broadcast_apply, broadcastTo_col_apply,
    broadcastTo_row_apply, shapeCast_same_apply]
  rfl

end Cert.KernelIdeal.Pay

end
-- ==== Proof.KIPay.lean ====
/-
  The two kernel bodies' stored values read at one index: the edge body's stored feature and gated position difference
  are the one-edge functions of the rows the body loaded, the node body's stored row is the one-node function of its rows.
-/
import proofs.«166594_j8684423872621_2_alg».proof.Proof.KIPayEdge
import proofs.«166594_j8684423872621_2_alg».proof.Proof.KIPayNode

noncomputable section

namespace Cert.KernelIdeal.Pay

open Cert.KernelIdeal Cert.KernelIdeal.Gen Cert.Egnn Idealize.ShloMosaic Idealize.ShloMosaic.ValueIdx

/-- The stored edge feature at (p, q) is the edge feature of the rows read at p. -/
theorem edge_feature (v0 v2 : Vec Ideal S4000x128 .bf16) (v4 : Vec Ideal S4000x3 .f32) (v9 v12 : Vec Ideal S128x128 .f32)
    (v15 v24 : Vec Ideal S1x128 .f32) (v30 : Vec Ideal S128x128 .f32) (v34 : Vec Ideal S1x128 .f32) (p : Fin 4000) (q : Fin 128) :
    k0_pay1 (F := Ideal) (k0_pay4 v0 v2 v4 v9 v12 v15 v24 v30) (k0_pay5 v34) (ix2 p q)
      = efRow (fun k => v0 (ix2 p k)) (fun k => v2 (ix2 p k)) (fun k => v4 (ix2 p k)) (fun k j => v9 (ix2 k j)) (fun k j => v12 (ix2 k j))
            (fun j => v15 (ix2 (0 : Fin 1) j)) (fun j => v24 (ix2 (0 : Fin 1) j)) (fun k j => v30 (ix2 k j)) (fun j => v34 (ix2 (0 : Fin 1) j)) q := by
  rw [pay1_apply, pay4_apply, pay5_apply]
  rfl

/-- The stored gated difference at (p, k) is the position difference times the gate of the rows read at p. -/
theorem edge_relgate (v0 v2 : Vec Ideal S4000x128 .bf16) (v4 : Vec Ideal S4000x3 .f32) (v9 v12 : Vec Ideal S128x128 .f32)
    (v15 v24 : Vec Ideal S1x128 .f32) (v30 : Vec Ideal S128x128 .f32) (v34 : Vec Ideal S1x128 .f32)
    (v40 : Vec Ideal S128x128 .f32) (v44 : Vec Ideal S1x128 .f32) (v50 : Vec Ideal S128x1 .f32) (v54 : Vec Ideal S1x1 .f32)
    (p : Fin 4000) (k : Fin 3) :
    k0_pay2 (F := Ideal) (k0_pay3 v4) (k0_pay4 v0 v2 v4 v9 v12 v15 v24 v30) (k0_pay5 v34) v40 v44 v50 v54 (ix2 p k)
      = v4 (ix2 p k) * gateRow (efRow (fun k => v0 (ix2 p k)) (fun k => v2 (ix2 p k)) (fun k => v4 (ix2 p k)) (fun k j => v9 (ix2 k j)) (fun k j => v12 (ix2 k j))
            (fun j => v15 (ix2 (0 : Fin 1) j)) (fun j => v24 (ix2 (0 : Fin 1) j)) (fun k j => v30 (ix2 k j)) (fun j => v34 (ix2 (0 : Fin 1) j)))
            (fun l k => v40 (ix2 l k)) (fun k => v44 (ix2 (0 : Fin 1) k)) (fun k => v50 (ix2 k (0 : Fin 1))) (v54 (ix2 (0 : Fin 1) (0 : Fin 1))) := by
  refine (pay2_apply _ _ _ v40 v44 v50 v54 p k).trans ?_
  rw [pay3_apply]
  have hf : (fun l => k0_pay1 (F := Ideal) (k0_pay4 v0 v2 v4 v9 v12 v15 v24 v30) (k0_pay5 v34) (ix2 p l))
      = efRow (fun k => v0 (ix2 p k)) (fun k => v2 (ix2 p k)) (fun k => v4 (ix2 p k)) (fun k j => v9 (ix2 k j)) (fun k j => v12 (ix2 k j))
            (fun j => v15 (ix2 (0 : Fin 1) j)) (fun j => v24 (ix2 (0 : Fin 1) j)) (fun k j => v30 (ix2 k j)) (fun j => v34 (ix2 (0 : Fin 1) j)) :=
    funext fun l => edge_feature v0 v2 v4 v9 v12 v15 v24 v30 v34 p l
  rw [hf]

/-- The stored node row at (p, q) is the normalised residual row of the rows read at p. -/
theorem node_out (v0 v1 : Vec Ideal S2000x128 .f32) (v5 v8 : Vec Ideal S128x128 .f32) (v14 : Vec Ideal S1x128 .f32)
    (v20 : Vec Ideal S128x128 .f32) (v24 v45 v49 : Vec Ideal S1x128 .f32) (p : Fin 2000) (q : Fin 128) :
    k1_pay1 (F := Ideal) (k1_pay2 v0 v1 v5 v8 v14 v20 v24) (k1_pay3 v0 v1 v5 v8 v14 v20 v24) (Scalar.ofBits .f32 0x43000000#32) v45 v49 (ix2 p q)
      = normRow (resRow (fun k => v0 (ix2 p k)) (fun k => v1 (ix2 p k)) (fun l k => v5 (ix2 l k)) (fun l k => v8 (ix2 l k))
            (fun k => v14 (ix2 (0 : Fin 1) k)) (fun k j => v20 (ix2 k j)) (fun j => v24 (ix2 (0 : Fin 1) j)))
          (fun j => v45 (ix2 (0 : Fin 1) j)) (fun j => v49 (ix2 (0 : Fin 1) j)) q := by
  rw [npay1_apply, npay2_apply, npay3_apply]
  rfl

end Cert.KernelIdeal.Pay

end
-- ==== Proof.KIBlocks.lean ====
/-
  From blocks to arrays.  NODE STAGE.  The node kernel visits the 50000 rows in 25 blocks of 2000; at point t it
  reads rows 2000·t … 2000·t + 1999 of the feature table and of the mean-edge-feature table, the whole of every weight
  and bias, and writes the same rows of the result.  A result row depends only on the same row of the two tables, so
  what point t writes back is block t of ONE function of the arrays as the region finds them, and the blocks cover the
  result: after the run the result array is that function, index by index.
  EDGE STAGE.  The edge kernel visits the 800000 edges in 200 blocks of 4000 in the same way: a row of either of its two
  results depends only on the same row of the two gathered feature tables and of the position differences.
-/
import proofs.«166594_j8684423872621_2_alg».proof.Proof.KIBodyDefs
import proofs.«166594_j8684423872621_2_alg».proof.Proof.KIPay
import proofs.«166594_j8684423872621_2_alg».proof.Proof.EgnnSpec
import Idealize.ShloMosaic.Lib.Pipeline.Value
import Idealize.ShloMosaic.Lib.ValueIdx

noncomputable section

namespace Cert.KernelIdeal.Blocks

open Cert.KernelIdeal Cert.KernelIdeal.Gen Cert.KernelIdeal.Hand Cert.Egnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The node stage -/

/-- The new feature of node n, column j, from the arrays the node stage reads. -/
def nodeOut (a0 a1 : S50000x128.Idx → EReal) (a2 a3 : S128x128.Idx → EReal) (a4 : S1x128.Idx → EReal)
    (a5 : S128x128.Idx → EReal) (a6 a7 a8 : S1x128.Idx → EReal) (n : Fin 50000) (j : Fin 128) : EReal :=
  normRow (resRow (fun k => a0 (ix2 n k)) (fun k => a1 (ix2 n k)) (fun l k => a2 (ix2 l k)) (fun l k => a3 (ix2 l k))
      (fun k => a4 (ix2 (0 : Fin 1) k)) (fun k j => a5 (ix2 k j)) (fun j => a6 (ix2 (0 : Fin 1) j)))
    (fun j => a7 (ix2 (0 : Fin 1) j)) (fun j => a8 (ix2 (0 : Fin 1) j)) j

/-- The printed index maps over the grid of 25 points: the two row-blocked inputs and the output sit at block (t, 0),
    every weight and bias at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! Each window's block at point t, read where the array holds it. -/
theorem rd1_0 (c : Dev nD) (t : Fin cfg1.N) (p : Fin 2000) (hr : 2000 * t.val + p.val < 50000) :
    (fun k : Fin 128 => iblk1 V c 0 t (ix2 p k)) = fun k => V c main_arg1 (ix2 (⟨2000 * t.val + p.val, hr⟩ : Fin 50000) k) := by
  have e := idx1 t
  funext k
  show V c main_arg1 (((cfg1.win 0).blk t).view.emb (ix2 p k)) = _
  refine congrArg (V c main_arg1) ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega
theorem rd1_1 (c : Dev nD) (t : Fin cfg1.N) (p : Fin 2000) (hr : 2000 * t.val + p.val < 50000) :
    (fun k : Fin 128 => iblk1 V c 1 t (ix2 p k)) = fun k => V c main_v54 (ix2 (⟨2000 * t.val + p.val, hr⟩ : Fin 50000) k) := by
  have e := idx1 t
  funext k
  show V c main_v54 (((cfg1.win 1).blk t).view.emb (ix2 p k)) = _
  refine congrArg (V c main_v54) ?_
  funext a; apply Fin.ext
  match a with
  | ⟨0, _⟩ => show win1_1.index t (0 : Fin 2) * 2000 + 1 * p.val = 2000 * t.val + p.val; omega
  | ⟨1, _⟩ => show win1_1.index t (1 : Fin 2) * 128 + 1 * k.val = k.val; omega
theorem rd1_2 (c : Dev nD) (t : Fin cfg1.N) :
    (fun (l : Fin 128) (k : Fin 128) => iblk1 V c 2 t (ix2 l k)) = fun l k => V c main_v56 (ix2 l k) := by
  have e := idx1 t
  funext l k
  show V c main_v56 (((cfg1.win 2).blk t).view.emb (ix2 l k)) = _
  refine congrArg (V c main_v56) ?_
  funext a; apply Fin.ext
  match a with
  | ⟨0, _⟩ => show win1_2.index t (0 : Fin 2) * 128 + 1 * l.val = l.val; omega
  | ⟨1, _⟩ => show win1_2.index t (1 : Fin 2) * 128 + 1 * k.val = k.val; omega
theorem rd1_3 (c : Dev nD) (t : Fin cfg1.N) :
    (fun (l : Fin 128) (k : Fin 128) => iblk1 V c 3 t (ix2 l k)) = fun l k => V c main_v57 (ix2 l k) := by
  have e := idx1 t
  funext l k
  show V c main_v57 (((cfg1.win 3).blk t).view.emb (ix2 l k)) = _
  refine congrArg (V c main_v57) ?_
  funext a; apply Fin.ext
  match a with
  | ⟨0, _⟩ => show win1_3.index t (0 : Fin 2) * 128 + 1 * l.val = l.val; omega
  | ⟨1, _⟩ => show win1_3.index t (1 : Fin 2) * 128 + 1 * k.val = k.val; omega
theorem rd1_4 (c : Dev nD) (t : Fin cfg1.N) :
    (fun k : Fin 128 => iblk1 V c 4 t (ix2 (0 : Fin 1) k)) = fun k => V c main_v58 (ix2 (0 : Fin 1) k) := by
  have e := idx1 t
  funext k
  show V c main_v58 (((cfg1.win 4).blk t).view.emb (ix2 (0 : Fin 1) k)) = _
  refine congrArg (V c main_v58) ?_
  funext a; apply Fin.ext
  match a with
  | ⟨0, _⟩ => show win1_4.index t (0 : Fin 2) * 1 + 1 * 0 = 0; omega
  | ⟨1, _⟩ => show win1_4.index t (1 : Fin 2) * 128 + 1 * k.val = k.val; omega
theorem rd1_5 (c : Dev nD) (t : Fin cfg1.N) :
    (fun (l : Fin 128) (k : Fin 128) => iblk1 V c 5 t (ix2 l k)) = fun l k => V c main_arg13 (ix2 l k) := by
  have e := idx1 t
  funext l k
  show V c main_arg13 (((cfg1.win 5).blk t).view.emb (ix2 l k)) = _
  refine congrArg (V c main_arg13) ?_
  funext a; apply Fin.ext
  match a with
  | ⟨0, _⟩ => show win1_5.index t (0 : Fin 2) * 128 + 1 * l.val = l.val; omega
  | ⟨1, _⟩ => show win1_5.index t (1 : Fin 2) * 128 + 1 * k.val = k.val; omega
theorem rd1_6 (c : Dev nD) (t : Fin cfg1.N) :
    (fun k : Fin 128 => iblk1 V c 6 t (ix2 (0 : Fin 1) k)) = fun k => V c main_v59 (ix2 (0 : Fin 1) k) := by
  have e := idx1 t
  funext k
  show V c main_v59 (((cfg1.win 6).blk t).view.emb (ix2 (0 : Fin 1) k)) = _
  refine congrArg (V c main_v59) ?_
  funext a; apply Fin.ext
  match a with
  | ⟨0, _⟩ => show win1_6.index t (0 : Fin 2) * 1 + 1 * 0 = 0; omega
  | ⟨1, _⟩ => show win1_6.index t (1 : Fin 2) * 128 + 1 * k.val = k.val; omega
theorem rd1_7 (c : Dev nD) (t : Fin cfg1.N) :
    (fun k : Fin 128 => iblk1 V c 7 t (ix2 (0 : Fin 1) k)) = fun k => V c main_v60 (ix2 (0 : Fin 1) k) := by
  have e := idx1 t
  funext k
  show V c main_v60 (((cfg1.win 7).blk t).view.emb (ix2 (0 : Fin 1) k)) = _
  refine congrArg (V c main_v60) ?_
  funext a; apply Fin.ext
  match a with
  | ⟨0, _⟩ => show win1_7.index t (0 : Fin 2) * 1 + 1 * 0 = 0; omega
  | ⟨1, _⟩ => show win1_7.index t (1 : Fin 2) * 128 + 1 * k.val = k.val; omega
theorem rd1_8 (c : Dev nD) (t : Fin cfg1.N) :
    (fun k : Fin 128 => iblk1 V c 8 t (ix2 (0 : Fin 1) k)) = fun k => V c main_v61 (ix2 (0 : Fin 1) k) := by
  have e := idx1 t
  funext k
  show V c main_v61 (((cfg1.win 8).blk t).view.emb (ix2 (0 : Fin 1) k)) = _
  refine congrArg (V c main_v61) ?_
  funext a; apply Fin.ext
  match a with
  | ⟨0, _⟩ => show win1_8.index t (0 : Fin 2) * 1 + 1 * 0 = 0; omega
  | ⟨1, _⟩ => show win1_8.index t (1 : Fin 2) * 128 + 1 * k.val = k.val; omega
theorem emb1_9 (t : Fin cfg1.N) (p : Fin 2000) (q : Fin 128) (hr : 2000 * t.val + p.val < 50000) :
    ((cfg1.win 9).blk t).view.emb (ix2 p q) = ix2 (⟨2000 * t.val + p.val, hr⟩ : Fin 50000) q := by
  have e := idx1 t
  funext a; apply Fin.ext
  match a with
  | ⟨0, _⟩ => show win1_9.index t (0 : Fin 2) * 2000 + 1 * p.val = 2000 * t.val + p.val; omega
  | ⟨1, _⟩ => show win1_9.index t (1 : Fin 2) * 128 + 1 * q.val = q.val; omega

/-- WHAT POINT t WRITES BACK is block t of `nodeOut` of the arrays as the region finds them. -/
theorem flushed1_eq (c : Dev nD) (t : Fin cfg1.N) :
    (dat1 V c).flushed 9 t = ((cfg1.win 9).blk t).view.read (Elt Ideal)
      (fun i => nodeOut (V c main_arg1) (V c main_v54) (V c main_v56) (V c main_v57) (V c main_v58) (V c main_arg13)
        (V c main_v59) (V c main_v60) (V c main_v61) (i 0) (i 1)) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz]
  have ht : t.val < 25 := lt_of_lt_of_eq t.isLt N_1
  funext j
  obtain ⟨p, q, rfl⟩ : ∃ (p : Fin 2000) (q : Fin 128), j = ix2 p q := ⟨j 0, j 1, eq_ix2 j⟩
  have hr : 2000 * t.val + p.val < 50000 := by have := p.isLt; omega
  refine (Pay.node_out _ _ _ _ _ _ _ _ _ p q).trans ?_
  show _ = (fun i : S50000x128.Idx => nodeOut (V c main_arg1) (V c main_v54) (V c main_v56) (V c main_v57) (V c main_v58) (V c main_arg13)
        (V c main_v59) (V c main_v60) (V c main_v61) (i 0) (i 1)) (((cfg1.win 9).blk t).view.emb (ix2 p q))
  rw [emb1_9 t p q hr]
  show _ = nodeOut (V c main_arg1) (V c main_v54) (V c main_v56) (V c main_v57) (V c main_v58) (V c main_arg13)
        (V c main_v59) (V c main_v60) (V c main_v61) (⟨2000 * t.val + p.val, hr⟩ : Fin 50000) q
  unfold nodeOut
  rw [rd1_0 V c t p hr, rd1_1 V c t p hr, rd1_2 V c t, rd1_3 V c t, rd1_4 V c t, rd1_5 V c t, rd1_6 V c t, rd1_7 V c t, rd1_8 V c t]

/-- An index of the result is in point t's block iff its row lies in the block's 2000 rows. -/
theorem mem_blk1 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v62).slice (win1_9.rect t)).set ↔ _
  rw [View.set_slice_whole, Rect.mem_set_unit]
  exact Iff.rfl

/-- Every index of the result lies in the block of the point its row names. -/
theorem cover1 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, e90, e91, -⟩ := idx1 t
  refine ⟨t, flush1_9 t, ?_⟩
  rw [mem_blk1]
  intro a
  have ht : t.val = (i 0).val / 2000 := rfl
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- THE RESULT ARRAY after the node stage: `nodeOut` of the arrays as the region finds them, index by index. -/
theorem final1 (c : Dev nD) : (dat1 V c).arrAt 9 cfg1.N = (fun i : S50000x128.Idx =>
      nodeOut (V c main_arg1) (V c main_v54) (V c main_v56) (V c main_v57) (V c main_v58) (V c main_arg13)
        (V c main_v59) (V c main_v60) (V c main_v61) (i 0) (i 1)) :=
  (dat1 V c).arrAt_eq_of_cover 9 _ (fun t _ => flushed1_eq V c t) cover1

/-! ## The edge stage

The edge kernel visits the 800000 edges in 200 blocks of 4000; at point t it reads rows 4000·t … 4000·t + 3999 of the two
gathered feature tables and of the position differences, the whole of every weight and bias, and writes the same rows
of the edge features and of the gated differences.  A row of either result depends only on the same row of the three
tables. -/

/-- The feature of edge e, column j, from the arrays the edge stage reads. -/
def edgeOut (a0 a1 : S800000x128.Idx → EReal) (a2 : S800000x3.Idx → EReal) (a3 a4 : S128x128.Idx → EReal)
    (a5 a6 : S1x128.Idx → EReal) (a7 : S128x128.Idx → EReal) (a8 : S1x128.Idx → EReal) (e : Fin 800000) (j : Fin 128) : EReal :=
  efRow (fun k => a0 (ix2 e k)) (fun k => a1 (ix2 e k)) (fun k => a2 (ix2 e k)) (fun k j => a3 (ix2 k j)) (fun k j => a4 (ix2 k j))
    (fun j => a5 (ix2 (0 : Fin 1) j)) (fun j => a6 (ix2 (0 : Fin 1) j)) (fun k j => a7 (ix2 k j)) (fun j => a8 (ix2 (0 : Fin 1) j)) j

/-- The gated position difference of edge e, coordinate k, from the arrays the edge stage reads. -/
def edgeGated (a0 a1 : S800000x128.Idx → EReal) (a2 : S800000x3.Idx → EReal) (a3 a4 : S128x128.Idx → EReal)
    (a5 a6 : S1x128.Idx → EReal) (a7 : S128x128.Idx → EReal) (a8 : S1x128.Idx → EReal) (a9 : S128x128.Idx → EReal)
    (a10 : S1x128.Idx → EReal) (a11 : S128x1.Idx → EReal) (a12 : S1x1.Idx → EReal) (e : Fin 800000) (k : Fin 3) : EReal :=
  a2 (ix2 e k) * gateRow (edgeOut a0 a1 a2 a3 a4 a5 a6 a7 a8 e) (fun l k => a9 (ix2 l k)) (fun k => a10 (ix2 (0 : Fin 1) k))
    (fun k => a11 (ix2 k (0 : Fin 1))) (a12 (ix2 (0 : Fin 1) (0 : Fin 1)))

/-- The printed index maps over the grid of 200 points: the three row-blocked inputs and the two outputs sit at block
    (t, 0), every weight and bias at block (0, 0). -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_13.index t (0 : Fin 2) = t.val
    ∧ win0_13.index t (1 : Fin 2) = 0
    ∧ win0_14.index t (0 : Fin 2) = t.val
    ∧ win0_14.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0 :=
  (by decide +kernel : ∀ t : Fin grid0.N, _)

/-! Each window's block at point t, read where the array holds it. -/
theorem rd0_0 (c : Dev nD) (t : Fin cfg0.N) (p : Fin 4000) (hr : 4000 * t.val + p.val < 800000) :
    (fun k : Fin 128 => iblk0 V c 0 t (ix2 p k)) = fun k => V c main_v11 (ix2 (⟨4000 * t.val + p.val, hr⟩ : Fin 800000) k) := by
  have e := idx0 t
  funext k
  show V c main_v11 (((cfg0.win 0).blk t).view.emb (ix2 p k)) = _
  refine congrArg (V c main_v11) ?_
  funext a; apply Fin.ext
  match a with
  | ⟨0, _⟩ => show win0_0.index t (0 : Fin 2) * 4000 + 1 * p.val = 4000 * t.val + p.val; omega
  | ⟨1, _⟩ => show win0_0.index t (1 : Fin 2) * 128 + 1 * k.val = k.val; omega
theorem rd0_1 (c : Dev nD) (t : Fin cfg0.N) (p : Fin 4000) (hr : 4000 * t.val + p.val < 800000) :
    (fun k : Fin 128 => iblk0 V c 1 t (ix2 p k)) = fun k => V c main_v18 (ix2 (⟨4000 * t.val + p.val, hr⟩ : Fin 800000) k) := by
  have e := idx0 t
  funext k
  show V c main_v18 (((cfg0.win 1).blk t).view.emb (ix2 p k)) = _
  refine congrArg (V c main_v18) ?_
  funext a; apply Fin.ext
  match a with
  | ⟨0, _⟩ => show win0_1.index t (0 : Fin 2) * 4000 + 1 * p.val = 4000 * t.val + p.val; omega
  | ⟨1, _⟩ => show win0_1.index t (1 : Fin 2) * 128 + 1 * k.val = k.val; omega
theorem rd0_2 (c : Dev nD) (t : Fin cfg0.N) (p : Fin 4000) (hr : 4000 * t.val + p.val < 800000) :
    (fun k : Fin 3 => iblk0 V c 2 t (ix2 p k)) = fun k => V c main_v33 (ix2 (⟨4000 * t.val + p.val, hr⟩ : Fin 800000) k) := by
  have e := idx0 t
  funext k
  show V c main_v33 (((cfg0.win 2).blk t).view.emb (ix2 p k)) = _
  refine congrArg (V c main_v33) ?_
  funext a; apply Fin.ext
  match a with
  | ⟨0, _⟩ => show win0_2.index t (0 : Fin 2) * 4000 + 1 * p.val = 4000 * t.val + p.val; omega
  | ⟨1, _⟩ => show win0_2.index t (1 : Fin 2) * 3 + 1 * k.val = k.val; omega
theorem rd0_3 (c : Dev nD) (t : Fin cfg0.N) :
    (fun (l : Fin 128) (k : Fin 128) => iblk0 V c 3 t (ix2 l k)) = fun l k => V c main_v34 (ix2 l k) := by
  have e := idx0 t
  funext l k
  show V c main_v34 (((cfg0.win 3).blk t).view.emb (ix2 l k)) = _
  refine congrArg (V c main_v34) ?_
  funext a; apply Fin.ext
  match a with
  | ⟨0, _⟩ => show win0_3.index t (0 : Fin 2) * 128 + 1 * l.val = l.val; omega
  | ⟨1, _⟩ => show win0_3.index t (1 : Fin 2) * 128 + 1 * k.val = k.val; omega
theorem rd0_4 (c : Dev nD) (t : Fin cfg0.N) :
    (fun (l : Fin 128) (k : Fin 128) => iblk0 V c 4 t (ix2 l k)) = fun l k => V c main_v35 (ix2 l k) := by
  have e := idx0 t
  funext l k
  show V c main_v35 (((cfg0.win 4).blk t).view.emb (ix2 l k)) = _
  refine congrArg (V c main_v35) ?_
  funext a; apply Fin.ext
  match a with
  | ⟨0, _⟩ => show win0_4.index t (0 : Fin 2) * 128 + 1 * l.val = l.val; omega
  | ⟨1, _⟩ => show win0_4.index t (1 : Fin 2) * 128 + 1 * k.val = k.val; omega
theorem rd0_5 (c : Dev nD) (t : Fin cfg0.N) :
    (fun k : Fin 128 => iblk0 V c 5 t (ix2 (0 : Fin 1) k)) = fun k => V c main_v36 (ix2 (0 : Fin 1) k) := by
  have e := idx0 t
  funext k
  show V c main_v36 (((cfg0.win 5).blk t).view.emb (ix2 (0 : Fin 1) k)) = _
  refine congrArg (V c main_v36) ?_
  funext a; apply Fin.ext
  match a with
  | ⟨0, _⟩ => show win0_5.index t (0 : Fin 2) * 1 + 1 * 0 = 0; omega
  | ⟨1, _⟩ => show win0_5.index t (1 : Fin 2) * 128 + 1 * k.val = k.val; omega
theorem rd0_6 (c : Dev nD) (t : Fin cfg0.N) :
    (fun k : Fin 128 => iblk0 V c 6 t (ix2 (0 : Fin 1) k)) = fun k => V c main_v37 (ix2 (0 : Fin 1) k) := by
  have e := idx0 t
  funext k
  show V c main_v37 (((cfg0.win 6).blk t).view.emb (ix2 (0 : Fin 1) k)) = _
  refine congrArg (V c main_v37) ?_
  funext a; apply Fin.ext
  match a with
  | ⟨0, _⟩ => show win0_6.index t (0 : Fin 2) * 1 + 1 * 0 = 0; omega
  | ⟨1, _⟩ => show win0_6.index t (1 : Fin 2) * 128 + 1 * k.val = k.val; omega
theorem rd0_7 (c : Dev nD) (t : Fin cfg0.N) :
    (fun (l : Fin 128) (k : Fin 128) => iblk0 V c 7 t (ix2 l k)) = fun l k => V c main_arg5 (ix2 l k) := by
  have e := idx0 t
  funext l k
  show V c main_arg5 (((cfg0.win 7).blk t).view.emb (ix2 l k)) = _
  refine congrArg (V c main_arg5) ?_
  funext a; apply Fin.ext
  match a with
  | ⟨0, _⟩ => show win0_7.index t (0 : Fin 2) * 128 + 1 * l.val = l.val; omega
  | ⟨1, _⟩ => show win0_7.index t (1 : Fin 2) * 128 + 1 * k.val = k.val; omega
theorem rd0_8 (c : Dev nD) (t : Fin cfg0.N) :
    (fun k : Fin 128 => iblk0 V c 8 t (ix2 (0 : Fin 1) k)) = fun k => V c main_v38 (ix2 (0 : Fin 1) k) := by
  have e := idx0 t
  funext k
  show V c main_v38 (((cfg0.win 8).blk t).view.emb (ix2 (0 : Fin 1) k)) = _
  refine congrArg (V c main_v38) ?_
  funext a; apply Fin.ext
  match a with
  | ⟨0, _⟩ => show win0_8.index t (0 : Fin 2) * 1 + 1 * 0 = 0; omega
  | ⟨1, _⟩ => show win0_8.index t (1 : Fin 2) * 128 + 1 * k.val = k.val; omega
theorem rd0_9 (c : Dev nD) (t : Fin cfg0.N) :
    (fun (l : Fin 128) (k : Fin 128) => iblk0 V c 9 t (ix2 l k)) = fun l k => V c main_arg7 (ix2 l k) := by
  have e := idx0 t
  funext l k
  show V c main_arg7 (((cfg0.win 9).blk t).view.emb (ix2 l k)) = _
  refine congrArg (V c main_arg7) ?_
  funext a; apply Fin.ext
  match a with
  | ⟨0, _⟩ => show win0_9.index t (0 : Fin 2) * 128 + 1 * l.val = l.val; omega
  | ⟨1, _⟩ => show win0_9.index t (1 : Fin 2) * 128 + 1 * k.val = k.val; omega
theorem rd0_10 (c : Dev nD) (t : Fin cfg0.N) :
    (fun k : Fin 128 => iblk0 V c 10 t (ix2 (0 : Fin 1) k)) = fun k => V c main_v39 (ix2 (0 : Fin 1) k) := by
  have e := idx0 t
  funext k
  show V c main_v39 (((cfg0.win 10).blk t).view.emb (ix2 (0 : Fin 1) k)) = _
  refine congrArg (V c main_v39) ?_
  funext a; apply Fin.ext
  match a with
  | ⟨0, _⟩ => show win0_10.index t (0 : Fin 2) * 1 + 1 * 0 = 0; omega
  | ⟨1, _⟩ => show win0_10.index t (1 : Fin 2) * 128 + 1 * k.val = k.val; omega
theorem rd0_11 (c : Dev nD) (t : Fin cfg0.N) :
    (fun k : Fin 128 => iblk0 V c 11 t (ix2 k (0 : Fin 1))) = fun k => V c main_arg9 (ix2 k (0 : Fin 1)) := by
  have e := idx0 t
  funext k
  show V c main_arg9 (((cfg0.win 11).blk t).view.emb (ix2 k (0 : Fin 1))) = _
  refine congrArg (V c main_arg9) ?_
  funext a; apply Fin.ext
  match a with
  | ⟨0, _⟩ => show win0_11.index t (0 : Fin 2) * 128 + 1 * k.val = k.val; omega
  | ⟨1, _⟩ => show win0_11.index t (1 : Fin 2) * 1 + 1 * 0 = 0; omega
theorem rd0_12 (c : Dev nD) (t : Fin cfg0.N) :
    iblk0 V c 12 t (ix2 (0 : Fin 1) (0 : Fin 1)) = V c main_v40 (ix2 (0 : Fin 1) (0 : Fin 1)) := by
  have e := idx0 t
  show V c main_v40 (((cfg0.win 12).blk t).view.emb (ix2 (0 : Fin 1) (0 : Fin 1))) = _
  refine congrArg (V c main_v40) ?_
  funext a; apply Fin.ext
  match a with
  | ⟨0, _⟩ => show win0_12.index t (0 : Fin 2) * 1 + 1 * 0 = 0; omega
  | ⟨1, _⟩ => show win0_12.index t (1 : Fin 2) * 1 + 1 * 0 = 0; omega
theorem emb0_13 (t : Fin cfg0.N) (p : Fin 4000) (q : Fin 128) (hr : 4000 * t.val + p.val < 800000) :
    ((cfg0.win 13).blk t).view.emb (ix2 p q) = ix2 (⟨4000 * t.val + p.val, hr⟩ : Fin 800000) q := by
  have e := idx0 t
  funext a; apply Fin.ext
  match a with
  | ⟨0, _⟩ => show win0_13.index t (0 : Fin 2) * 4000 + 1 * p.val = 4000 * t.val + p.val; omega
  | ⟨1, _⟩ => show win0_13.index t (1 : Fin 2) * 128 + 1 * q.val = q.val; omega
theorem emb0_14 (t : Fin cfg0.N) (p : Fin 4000) (q : Fin 3) (hr : 4000 * t.val + p.val < 800000) :
    ((cfg0.win 14).blk t).view.emb (ix2 p q) = ix2 (⟨4000 * t.val + p.val, hr⟩ : Fin 800000) q := by
  have e := idx0 t
  funext a; apply Fin.ext
  match a with
  | ⟨0, _⟩ => show win0_14.index t (0 : Fin 2) * 4000 + 1 * p.val = 4000 * t.val + p.val; omega
  | ⟨1, _⟩ => show win0_14.index t (1 : Fin 2) * 3 + 1 * q.val = q.val; omega

/-- WHAT POINT t WRITES BACK into the edge features is block t of `edgeOut` of the arrays as the region finds them. -/
theorem flushed0_13_eq (c : Dev nD) (t : Fin cfg0.N) :
    (dat0 V c).flushed 13 t = ((cfg0.win 13).blk t).view.read (Elt Ideal)
      (fun i => edgeOut (V c main_v11) (V c main_v18) (V c main_v33) (V c main_v34) (V c main_v35) (V c main_v36) (V c main_v37) (V c main_arg5) (V c main_v38) (i 0) (i 1)) := by
  show (cfg0.win 13).cut (grid0.coords t) ((dat0 V c).after 13 t) = _
  rw [after0_13]
  unfold out0_13
  rw [View.canon_unit_zero hz]
  simp only [View.ld_unit_zero (S := S4000x128) hz, View.ld_unit_zero (S := S4000x3) hz, View.ld_unit_zero (S := S128x128) hz, View.ld_unit_zero (S := S1x128) hz]
  have ht : t.val < 200 := lt_of_lt_of_eq t.isLt N_0
  funext j
  obtain ⟨p, q, rfl⟩ : ∃ (p : Fin 4000) (q : Fin 128), j = ix2 p q := ⟨j 0, j 1, eq_ix2 j⟩
  have hr : 4000 * t.val + p.val < 800000 := by have := p.isLt; omega
  refine (Pay.edge_feature _ _ _ _ _ _ _ _ _ p q).trans ?_
  show _ = (fun i : S800000x128.Idx => edgeOut (V c main_v11) (V c main_v18) (V c main_v33) (V c main_v34) (V c main_v35) (V c main_v36) (V c main_v37) (V c main_arg5) (V c main_v38) (i 0) (i 1)) (((cfg0.win 13).blk t).view.emb (ix2 p q))
  rw [emb0_13 t p q hr]
  show _ = edgeOut (V c main_v11) (V c main_v18) (V c main_v33) (V c main_v34) (V c main_v35) (V c main_v36) (V c main_v37) (V c main_arg5) (V c main_v38) (⟨4000 * t.val + p.val, hr⟩ : Fin 800000) q
  unfold edgeOut
  rw [rd0_0 V c t p hr, rd0_1 V c t p hr, rd0_2 V c t p hr, rd0_3 V c t, rd0_4 V c t, rd0_5 V c t, rd0_6 V c t, rd0_7 V c t, rd0_8 V c t]

set_option maxHeartbeats 1600000 in
/-- WHAT POINT t WRITES BACK into the gated differences is block t of `edgeGated`. -/
theorem flushed0_14_eq (c : Dev nD) (t : Fin cfg0.N) :
    (dat0 V c).flushed 14 t = ((cfg0.win 14).blk t).view.read (Elt Ideal)
      (fun i => edgeGated (V c main_v11) (V c main_v18) (V c main_v33) (V c main_v34) (V c main_v35) (V c main_v36) (V c main_v37) (V c main_arg5) (V c main_v38) (V c main_arg7) (V c main_v39) (V c main_arg9) (V c main_v40) (i 0) (i 1)) := by
  show (cfg0.win 14).cut (grid0.coords t) ((dat0 V c).after 14 t) = _
  rw [after0_14]
  unfold out0_14
  rw [View.canon_unit_zero hz]
  simp only [View.ld_unit_zero (S := S4000x128) hz, View.ld_unit_zero (S := S4000x3) hz, View.ld_unit_zero (S := S128x128) hz, View.ld_unit_zero (S := S1x128) hz, View.ld_unit_zero (S := S128x1) hz, View.ld_unit_zero (S := S1x1) hz]
  have ht : t.val < 200 := lt_of_lt_of_eq t.isLt N_0
  funext j
  obtain ⟨p, q, rfl⟩ : ∃ (p : Fin 4000) (q : Fin 3), j = ix2 p q := ⟨j 0, j 1, eq_ix2 j⟩
  have hr : 4000 * t.val + p.val < 800000 := by have := p.isLt; omega
  refine (Pay.edge_relgate _ _ _ _ _ _ _ _ _ _ _ _ _ p q).trans ?_
  show _ = (fun i : S800000x3.Idx => edgeGated (V c main_v11) (V c main_v18) (V c main_v33) (V c main_v34) (V c main_v35) (V c main_v36) (V c main_v37) (V c main_arg5) (V c main_v38) (V c main_arg7) (V c main_v39) (V c main_arg9) (V c main_v40) (i 0) (i 1)) (((cfg0.win 14).blk t).view.emb (ix2 p q))
  rw [emb0_14 t p q hr]
  show _ = edgeGated (V c main_v11) (V c main_v18) (V c main_v33) (V c main_v34) (V c main_v35) (V c main_v36) (V c main_v37) (V c main_arg5) (V c main_v38) (V c main_arg7) (V c main_v39) (V c main_arg9) (V c main_v40) (⟨4000 * t.val + p.val, hr⟩ : Fin 800000) q
  unfold edgeGated edgeOut
  rw [congrFun (rd0_2 V c t p hr) q, rd0_0 V c t p hr, rd0_1 V c t p hr, rd0_2 V c t p hr, rd0_3 V c t, rd0_4 V c t, rd0_5 V c t, rd0_6 V c t, rd0_7 V c t, rd0_8 V c t,
    rd0_9 V c t, rd0_10 V c t, rd0_11 V c t, rd0_12 V c t]

theorem mem_blk0_13 (t : Fin cfg0.N) (i : S800000x128.Idx) :
    i ∈ ((cfg0.win 13).blk t).view.set ↔ ∀ a : Fin 2, win0_13.index t a * S4000x128.size a ≤ (i a).val ∧ (i a).val < win0_13.index t a * S4000x128.size a + S4000x128.size a := by
  show i ∈ ((View.whole main_v41_0).slice (win0_13.rect t)).set ↔ _
  rw [View.set_slice_whole, Rect.mem_set_unit]
  exact Iff.rfl

theorem mem_blk0_14 (t : Fin cfg0.N) (i : S800000x3.Idx) :
    i ∈ ((cfg0.win 14).blk t).view.set ↔ ∀ a : Fin 2, win0_14.index t a * S4000x3.size a ≤ (i a).val ∧ (i a).val < win0_14.index t a * S4000x3.size a + S4000x3.size a := by
  show i ∈ ((View.whole main_v41_1).slice (win0_14.rect t)).set ↔ _
  rw [View.set_slice_whole, Rect.mem_set_unit]
  exact Iff.rfl

/-- Every index of the edge features lies in the block of the point its row names. -/
theorem cover0_13 (i : S800000x128.Idx) : ∃ t : Fin cfg0.N, (cfg0.win 13).flush t = true ∧ i ∈ ((cfg0.win 13).blk t).view.set := by
  have hi0 : (i 0).val < 800000 := (i 0).isLt
  have hi1 : (i 1).val < 128 := (i 1).isLt
  have hN : cfg0.N = 200 := N_0
  let t : Fin cfg0.N := ⟨(i 0).val / 4000, by rw [hN]; omega⟩
  obtain ⟨-, -, -, -, -, -, e13a, e13b, -⟩ := idx0 t
  refine ⟨t, flush0_13 t, ?_⟩
  rw [mem_blk0_13]
  intro a
  have ht : t.val = (i 0).val / 4000 := rfl
  match a with
  | ⟨0, _⟩ => show win0_13.index t (0 : Fin 2) * 4000 ≤ (i 0).val ∧ (i 0).val < win0_13.index t (0 : Fin 2) * 4000 + 4000; omega
  | ⟨1, _⟩ => show win0_13.index t (1 : Fin 2) * 128 ≤ (i 1).val ∧ (i 1).val < win0_13.index t (1 : Fin 2) * 128 + 128; omega

/-- Every index of the gated differences lies in the block of the point its row names. -/
theorem cover0_14 (i : S800000x3.Idx) : ∃ t : Fin cfg0.N, (cfg0.win 14).flush t = true ∧ i ∈ ((cfg0.win 14).blk t).view.set := by
  have hi0 : (i 0).val < 800000 := (i 0).isLt
  have hi1 : (i 1).val < 3 := (i 1).isLt
  have hN : cfg0.N = 200 := N_0
  let t : Fin cfg0.N := ⟨(i 0).val / 4000, by rw [hN]; omega⟩
  obtain ⟨-, -, -, -, -, -, -, -, e14a, e14b, -⟩ := idx0 t
  refine ⟨t, flush0_14 t, ?_⟩
  rw [mem_blk0_14]
  intro a
  have ht : t.val = (i 0).val / 4000 := rfl
  match a with
  | ⟨0, _⟩ => show win0_14.index t (0 : Fin 2) * 4000 ≤ (i 0).val ∧ (i 0).val < win0_14.index t (0 : Fin 2) * 4000 + 4000; omega
  | ⟨1, _⟩ => show win0_14.index t (1 : Fin 2) * 3 ≤ (i 1).val ∧ (i 1).val < win0_14.index t (1 : Fin 2) * 3 + 3; omega

/-- THE EDGE FEATURES after the edge stage. -/
theorem final0_13 (c : Dev nD) : (dat0 V c).arrAt 13 cfg0.N = (fun i : S800000x128.Idx => edgeOut (V c main_v11) (V c main_v18) (V c main_v33) (V c main_v34) (V c main_v35) (V c main_v36) (V c main_v37) (V c main_arg5) (V c main_v38) (i 0) (i 1)) :=
  (dat0 V c).arrAt_eq_of_cover 13 _ (fun t _ => flushed0_13_eq V c t) cover0_13

/-- THE GATED DIFFERENCES after the edge stage. -/
theorem final0_14 (c : Dev nD) : (dat0 V c).arrAt 14 cfg0.N = (fun i : S800000x3.Idx => edgeGated (V c main_v11) (V c main_v18) (V c main_v33) (V c main_v34) (V c main_v35) (V c main_v36) (V c main_v37) (V c main_arg5) (V c main_v38) (V c main_arg7) (V c main_v39) (V c main_arg9) (V c main_v40) (i 0) (i 1)) :=
  (dat0 V c).arrAt_eq_of_cover 14 _ (fun t _ => flushed0_14_eq V c t) cover0_14

end Cert.KernelIdeal.Blocks

end
-- ==== Proof.KIHostDefs.lean ====
/-
  The index columns the program's host operations build from the edge-index array, and names for the buffers after each
  host stretch.
-/
import proofs.«166594_j8684423872621_2_alg».proof.Proof.Gen.KernelIdeal.Launch
import proofs.«166594_j8684423872621_2_alg».proof.Proof.Gen.KernelIdeal.Regions
import proofs.«166594_j8684423872621_2_alg».proof.Proof.EgnnSpec

noncomputable section

namespace Cert.KernelIdeal.HostV

open Cert.KernelIdeal Cert.KernelIdeal.Gen Cert.Egnn Idealize.ShloMosaic Idealize.ShloMosaic.ValueIdx
open Idealize.ShloMosaic.StableHlo (after_cons after_nil)

/-- A TensorCore reference as a device buffer. -/
local notation:max "dR " b:max => Proc.devRef (τ := τ) Proc.tc b

/-- The row words of the edge-index array: row 0 cut out and read as a vector. -/
def rowWords (x2 : (⟨S2x800000, .i32⟩ : BufTy).Contents (Elt Ideal)) : (⟨S800000, .i32⟩ : BufTy).Contents (Elt Ideal) :=
  shapeCast S800000 (extractStridedSlice S1x800000 ![0, 0] x2 Gen.slices_S2x800000_S1x800000_0_0) Gen.shapeCasts_S1x800000_S800000

/-- The column words of the edge-index array: row 1 cut out and read as a vector. -/
def colWords (x2 : (⟨S2x800000, .i32⟩ : BufTy).Contents (Elt Ideal)) : (⟨S800000, .i32⟩ : BufTy).Contents (Elt Ideal) :=
  shapeCast S800000 (extractStridedSlice S1x800000 ![1, 0] x2 Gen.slices_S2x800000_S1x800000_1_0) Gen.shapeCasts_S1x800000_S800000

/-- Index words normalised the way the program does before a gather (a negative word has 50000 added), as a column. -/
def normCol (w : (⟨S800000, .i32⟩ : BufTy).Contents (Elt Ideal)) : Cert.Egnn.Col 800000 :=
  broadcastInDim S800000x1 ![0] Gen.bcast_S800000_S800000x1_0
    (select (cmpi .slt w (broadcastInDim S800000 ![] Gen.bcast_S_S800000 (constantI S_ 32 0#32)))
      (addi w (broadcastInDim S800000 ![] Gen.bcast_S_S800000 (constantI S_ 32 50000#32))) w)

/-- Index words as a column, unchanged. -/
def rawCol (w : (⟨S800000, .i32⟩ : BufTy).Contents (Elt Ideal)) : Cert.Egnn.Col 800000 :=
  broadcastInDim S800000x1 ![0] Gen.bcast_S800000_S800000x1_0 w

/-- The buffers after the first host stretch. -/
abbrev E0 (V0 : Valuation τ sig (Elt Ideal)) : Valuation τ sig (Elt Ideal) := StableHlo.after (hostOps0 (F := Ideal)) V0
/-- The buffers after the second, third and fourth host stretch. -/
abbrev T1 (V2 : Valuation τ sig (Elt Ideal)) : Valuation τ sig (Elt Ideal) := StableHlo.after (hostOps1 (F := Ideal)) V2
abbrev T2 (V2 : Valuation τ sig (Elt Ideal)) : Valuation τ sig (Elt Ideal) := StableHlo.after (hostOps1_1 (F := Ideal)) (T1 V2)
abbrev T3 (V2 : Valuation τ sig (Elt Ideal)) : Valuation τ sig (Elt Ideal) := StableHlo.after (hostOps1_2 (F := Ideal)) (T2 V2)

/-- The normalised row and column index columns of the launch contents, and the raw row column. -/
abbrev gr (V0 : Valuation τ sig (Elt Ideal)) : Cert.Egnn.Col 800000 := normCol (rowWords (V0 (dR main_arg2)))
abbrev gc (V0 : Valuation τ sig (Elt Ideal)) : Cert.Egnn.Col 800000 := normCol (colWords (V0 (dR main_arg2)))
abbrev sr (V2 : Valuation τ sig (Elt Ideal)) : Cert.Egnn.Col 800000 := rawCol (V2 (dR main_v1))

end Cert.KernelIdeal.HostV

end
-- ==== Proof.KIHostIx.lean ====
/-
  Small layout facts read at an index: a rectangle cut out of a matrix, and three matrices laid side by side.
-/
import Idealize.ShloMosaic.Lib.ValueIdx
import Idealize.ShloMosaic.Lib.ValueLayout
import Idealize.ShloMosaic.Lib.Pipeline.Value

noncomputable section

namespace Cert.KernelIdeal.HostIx

open Idealize.ShloMosaic Idealize.ShloMosaic.ValueIdx

variable {α : Type}

/-- A rectangle cut out of a matrix at offsets (o₁, o₂) reads, at (p, j), the matrix at (o₁ + p, o₂ + j). -/
theorem slice2_apply {n c m d : ℕ} (o₁ o₂ : ℕ) (x : (⟨2, ![n, c]⟩ : Shape).Idx → α)
    (h : (⟨2, ![n, c]⟩ : Shape).Slices ![o₁, o₂] ⟨2, ![m, d]⟩) (p : Fin m) (j : Fin d) (p' : Fin n) (j' : Fin c)
    (hp : p'.val = o₁ + p.val) (hj : j'.val = o₂ + j.val) :
    extractStridedSlice ⟨2, ![m, d]⟩ ![o₁, o₂] x h (ix2 p j) = x (ix2 p' j') :=
  extractStridedSlice_apply _ _ _ _ _ (fun ax => by
    match ax with
    | ⟨0, _⟩ => exact hp
    | ⟨1, _⟩ => exact hj)

/-- Three matrices of M rows laid side by side: the first band. -/
theorem concat3_cols_first {M A B C T : ℕ} (x₁ : (⟨2, ![M, A]⟩ : Shape).Idx → α) (x₂ : (⟨2, ![M, B]⟩ : Shape).Idx → α)
    (x₃ : (⟨2, ![M, C]⟩ : Shape).Idx → α)
    (h : Shape.Concatenates [(⟨2, ![M, A]⟩ : Shape), ⟨2, ![M, B]⟩, ⟨2, ![M, C]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩, ⟨⟨2, ![M, C]⟩, x₃⟩] h (ix2 p k') = x₁ (ix2 p k) :=
  concatenate_apply_piece (t := ⟨2, ![M, T]⟩) (1 : Fin 2) ([⟨⟨2, ![M, A]⟩, x₁⟩, ⟨⟨2, ![M, B]⟩, x₂⟩, ⟨⟨2, ![M, C]⟩, x₃⟩] : List ((s : Shape) × (s.Idx → α))) h (ix2 p k') 0 (by show 0 < 3; omega) ⟨2, ![M, A]⟩ x₁ rfl rfl 0 rfl (ix2 p k)
    (fun b hb => by
      match b with
      | ⟨0, _⟩ => rfl
      | ⟨1, _⟩ => exact absurd rfl hb)
    (by show 0 + k.val = k'.val; omega)

/-- The second band, the first one's width less. -/
theorem concat3_cols_second {M A B C T : ℕ} (x₁ : (⟨2, ![M, A]⟩ : Shape).Idx → α) (x₂ : (⟨2, ![M, B]⟩ : Shape).Idx → α)
    (x₃ : (⟨2, ![M, C]⟩ : Shape).Idx → α)
    (h : Shape.Concatenates [(⟨2, ![M, A]⟩ : Shape), ⟨2, ![M, B]⟩, ⟨2, ![M, C]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩, ⟨⟨2, ![M, C]⟩, x₃⟩] h (ix2 p k') = x₂ (ix2 p k) :=
  concatenate_apply_piece (t := ⟨2, ![M, T]⟩) (1 : Fin 2) ([⟨⟨2, ![M, A]⟩, x₁⟩, ⟨⟨2, ![M, B]⟩, x₂⟩, ⟨⟨2, ![M, C]⟩, x₃⟩] : List ((s : Shape) × (s.Idx → α))) h (ix2 p k') 1 (by show 1 < 3; omega) ⟨2, ![M, B]⟩ x₂ rfl rfl (A + 0) rfl (ix2 p k)
    (fun b hb => by
      match b with
      | ⟨0, _⟩ => rfl
      | ⟨1, _⟩ => exact absurd rfl hb)
    (by show A + 0 + k.val = k'.val; omega)

/-- The third band, the first two widths less. -/
theorem concat3_cols_third {M A B C T : ℕ} (x₁ : (⟨2, ![M, A]⟩ : Shape).Idx → α) (x₂ : (⟨2, ![M, B]⟩ : Shape).Idx → α)
    (x₃ : (⟨2, ![M, C]⟩ : Shape).Idx → α)
    (h : Shape.Concatenates [(⟨2, ![M, A]⟩ : Shape), ⟨2, ![M, B]⟩, ⟨2, ![M, C]⟩] ⟨2, ![M, T]⟩ (1 : Fin 2))
    (p : Fin M) (k : Fin C) (k' : Fin T) (hk : k'.val = A + B + k.val) :
    concatenate ⟨2, ![M, T]⟩ (1 : Fin 2) [⟨⟨2, ![M, A]⟩, x₁⟩, ⟨⟨2, ![M, B]⟩, x₂⟩, ⟨⟨2, ![M, C]⟩, x₃⟩] h (ix2 p k') = x₃ (ix2 p k) :=
  concatenate_apply_piece (t := ⟨2, ![M, T]⟩) (1 : Fin 2) ([⟨⟨2, ![M, A]⟩, x₁⟩, ⟨⟨2, ![M, B]⟩, x₂⟩, ⟨⟨2, ![M, C]⟩, x₃⟩] : List ((s : Shape) × (s.Idx → α))) h (ix2 p k') 2 (by show 2 < 3; omega) ⟨2, ![M, C]⟩ x₃ rfl rfl (A + (B + 0)) rfl (ix2 p k)
    (fun b hb => by
      match b with
      | ⟨0, _⟩ => rfl
      | ⟨1, _⟩ => exact absurd rfl hb)
    (by show A + (B + 0) + k.val = k'.val; omega)

end Cert.KernelIdeal.HostIx

end
-- ==== Proof.KIHostE1.lean ====
/-
  What the first host stretch leaves in the row words and in the two gathered feature tables, as composed terms over the
  launch contents.
-/
import proofs.«166594_j8684423872621_2_alg».proof.Proof.KIHostDefs

noncomputable section

namespace Cert.KernelIdeal.HostV

open Cert.KernelIdeal Cert.KernelIdeal.Gen Cert.Egnn Idealize.ShloMosaic Idealize.ShloMosaic.ValueIdx
open Idealize.ShloMosaic.StableHlo (after_cons after_nil)

/-- A TensorCore reference as a device buffer. -/
local notation:max "dR " b:max => Proc.devRef (τ := τ) Proc.tc b

variable (V0 : Valuation τ sig (Elt Ideal))

theorem raw_v1 : E0 V0 (dR main_v1) = rowWords (V0 (dR main_arg2)) := by
  after_results <;> rfl

theorem raw_v11 : E0 V0 (dR main_v11)
    = Host.gather gather_S50000x128_S800000x1_S800000x128_1_0_n_n_0_1_1128
        (truncf (F := Ideal) (s := S50000x128) (φ := .f32) .bf16 (V0 (dR main_arg1)) Gen.bitsLt_bf16_f32) (gr V0) := by
  after_results <;> rfl

set_option maxHeartbeats 4000000 in
theorem raw_v18 : E0 V0 (dR main_v18)
    = Host.gather gather_S50000x128_S800000x1_S800000x128_1_0_n_n_0_1_1128
        (truncf (F := Ideal) (s := S50000x128) (φ := .f32) .bf16 (V0 (dR main_arg1)) Gen.bitsLt_bf16_f32) (gc V0) := by
  after_results_simp <;> rfl

end Cert.KernelIdeal.HostV

end
-- ==== Proof.KIHostE2.lean ====
/-
  What the first host stretch leaves in the position differences, as a composed term over the launch contents.
-/
import proofs.«166594_j8684423872621_2_alg».proof.Proof.KIHostDefs

noncomputable section

namespace Cert.KernelIdeal.HostV

open Cert.KernelIdeal Cert.KernelIdeal.Gen Cert.Egnn Idealize.ShloMosaic Idealize.ShloMosaic.ValueIdx
open Idealize.ShloMosaic.StableHlo (after_cons after_nil)

/-- A TensorCore reference as a device buffer. -/
local notation:max "dR " b:max => Proc.devRef (τ := τ) Proc.tc b

variable (V0 : Valuation τ sig (Elt Ideal))

set_option maxHeartbeats 4000000 in
theorem raw_v33 : E0 V0 (dR main_v33)
    = subf (F := Ideal) (s := S800000x3) (φ := .f32) (Host.gather gather_S50000x3_S800000x1_S800000x3_1_0_n_n_0_1_13 (V0 (dR main_arg0)) (gr V0))
        (Host.gather gather_S50000x3_S800000x1_S800000x3_1_0_n_n_0_1_13 (V0 (dR main_arg0)) (gc V0)) := by
  after_results_simp <;> rfl

end Cert.KernelIdeal.HostV

end
-- ==== Proof.KIHostE3.lean ====
/-
  What the first host stretch leaves in the weight bands and bias rows, as composed terms over the launch contents.
-/
import proofs.«166594_j8684423872621_2_alg».proof.Proof.KIHostDefs

noncomputable section

namespace Cert.KernelIdeal.HostV

open Cert.KernelIdeal Cert.KernelIdeal.Gen Cert.Egnn Idealize.ShloMosaic Idealize.ShloMosaic.ValueIdx
open Idealize.ShloMosaic.StableHlo (after_cons after_nil)

/-- A TensorCore reference as a device buffer. -/
local notation:max "dR " b:max => Proc.devRef (τ := τ) Proc.tc b

variable (V0 : Valuation τ sig (Elt Ideal))

theorem raw_v34 : E0 V0 (dR main_v34)
    = extractStridedSlice S128x128 ![0, 0] (V0 (dR main_arg3)) Gen.slices_S257x128_S128x128_0_0 := by
  after_results <;> rfl

theorem raw_v35 : E0 V0 (dR main_v35)
    = extractStridedSlice S128x128 ![128, 0] (V0 (dR main_arg3)) Gen.slices_S257x128_S128x128_128_0 := by
  after_results <;> rfl

theorem raw_v36 : E0 V0 (dR main_v36)
    = extractStridedSlice S1x128 ![256, 0] (V0 (dR main_arg3)) Gen.slices_S257x128_S1x128_256_0 := by
  after_results <;> rfl

theorem raw_v37 : E0 V0 (dR main_v37) = shapeCast S1x128 (V0 (dR main_arg4)) Gen.shapeCasts_S128_S1x128 := by
  after_results <;> rfl

theorem raw_v38 : E0 V0 (dR main_v38) = shapeCast S1x128 (V0 (dR main_arg6)) Gen.shapeCasts_S128_S1x128 := by
  after_results <;> rfl

theorem raw_v39 : E0 V0 (dR main_v39) = shapeCast S1x128 (V0 (dR main_arg8)) Gen.shapeCasts_S128_S1x128 := by
  after_results <;> rfl

theorem raw_v40 : E0 V0 (dR main_v40) = shapeCast S1x1 (V0 (dR main_arg10)) Gen.shapeCasts_S1_S1x1 := by
  after_results <;> rfl

end Cert.KernelIdeal.HostV

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«166594_j8684423872621_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.KIHostTail.lean ====
/-
  What the host operations between the two kernel calls leave in the buffers the node kernel reads, entry by entry, as a
  function of the buffers the first of them starts from: the scatter of [1 | gated differences | edge features] rows by
  the raw row words, the edge count of a node cut below at one, the two means, the moved positions, and the weight
  bands and bias rows laid out for the node kernel.
-/
import proofs.«166594_j8684423872621_2_alg».proof.Proof.KIHostDefs
import proofs.«166594_j8684423872621_2_alg».proof.Proof.KIHostIx
import proofs.«166594_j8684423872621_2_alg».proof.Proof.LibScatter
import proofs.«166594_j8684423872621_2_alg».proof.Proof.LibIndex
import proofs.«166594_j8684423872621_2_alg».proof.Proof.LibRowBlocks
import proofs.«166594_j8684423872621_2_alg».proof.Proof.EgnnSpec

noncomputable section

namespace Cert.KernelIdeal.HostV

open Cert.KernelIdeal Cert.KernelIdeal.Gen Cert.Egnn Idealize.ShloMosaic Idealize.ShloMosaic.ValueIdx
open Idealize.ShloMosaic.StableHlo (after_cons after_nil)

/-- A TensorCore reference as a device buffer. -/
local notation:max "dR " b:max => Proc.devRef (τ := τ) Proc.tc b

variable (V2 : Valuation τ sig (Elt Ideal))

/-- A column of 800000 ones. -/
def onesCol : FVec Ideal S800000x1 .f32 :=
  broadcastInDim S800000x1 ![] Gen.bcast_S_S800000x1 (constant (F := Ideal) S_ .f32 0x3F800000#32)

/-- The update rows of the scatter: a column of ones, the gated position differences and the edge features side by side. -/
def updRows : FVec Ideal S800000x132 .f32 :=
  concatenate S800000x132 1
    [⟨S800000x1, onesCol⟩, ⟨S800000x3, (V2 (dR main_v41_1) : FVec Ideal S800000x3 .f32)⟩,
     ⟨S800000x128, (V2 (dR main_v41_0) : FVec Ideal S800000x128 .f32)⟩]
    Gen.concatenates_S800000x1_S800000x3_S800000x128_S800000x132_d1

/-- The zero table of 50000 rows. -/
def zeroTab : FVec Ideal S50000x132 .f32 :=
  broadcastInDim S50000x132 ![] Gen.bcast_S_S50000x132 (constant (F := Ideal) S_ .f32 0x00000000#32)

/-- The table the scatter leaves: the zero table with every update row added into the row its raw index word names. -/
def scat : FVec Ideal S50000x132 .f32 :=
  Host.scatterAdd scatter_S50000x132_S800000x1_S800000x132_1_0_0_1 (zeroTab) (sr V2) (updRows V2)

/-- The number of edges into each node, at least one, as a column. -/
def cntCol : FVec Ideal S50000x1 .f32 :=
  maximumf (broadcastInDim S50000x1 ![] Gen.bcast_S_S50000x1 (constant (F := Ideal) S_ .f32 0x3F800000#32))
    (extractStridedSlice S50000x1 ![0, 0] (scat V2) Gen.slices_S50000x132_S50000x1_0_0)

/-! ## Each buffer as a composed term

Each host stretch is first read at an arbitrary starting valuation `W`, then the three are chained: a buffer a stretch
does not write keeps what it held. -/

/-- The second stretch writes none of these references. -/
theorem keep2 (W : Valuation τ sig (Elt Ideal)) (r : Ref sig .tc) (h : r ∉ hostOps1_1_W) :
    StableHlo.after (hostOps1_1 (F := Ideal)) W (dR r) = W (dR r) :=
  StableHlo.after_of_writes_sub hostOps1_1 _ hostOps1_1_writes h

/-- The first stretch writes none of these references. -/
theorem keep1 (W : Valuation τ sig (Elt Ideal)) (r : Ref sig .tc) (h : r ∉ hostOps1_W) :
    StableHlo.after (hostOps1 (F := Ideal)) W (dR r) = W (dR r) :=
  StableHlo.after_of_writes_sub hostOps1 _ hostOps1_writes h

/-- A reference neither of the first two stretches writes holds after them what it held before. -/
theorem keep12 (r : Ref sig .tc) (h1 : r ∉ hostOps1_W) (h2 : r ∉ hostOps1_1_W) : T2 V2 (dR r) = V2 (dR r) :=
  (keep2 (T1 V2) r h2).trans (keep1 V2 r h1)

/-! ### The first stretch -/

theorem raw_v46 : T1 V2 (dR main_v46) = scat V2 := by
  after_results <;> rfl

theorem raw_v47 : T1 V2 (dR main_v47) = extractStridedSlice S50000x1 ![0, 0] (scat V2) Gen.slices_S50000x132_S50000x1_0_0 := by
  after_results <;> rfl

theorem raw_cst8 : T1 V2 (dR main_cst_8) = constant (F := Ideal) S_ .f32 0x3F800000#32 := by
  after_results <;> rfl

/-! ### The second stretch, from any valuation -/

theorem s2_v48 (W : Valuation τ sig (Elt Ideal)) : StableHlo.after (hostOps1_1 (F := Ideal)) W (dR main_v48)
    = maximumf (F := Ideal) (s := S50000x1) (φ := .f32) (broadcastInDim S50000x1 ![] Gen.bcast_S_S50000x1 (W (dR main_cst_8) : FVec Ideal S_ .f32))
        (W (dR main_v47) : FVec Ideal S50000x1 .f32) := by
  after_results <;> rfl

theorem raw_v48 : T2 V2 (dR main_v48) = cntCol V2 := by
  refine (s2_v48 (T1 V2)).trans ?_
  rw [raw_cst8, raw_v47]
  rfl

theorem k2_v46 : T2 V2 (dR main_v46) = scat V2 :=
  (keep2 (T1 V2) main_v46 (by decide)).trans (raw_v46 V2)

/-! ### The third stretch, from any valuation -/

theorem s3_v55 (W : Valuation τ sig (Elt Ideal)) : StableHlo.after (hostOps1_2 (F := Ideal)) W (dR main_v55)
    = addf (F := Ideal) (s := S50000x3) (φ := .f32) (W (dR main_arg0) : FVec Ideal S50000x3 .f32)
        (Host.divf (F := Ideal) (s := S50000x3) (φ := .f32) (extractStridedSlice S50000x3 ![0, 1] (W (dR main_v46) : FVec Ideal S50000x132 .f32) Gen.slices_S50000x132_S50000x3_0_1)
          (broadcastInDim S50000x3 ![0, 1] Gen.bcast_S50000x1_S50000x3_0_1 (W (dR main_v48) : FVec Ideal S50000x1 .f32))) := by
  after_results <;> rfl

theorem s3_v54 (W : Valuation τ sig (Elt Ideal)) : StableHlo.after (hostOps1_2 (F := Ideal)) W (dR main_v54)
    = Host.divf (F := Ideal) (s := S50000x128) (φ := .f32) (extractStridedSlice S50000x128 ![0, 4] (W (dR main_v46) : FVec Ideal S50000x132 .f32) Gen.slices_S50000x132_S50000x128_0_4)
        (broadcastInDim S50000x128 ![0, 1] Gen.bcast_S50000x1_S50000x128_0_1 (W (dR main_v48) : FVec Ideal S50000x1 .f32)) := by
  after_results <;> rfl

theorem s3_v56 (W : Valuation τ sig (Elt Ideal)) : StableHlo.after (hostOps1_2 (F := Ideal)) W (dR main_v56)
    = extractStridedSlice S128x128 ![0, 0] (W (dR main_arg11) : FVec Ideal S256x128 .f32) Gen.slices_S256x128_S128x128_0_0 := by
  after_results <;> rfl

theorem s3_v57 (W : Valuation τ sig (Elt Ideal)) : StableHlo.after (hostOps1_2 (F := Ideal)) W (dR main_v57)
    = extractStridedSlice S128x128 ![128, 0] (W (dR main_arg11) : FVec Ideal S256x128 .f32) Gen.slices_S256x128_S128x128_128_0 := by
  after_results <;> rfl

theorem s3_v58 (W : Valuation τ sig (Elt Ideal)) : StableHlo.after (hostOps1_2 (F := Ideal)) W (dR main_v58)
    = shapeCast S1x128 (W (dR main_arg12) : FVec Ideal S128 .f32) Gen.shapeCasts_S128_S1x128 := by
  after_results <;> rfl

theorem s3_v59 (W : Valuation τ sig (Elt Ideal)) : StableHlo.after (hostOps1_2 (F := Ideal)) W (dR main_v59)
    = shapeCast S1x128 (W (dR main_arg14) : FVec Ideal S128 .f32) Gen.shapeCasts_S128_S1x128 := by
  after_results <;> rfl

theorem s3_v60 (W : Valuation τ sig (Elt Ideal)) : StableHlo.after (hostOps1_2 (F := Ideal)) W (dR main_v60)
    = shapeCast S1x128 (W (dR main_arg15) : FVec Ideal S128 .f32) Gen.shapeCasts_S128_S1x128 := by
  after_results <;> rfl

theorem s3_v61 (W : Valuation τ sig (Elt Ideal)) : StableHlo.after (hostOps1_2 (F := Ideal)) W (dR main_v61)
    = shapeCast S1x128 (W (dR main_arg16) : FVec Ideal S128 .f32) Gen.shapeCasts_S128_S1x128 := by
  after_results <;> rfl

/-! ### The three stretches chained -/

theorem raw_v55 : T3 V2 (dR main_v55)
    = addf (F := Ideal) (s := S50000x3) (φ := .f32) (V2 (dR main_arg0) : FVec Ideal S50000x3 .f32)
        (Host.divf (F := Ideal) (s := S50000x3) (φ := .f32) (extractStridedSlice S50000x3 ![0, 1] (scat V2) Gen.slices_S50000x132_S50000x3_0_1)
          (broadcastInDim S50000x3 ![0, 1] Gen.bcast_S50000x1_S50000x3_0_1 (cntCol V2))) := by
  refine (s3_v55 (T2 V2)).trans ?_
  rw [keep12 V2 main_arg0 (by decide) (by decide), k2_v46, raw_v48]

theorem raw_v54 : T3 V2 (dR main_v54)
    = Host.divf (F := Ideal) (s := S50000x128) (φ := .f32) (extractStridedSlice S50000x128 ![0, 4] (scat V2) Gen.slices_S50000x132_S50000x128_0_4)
        (broadcastInDim S50000x128 ![0, 1] Gen.bcast_S50000x1_S50000x128_0_1 (cntCol V2)) := by
  refine (s3_v54 (T2 V2)).trans ?_
  rw [k2_v46, raw_v48]

theorem raw_v56 : T3 V2 (dR main_v56)
    = extractStridedSlice S128x128 ![0, 0] (V2 (dR main_arg11) : FVec Ideal S256x128 .f32) Gen.slices_S256x128_S128x128_0_0 := by
  refine (s3_v56 (T2 V2)).trans ?_
  rw [keep12 V2 main_arg11 (by decide) (by decide)]

theorem raw_v57 : T3 V2 (dR main_v57)
    = extractStridedSlice S128x128 ![128, 0] (V2 (dR main_arg11) : FVec Ideal S256x128 .f32) Gen.slices_S256x128_S128x128_128_0 := by
  refine (s3_v57 (T2 V2)).trans ?_
  rw [keep12 V2 main_arg11 (by decide) (by decide)]

theorem raw_v58 : T3 V2 (dR main_v58) = shapeCast S1x128 (V2 (dR main_arg12) : FVec Ideal S128 .f32) Gen.shapeCasts_S128_S1x128 := by
  refine (s3_v58 (T2 V2)).trans ?_
  rw [keep12 V2 main_arg12 (by decide) (by decide)]

theorem raw_v59 : T3 V2 (dR main_v59) = shapeCast S1x128 (V2 (dR main_arg14) : FVec Ideal S128 .f32) Gen.shapeCasts_S128_S1x128 := by
  refine (s3_v59 (T2 V2)).trans ?_
  rw [keep12 V2 main_arg14 (by decide) (by decide)]

theorem raw_v60 : T3 V2 (dR main_v60) = shapeCast S1x128 (V2 (dR main_arg15) : FVec Ideal S128 .f32) Gen.shapeCasts_S128_S1x128 := by
  refine (s3_v60 (T2 V2)).trans ?_
  rw [keep12 V2 main_arg15 (by decide) (by decide)]

theorem raw_v61 : T3 V2 (dR main_v61) = shapeCast S1x128 (V2 (dR main_arg16) : FVec Ideal S128 .f32) Gen.shapeCasts_S128_S1x128 := by
  refine (s3_v61 (T2 V2)).trans ?_
  rw [keep12 V2 main_arg16 (by decide) (by decide)]

/-! ## The update rows and the scattered table at an index -/

/-- Column 0 of an update row is one. -/
theorem updRows_col0 (e : Fin 800000) : updRows V2 (ix2 e (0 : Fin 132)) = w1 := by
  unfold updRows
  rw [HostIx.concat3_cols_first _ _ _ _ e (0 : Fin 1) (0 : Fin 132) rfl]
  unfold onesCol
  rw [LayoutLib.broadcastInDim_scalar_apply, constant_apply]

/-- Columns 1 to 3 of an update row are the edge's gated position difference. -/
theorem updRows_col1 (e : Fin 800000) (k : Fin 3) (k' : Fin 132) (hk : k'.val = 1 + k.val) :
    updRows V2 (ix2 e k') = (V2 (dR main_v41_1) : FVec Ideal S800000x3 .f32) (ix2 e k) := by
  unfold updRows
  rw [HostIx.concat3_cols_second _ _ _ _ e k k' hk]

/-- Columns 4 to 131 of an update row are the edge's feature row. -/
theorem updRows_col4 (e : Fin 800000) (j : Fin 128) (j' : Fin 132) (hj : j'.val = 1 + 3 + j.val) :
    updRows V2 (ix2 e j') = (V2 (dR main_v41_0) : FVec Ideal S800000x128 .f32) (ix2 e j) := by
  unfold updRows
  rw [HostIx.concat3_cols_third _ _ _ _ e j j' hj]

/-- The row scatter over arbitrary operands: entry (n, k) of the table plus the updates of the edges into n. -/
theorem scatter132_apply (tbl : S50000x132.Idx → EReal) (sr : Cert.Egnn.Col 800000) (upd : S800000x132.Idx → EReal)
    (n : Fin 50000) (k : Fin 132) :
    Host.scatterAdd (F := Ideal) (φ := .f32) scatter_S50000x132_S800000x1_S800000x132_1_0_0_1 tbl sr upd (ix2 n k)
      = tbl (ix2 n k) + ∑ e ∈ Cert.Egnn.hits sr n, upd (ix2 e k) :=
  Cert.ScatterLib.scatterAdd_rows_apply scatter_S50000x132_S800000x1_S800000x132_1_0_0_1_wf tbl sr upd n k

/-- An entry of the zero table. -/
theorem zeroTab_apply (j : S50000x132.Idx) : (zeroTab j : EReal) = 0 := by
  unfold zeroTab
  rw [LayoutLib.broadcastInDim_scalar_apply, constant_apply, Ideal.ofBits_zero_f32]

/-- The scattered table at (n, k): the sum, over the edges whose raw row word names n, of column k of their update rows. -/
theorem scat_apply (n : Fin 50000) (k : Fin 132) :
    (scat V2 (ix2 n k) : EReal) = ∑ e ∈ Cert.Egnn.hits (sr V2) n, (updRows V2 (ix2 e k) : EReal) := by
  unfold scat
  refine (scatter132_apply zeroTab (sr V2) (updRows V2) n k).trans ?_
  rw [zeroTab_apply, zero_add]

/-- The count column at node n. -/
theorem cntCol_apply (n : Fin 50000) : cntCol V2 (ix2 n (0 : Fin 1)) = Cert.Egnn.cnt (sr V2) n := by
  unfold cntCol
  rw [maximumf_apply, LayoutLib.broadcastInDim_scalar_apply, constant_apply,
    HostIx.slice2_apply 0 0 (scat V2) _ n (0 : Fin 1) n (0 : Fin 132) (by omega) rfl, scat_apply]
  unfold Cert.Egnn.cnt
  exact congrArg (max w1) (Finset.sum_congr rfl fun e _ => updRows_col0 V2 e)

/-- The host's quotient of two arrays, read at an index: the quotient of the entries. -/
theorem hdiv_apply {s : Shape} (a b : FVec Ideal s .f32) (i : s.Idx) : Host.divf a b i = Ideal.div (a i) (b i) := rfl

/-! ## The buffers read at an index -/

theorem t_cnt (n : Fin 50000) : T2 V2 (dR main_v48) (ix2 n (0 : Fin 1)) = Cert.Egnn.cnt (sr V2) n := by
  rw [raw_v48]; exact cntCol_apply V2 n

theorem t_xout (n : Fin 50000) (k : Fin 3) :
    T3 V2 (dR main_v55) (ix2 n k)
      = @HAdd.hAdd EReal EReal EReal _ (V2 (dR main_arg0) (ix2 n k))
          (Ideal.div (∑ e ∈ Cert.Egnn.hits (sr V2) n, (V2 (dR main_v41_1) (ix2 e k) : EReal)) (Cert.Egnn.cnt (sr V2) n)) := by
  rw [raw_v55, addf_apply, hdiv_apply, LayoutLib.broadcastInDim_col_apply, cntCol_apply,
    HostIx.slice2_apply 0 1 (scat V2) _ n k n (⟨1 + k.val, by omega⟩ : Fin 132) (by omega) rfl, scat_apply]
  exact congrArg (fun s => @HAdd.hAdd EReal EReal EReal _ (V2 (dR main_arg0) (ix2 n k)) (Ideal.div s (Cert.Egnn.cnt (sr V2) n)))
    (Finset.sum_congr rfl fun e _ => updRows_col1 V2 e k _ rfl)

theorem t_agg (n : Fin 50000) (j : Fin 128) :
    T3 V2 (dR main_v54) (ix2 n j)
      = Ideal.div (∑ e ∈ Cert.Egnn.hits (sr V2) n, (V2 (dR main_v41_0) (ix2 e j) : EReal)) (Cert.Egnn.cnt (sr V2) n) := by
  rw [raw_v54, hdiv_apply, LayoutLib.broadcastInDim_col_apply, cntCol_apply,
    HostIx.slice2_apply 0 4 (scat V2) _ n j n (⟨4 + j.val, by omega⟩ : Fin 132) (by omega) rfl, scat_apply]
  exact congrArg (fun s => Ideal.div s (Cert.Egnn.cnt (sr V2) n))
    (Finset.sum_congr rfl fun e _ => updRows_col4 V2 e j _ (by show 4 + j.val = 1 + 3 + j.val; omega))

theorem t_v56 (l k : Fin 128) :
    T3 V2 (dR main_v56) (ix2 l k) = V2 (dR main_arg11) (ix2 (⟨l.val, by omega⟩ : Fin 256) k) := by
  rw [raw_v56]
  exact HostIx.slice2_apply 0 0 _ _ l k (⟨l.val, by omega⟩ : Fin 256) k (by show l.val = 0 + l.val; omega) (by omega)

theorem t_v57 (l k : Fin 128) :
    T3 V2 (dR main_v57) (ix2 l k) = V2 (dR main_arg11) (ix2 (⟨128 + l.val, by omega⟩ : Fin 256) k) := by
  rw [raw_v57]
  exact HostIx.slice2_apply 128 0 _ _ l k (⟨128 + l.val, by omega⟩ : Fin 256) k rfl (by omega)

theorem t_v58 (k : Fin 128) : T3 V2 (dR main_v58) (ix2 (0 : Fin 1) k) = V2 (dR main_arg12) (ix1 k) := by
  rw [raw_v58]; exact RowBlocks.shapeCast_vecRow_apply _ _ _ _

theorem t_v59 (k : Fin 128) : T3 V2 (dR main_v59) (ix2 (0 : Fin 1) k) = V2 (dR main_arg14) (ix1 k) := by
  rw [raw_v59]; exact RowBlocks.shapeCast_vecRow_apply _ _ _ _

theorem t_v60 (k : Fin 128) : T3 V2 (dR main_v60) (ix2 (0 : Fin 1) k) = V2 (dR main_arg15) (ix1 k) := by
  rw [raw_v60]; exact RowBlocks.shapeCast_vecRow_apply _ _ _ _

theorem t_v61 (k : Fin 128) : T3 V2 (dR main_v61) (ix2 (0 : Fin 1) k) = V2 (dR main_arg16) (ix1 k) := by
  rw [raw_v61]; exact RowBlocks.shapeCast_vecRow_apply _ _ _ _

theorem t_keep1 : T3 V2 (dR main_arg1) = V2 (dR main_arg1) :=
  (StableHlo.after_of_writes_sub hostOps1_2 _ hostOps1_2_writes (by decide)).trans
    ((StableHlo.after_of_writes_sub hostOps1_1 _ hostOps1_1_writes (by decide)).trans
      (StableHlo.after_of_writes_sub hostOps1 _ hostOps1_writes (by decide)))

theorem t_keep13 : T3 V2 (dR main_arg13) = V2 (dR main_arg13) :=
  (StableHlo.after_of_writes_sub hostOps1_2 _ hostOps1_2_writes (by decide)).trans
    ((StableHlo.after_of_writes_sub hostOps1_1 _ hostOps1_1_writes (by decide)).trans
      (StableHlo.after_of_writes_sub hostOps1 _ hostOps1_writes (by decide)))

end Cert.KernelIdeal.HostV

end
-- ==== Proof.KIHost.lean ====
/-
  The program's host operations read at an index: what each buffer a host stretch fills holds, entry by entry, as a
  function of the buffers the stretch started from.
  The second half (the buffers after the three later host stretches) is in the module imported last.
-/
import proofs.«166594_j8684423872621_2_alg».proof.Proof.KIHostDefs
import proofs.«166594_j8684423872621_2_alg».proof.Proof.KIHostIx
import proofs.«166594_j8684423872621_2_alg».proof.Proof.KIHostE1
import proofs.«166594_j8684423872621_2_alg».proof.Proof.KIHostE2
import proofs.«166594_j8684423872621_2_alg».proof.Proof.KIHostE3
import proofs.«166594_j8684423872621_2_alg».proof.Proof.LibRows
import proofs.«166594_j8684423872621_2_alg».proof.Proof.LibRowBlocks
import proofs.«166594_j8684423872621_2_alg».proof.Proof.LibIndex
import proofs.«166594_j8684423872621_2_alg».proof.Proof.KIHostTail

noncomputable section

namespace Cert.KernelIdeal.HostV

open Cert.KernelIdeal Cert.KernelIdeal.Gen Cert.Egnn Idealize.ShloMosaic Idealize.ShloMosaic.ValueIdx
open Idealize.ShloMosaic.StableHlo (after_cons after_nil)

/-- A TensorCore reference as a device buffer. -/
local notation:max "dR " b:max => Proc.devRef (τ := τ) Proc.tc b

variable (V0 : Valuation τ sig (Elt Ideal))

theorem e_v1 : E0 V0 (dR main_v1) = rowWords (V0 (dR main_arg2)) := raw_v1 V0

theorem e_v11 (e : Fin 800000) (k : Fin 128) :
    E0 V0 (dR main_v11) (ix2 e k) = V0 (dR main_arg1) (ix2 (Cert.Egnn.node (gr V0) e) k) := by
  refine (congrFun (raw_v11 V0) (ix2 e k)).trans ?_
  exact Cert.RowsLib.gather_rows_apply (N := 50000) (C := 128) (R := 800000) (by norm_num)
    Gen.gather_S50000x128_S800000x1_S800000x128_1_0_n_n_0_1_1128_wf (V0 (dR main_arg1)) (gr V0) e k

theorem e_v18 (e : Fin 800000) (k : Fin 128) :
    E0 V0 (dR main_v18) (ix2 e k) = V0 (dR main_arg1) (ix2 (Cert.Egnn.node (gc V0) e) k) := by
  refine (congrFun (raw_v18 V0) (ix2 e k)).trans ?_
  exact Cert.RowsLib.gather_rows_apply (N := 50000) (C := 128) (R := 800000) (by norm_num)
    Gen.gather_S50000x128_S800000x1_S800000x128_1_0_n_n_0_1_1128_wf (V0 (dR main_arg1)) (gc V0) e k

theorem e_v33 (e : Fin 800000) (k : Fin 3) :
    E0 V0 (dR main_v33) (ix2 e k) = Cert.Egnn.rel (V0 (dR main_arg0)) (gr V0) (gc V0) e k := by
  refine (congrFun (raw_v33 V0) (ix2 e k)).trans ?_
  refine (subf_apply _ _ _).trans ?_
  unfold Cert.Egnn.rel
  exact congrArg₂ (fun a b : EReal => a - b)
    (Cert.RowsLib.gather_rows_apply (N := 50000) (C := 3) (R := 800000) (by norm_num)
      Gen.gather_S50000x3_S800000x1_S800000x3_1_0_n_n_0_1_13_wf (V0 (dR main_arg0)) (gr V0) e k)
    (Cert.RowsLib.gather_rows_apply (N := 50000) (C := 3) (R := 800000) (by norm_num)
      Gen.gather_S50000x3_S800000x1_S800000x3_1_0_n_n_0_1_13_wf (V0 (dR main_arg0)) (gc V0) e k)

theorem e_v34 (k j : Fin 128) :
    E0 V0 (dR main_v34) (ix2 k j) = V0 (dR main_arg3) (ix2 (⟨k.val, by omega⟩ : Fin 257) j) := by
  refine (congrFun (raw_v34 V0) (ix2 k j)).trans ?_
  exact Cert.KernelIdeal.HostIx.slice2_apply 0 0 (V0 (dR main_arg3)) Gen.slices_S257x128_S128x128_0_0 k j _ j
    (by show k.val = 0 + k.val; omega) (by omega)

theorem e_v35 (k j : Fin 128) :
    E0 V0 (dR main_v35) (ix2 k j) = V0 (dR main_arg3) (ix2 (⟨128 + k.val, by omega⟩ : Fin 257) j) := by
  refine (congrFun (raw_v35 V0) (ix2 k j)).trans ?_
  exact Cert.KernelIdeal.HostIx.slice2_apply 128 0 (V0 (dR main_arg3)) Gen.slices_S257x128_S128x128_128_0 k j _ j
    rfl (by omega)

theorem e_v36 (j : Fin 128) :
    E0 V0 (dR main_v36) (ix2 (0 : Fin 1) j) = V0 (dR main_arg3) (ix2 (⟨256, by norm_num⟩ : Fin 257) j) := by
  refine (congrFun (raw_v36 V0) (ix2 (0 : Fin 1) j)).trans ?_
  exact Cert.KernelIdeal.HostIx.slice2_apply 256 0 (V0 (dR main_arg3)) Gen.slices_S257x128_S1x128_256_0 (0 : Fin 1) j _ j
    rfl (by omega)

theorem e_v37 (j : Fin 128) : E0 V0 (dR main_v37) (ix2 (0 : Fin 1) j) = V0 (dR main_arg4) (ix1 j) := by
  refine (congrFun (raw_v37 V0) (ix2 (0 : Fin 1) j)).trans ?_
  exact Cert.RowBlocks.shapeCast_vecRow_apply (V0 (dR main_arg4)) Gen.shapeCasts_S128_S1x128 (0 : Fin 1) j

theorem e_v38 (j : Fin 128) : E0 V0 (dR main_v38) (ix2 (0 : Fin 1) j) = V0 (dR main_arg6) (ix1 j) := by
  refine (congrFun (raw_v38 V0) (ix2 (0 : Fin 1) j)).trans ?_
  exact Cert.RowBlocks.shapeCast_vecRow_apply (V0 (dR main_arg6)) Gen.shapeCasts_S128_S1x128 (0 : Fin 1) j

theorem e_v39 (j : Fin 128) : E0 V0 (dR main_v39) (ix2 (0 : Fin 1) j) = V0 (dR main_arg8) (ix1 j) := by
  refine (congrFun (raw_v39 V0) (ix2 (0 : Fin 1) j)).trans ?_
  exact Cert.RowBlocks.shapeCast_vecRow_apply (V0 (dR main_arg8)) Gen.shapeCasts_S128_S1x128 (0 : Fin 1) j

theorem e_v40 : E0 V0 (dR main_v40) (ix2 (0 : Fin 1) (0 : Fin 1)) = V0 (dR main_arg10) (ix1 (0 : Fin 1)) := by
  refine (congrFun (raw_v40 V0) (ix2 (0 : Fin 1) (0 : Fin 1))).trans ?_
  exact Cert.RowBlocks.shapeCast_vecRow_apply (V0 (dR main_arg10)) Gen.shapeCasts_S1_S1x1 (0 : Fin 1) (0 : Fin 1)

end Cert.KernelIdeal.HostV

end
-- ==== Proof.KIValue.lean ====
/-
  The kernel program's two results as functions of its arguments.  The fold of @main's segments names every buffer at
  the end of the run; this module walks it back.  The edge stage's two arrays are, index by index, the edge feature and
  the gated position difference of the layer (the gathered tables it reads are rows of the arguments); the host
  operations between the stages sum those per node, count the edges, divide, and move the positions; the node stage's
  array is the layer's new feature row.  Nothing here uses more than the reading lemmas of the host operations, of the
  two kernels' blocks and of the fold.
-/
import proofs.«166594_j8684423872621_2_alg».proof.Proof.KIFold
import proofs.«166594_j8684423872621_2_alg».proof.Proof.KIBlocks
import proofs.«166594_j8684423872621_2_alg».proof.Proof.KIHost
import proofs.«166594_j8684423872621_2_alg».proof.Proof.EgnnSpec
import proofs.«166594_j8684423872621_2_alg».proof.Proof.Gen.KernelIdeal.Regions

noncomputable section

namespace Cert.KernelIdeal.Res

open Cert.KernelIdeal Cert.KernelIdeal.Gen Cert.KernelIdeal.Hand Cert.KernelIdeal.Blocks Cert.KernelIdeal.HostV Cert.Egnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The index columns of the layer, from the edge-index argument. -/
abbrev grOf (c : Dev nD) : Col 800000 := normCol (rowWords (m ((c : Thread nD τ).loc main_arg2)))
abbrev gcOf (c : Dev nD) : Col 800000 := normCol (colWords (m ((c : Thread nD τ).loc main_arg2)))
abbrev srOf (c : Dev nD) : Col 800000 := rawCol (rowWords (m ((c : Thread nD τ).loc main_arg2)))

/-- A buffer no host operation before the edge stage writes, and the edge stage does not own, holds its launch contents
    when the edge stage is left. -/
theorem W2_keep (c : Dev nD) (b : Ref sig .tc) (h0 : b ∉ (hostOps0_W : List (Ref sig .tc))) (h1 : ∀ w, Pipeline.arrRef spec0 w ≠ b) :
    W2 m ρ c (Proc.devRef .tc b) = m ((c : Thread nD τ).loc b) :=
  (W2_of_ne m ρ c b h1).trans ((StableHlo.after_of_writes_sub hostOps0 _ hostOps0_writes h0).trans rfl)

/-- The raw row words, where the edge stage is left. -/
theorem W2_v1 (c : Dev nD) : W2 m ρ c (Proc.devRef .tc main_v1) = rowWords (m ((c : Thread nD τ).loc main_arg2)) :=
  (W2_of_ne m ρ c main_v1 (by decide)).trans (e_v1 (W0 m ρ c))

/-- THE EDGE FEATURES where the edge stage is left. -/
theorem ef_at (c : Dev nD) (e : Fin 800000) (j : Fin 128) :
    W2 m ρ c (Proc.devRef .tc main_v41_0) (ix2 e j)
      = Cert.Egnn.ef (m ((c : Thread nD τ).loc main_arg0)) (m ((c : Thread nD τ).loc main_arg1)) (grOf m c) (gcOf m c)
          (m ((c : Thread nD τ).loc main_arg3)) (m ((c : Thread nD τ).loc main_arg4)) (m ((c : Thread nD τ).loc main_arg5)) (m ((c : Thread nD τ).loc main_arg6)) e j := by
  show W2 m ρ c (Proc.devRef .tc (Pipeline.arrRef spec0 13)) (ix2 e j) = _
  rw [W2_arr m ρ c 13, final0_13 (V1 m ρ) c]
  show edgeOut (V1 m ρ c main_v11) (V1 m ρ c main_v18) (V1 m ρ c main_v33) (V1 m ρ c main_v34) (V1 m ρ c main_v35) (V1 m ρ c main_v36)
    (V1 m ρ c main_v37) (V1 m ρ c main_arg5) (V1 m ρ c main_v38) e j = _
  unfold edgeOut Cert.Egnn.ef
  have a0 : (fun k : Fin 128 => V1 m ρ c main_v11 (ix2 e k)) = fun k => m ((c : Thread nD τ).loc main_arg1) (ix2 (node (grOf m c) e) k) :=
    funext fun k => e_v11 (W0 m ρ c) e k
  have a1 : (fun k : Fin 128 => V1 m ρ c main_v18 (ix2 e k)) = fun k => m ((c : Thread nD τ).loc main_arg1) (ix2 (node (gcOf m c) e) k) :=
    funext fun k => e_v18 (W0 m ρ c) e k
  have a2 : (fun k : Fin 3 => V1 m ρ c main_v33 (ix2 e k)) = rel (m ((c : Thread nD τ).loc main_arg0)) (grOf m c) (gcOf m c) e :=
    funext fun k => e_v33 (W0 m ρ c) e k
  have a3 : (fun k j : Fin 128 => V1 m ρ c main_v34 (ix2 k j)) = fun k j => m ((c : Thread nD τ).loc main_arg3) (ix2 (⟨k.val, by omega⟩ : Fin 257) j) :=
    funext fun k => funext fun j => e_v34 (W0 m ρ c) k j
  have a4 : (fun k j : Fin 128 => V1 m ρ c main_v35 (ix2 k j)) = fun k j => m ((c : Thread nD τ).loc main_arg3) (ix2 (⟨128 + k.val, by omega⟩ : Fin 257) j) :=
    funext fun k => funext fun j => e_v35 (W0 m ρ c) k j
  have a5 : (fun j : Fin 128 => V1 m ρ c main_v36 (ix2 (0 : Fin 1) j)) = fun j => m ((c : Thread nD τ).loc main_arg3) (ix2 (⟨256, by norm_num⟩ : Fin 257) j) :=
    funext fun j => e_v36 (W0 m ρ c) j
  have a6 : (fun j : Fin 128 => V1 m ρ c main_v37 (ix2 (0 : Fin 1) j)) = fun j => m ((c : Thread nD τ).loc main_arg4) (ix1 j) :=
    funext fun j => e_v37 (W0 m ρ c) j
  have a7 : V1 m ρ c main_arg5 = m ((c : Thread nD τ).loc main_arg5) :=
    (StableHlo.after_of_writes_sub hostOps0 _ hostOps0_writes (by decide)).trans rfl
  have a8 : (fun j : Fin 128 => V1 m ρ c main_v38 (ix2 (0 : Fin 1) j)) = fun j => m ((c : Thread nD τ).loc main_arg6) (ix1 j) :=
    funext fun j => e_v38 (W0 m ρ c) j
  rw [a0, a1, a2, a3, a4, a5, a6, a7, a8]

/-- THE GATED POSITION DIFFERENCES where the edge stage is left. -/
theorem relgate_at (c : Dev nD) (e : Fin 800000) (k : Fin 3) :
    W2 m ρ c (Proc.devRef .tc main_v41_1) (ix2 e k)
      = Cert.Egnn.relgate (m ((c : Thread nD τ).loc main_arg0)) (m ((c : Thread nD τ).loc main_arg1)) (grOf m c) (gcOf m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) e k := by
  show W2 m ρ c (Proc.devRef .tc (Pipeline.arrRef spec0 14)) (ix2 e k) = _
  rw [W2_arr m ρ c 14, final0_14 (V1 m ρ) c]
  show edgeGated (V1 m ρ c main_v11) (V1 m ρ c main_v18) (V1 m ρ c main_v33) (V1 m ρ c main_v34) (V1 m ρ c main_v35) (V1 m ρ c main_v36)
    (V1 m ρ c main_v37) (V1 m ρ c main_arg5) (V1 m ρ c main_v38) (V1 m ρ c main_arg7) (V1 m ρ c main_v39) (V1 m ρ c main_arg9) (V1 m ρ c main_v40) e k = _
  have hef : edgeOut (V1 m ρ c main_v11) (V1 m ρ c main_v18) (V1 m ρ c main_v33) (V1 m ρ c main_v34) (V1 m ρ c main_v35) (V1 m ρ c main_v36)
      (V1 m ρ c main_v37) (V1 m ρ c main_arg5) (V1 m ρ c main_v38) e
      = Cert.Egnn.ef (m ((c : Thread nD τ).loc main_arg0)) (m ((c : Thread nD τ).loc main_arg1)) (grOf m c) (gcOf m c) (m ((c : Thread nD τ).loc main_arg3)) (m ((c : Thread nD τ).loc main_arg4)) (m ((c : Thread nD τ).loc main_arg5)) (m ((c : Thread nD τ).loc main_arg6)) e := by
    funext j
    have h := ef_at m ρ c e j
    rw [show W2 m ρ c (Proc.devRef .tc main_v41_0) = W2 m ρ c (Proc.devRef .tc (Pipeline.arrRef spec0 13)) from rfl, W2_arr m ρ c 13, final0_13 (V1 m ρ) c] at h
    exact h
  unfold edgeGated Cert.Egnn.relgate Cert.Egnn.gate
  rw [hef]
  have a2 : V1 m ρ c main_v33 (ix2 e k) = rel (m ((c : Thread nD τ).loc main_arg0)) (grOf m c) (gcOf m c) e k := e_v33 (W0 m ρ c) e k
  have a9 : V1 m ρ c main_arg7 = (m ((c : Thread nD τ).loc main_arg7)) :=
    (StableHlo.after_of_writes_sub hostOps0 _ hostOps0_writes (by decide)).trans rfl
  have a10 : (fun j : Fin 128 => V1 m ρ c main_v39 (ix2 (0 : Fin 1) j)) = fun j => (m ((c : Thread nD τ).loc main_arg8)) (ix1 j) :=
    funext fun j => e_v39 (W0 m ρ c) j
  have a11 : V1 m ρ c main_arg9 = (m ((c : Thread nD τ).loc main_arg9)) :=
    (StableHlo.after_of_writes_sub hostOps0 _ hostOps0_writes (by decide)).trans rfl
  have a12 : V1 m ρ c main_v40 (ix2 (0 : Fin 1) (0 : Fin 1)) = (m ((c : Thread nD τ).loc main_arg10)) (ix1 (0 : Fin 1)) := e_v40 (W0 m ρ c)
  rw [a2, a9, a10, a11, a12]

/-- The raw row column where the edge stage is left is the layer's. -/
theorem sr_at (c : Dev nD) : sr (W2 m ρ c) = srOf m c := by
  unfold sr srOf
  rw [W2_v1]

/-- THE MOVED POSITIONS at the end of the run. -/
theorem xout_at (c : Dev nD) (n : Fin 50000) (k : Fin 3) :
    W6 m ρ c (Proc.devRef .tc main_v55) (ix2 n k)
      = Cert.Egnn.xout (m ((c : Thread nD τ).loc main_arg0)) (m ((c : Thread nD τ).loc main_arg1)) (grOf m c) (gcOf m c) (srOf m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) n k := by
  rw [W6_of_ne m ρ c main_v55 (by decide)]
  show T3 (W2 m ρ c) (Proc.devRef .tc main_v55) (ix2 n k) = _
  rw [t_xout (W2 m ρ c) n k, sr_at, W2_keep m ρ c main_arg0 (by decide) (by decide)]
  unfold Cert.Egnn.xout
  have hs : @Finset.sum (Fin 800000) EReal _ (hits (srOf m c) n) (fun e => W2 m ρ c (Proc.devRef .tc main_v41_1) (ix2 e k))
      = @Finset.sum (Fin 800000) EReal _ (hits (srOf m c) n) (fun e => Cert.Egnn.relgate (m ((c : Thread nD τ).loc main_arg0)) (m ((c : Thread nD τ).loc main_arg1)) (grOf m c) (gcOf m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) e k) :=
    Finset.sum_congr rfl (fun e _ => relgate_at m ρ c e k)
  rw [hs]

/-- The mean edge features where the node stage is entered. -/
theorem agg_at (c : Dev nD) (n : Fin 50000) (j : Fin 128) :
    V5 m ρ c main_v54 (ix2 n j)
      = Cert.Egnn.agg (m ((c : Thread nD τ).loc main_arg0)) (m ((c : Thread nD τ).loc main_arg1)) (grOf m c) (gcOf m c) (srOf m c) (m ((c : Thread nD τ).loc main_arg3)) (m ((c : Thread nD τ).loc main_arg4)) (m ((c : Thread nD τ).loc main_arg5)) (m ((c : Thread nD τ).loc main_arg6)) n j := by
  show T3 (W2 m ρ c) (Proc.devRef .tc main_v54) (ix2 n j) = _
  rw [t_agg (W2 m ρ c) n j, sr_at]
  unfold Cert.Egnn.agg
  have hs : @Finset.sum (Fin 800000) EReal _ (hits (srOf m c) n) (fun e => W2 m ρ c (Proc.devRef .tc main_v41_0) (ix2 e j))
      = @Finset.sum (Fin 800000) EReal _ (hits (srOf m c) n) (fun e => Cert.Egnn.ef (m ((c : Thread nD τ).loc main_arg0)) (m ((c : Thread nD τ).loc main_arg1)) (grOf m c) (gcOf m c) (m ((c : Thread nD τ).loc main_arg3)) (m ((c : Thread nD τ).loc main_arg4)) (m ((c : Thread nD τ).loc main_arg5)) (m ((c : Thread nD τ).loc main_arg6)) e j) :=
    Finset.sum_congr rfl (fun e _ => ef_at m ρ c e j)
  rw [hs]

/-- THE NEW FEATURES at the end of the run. -/
theorem hout_at (c : Dev nD) (n : Fin 50000) (j : Fin 128) :
    W6 m ρ c (Proc.devRef .tc main_v62) (ix2 n j)
      = Cert.Egnn.hout (m ((c : Thread nD τ).loc main_arg0)) (m ((c : Thread nD τ).loc main_arg1)) (grOf m c) (gcOf m c) (srOf m c) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) n j := by
  show W6 m ρ c (Proc.devRef .tc (Pipeline.arrRef spec1 9)) (ix2 n j) = _
  rw [W6_arr m ρ c 9, final1 (V5 m ρ) c]
  show nodeOut (V5 m ρ c main_arg1) (V5 m ρ c main_v54) (V5 m ρ c main_v56) (V5 m ρ c main_v57) (V5 m ρ c main_v58) (V5 m ρ c main_arg13)
    (V5 m ρ c main_v59) (V5 m ρ c main_v60) (V5 m ρ c main_v61) n j = _
  unfold nodeOut Cert.Egnn.hout
  have a0 : V5 m ρ c main_arg1 = (m ((c : Thread nD τ).loc main_arg1)) := (t_keep1 (W2 m ρ c)).trans (W2_keep m ρ c main_arg1 (by decide) (by decide))
  have a1 : (fun k : Fin 128 => V5 m ρ c main_v54 (ix2 n k)) = Cert.Egnn.agg (m ((c : Thread nD τ).loc main_arg0)) (m ((c : Thread nD τ).loc main_arg1)) (grOf m c) (gcOf m c) (srOf m c) (m ((c : Thread nD τ).loc main_arg3)) (m ((c : Thread nD τ).loc main_arg4)) (m ((c : Thread nD τ).loc main_arg5)) (m ((c : Thread nD τ).loc main_arg6)) n :=
    funext fun k => agg_at m ρ c n k
  have a2 : (fun l k : Fin 128 => V5 m ρ c main_v56 (ix2 l k)) = fun l k => (m ((c : Thread nD τ).loc main_arg11)) (ix2 (⟨l.val, by omega⟩ : Fin 256) k) :=
    funext fun l => funext fun k => (t_v56 (W2 m ρ c) l k).trans (by rw [W2_keep m ρ c main_arg11 (by decide) (by decide)])
  have a3 : (fun l k : Fin 128 => V5 m ρ c main_v57 (ix2 l k)) = fun l k => (m ((c : Thread nD τ).loc main_arg11)) (ix2 (⟨128 + l.val, by omega⟩ : Fin 256) k) :=
    funext fun l => funext fun k => (t_v57 (W2 m ρ c) l k).trans (by rw [W2_keep m ρ c main_arg11 (by decide) (by decide)])
  have a4 : (fun k : Fin 128 => V5 m ρ c main_v58 (ix2 (0 : Fin 1) k)) = fun k => (m ((c : Thread nD τ).loc main_arg12)) (ix1 k) :=
    funext fun k => (t_v58 (W2 m ρ c) k).trans (by rw [W2_keep m ρ c main_arg12 (by decide) (by decide)])
  have a5 : V5 m ρ c main_arg13 = (m ((c : Thread nD τ).loc main_arg13)) := (t_keep13 (W2 m ρ c)).trans (W2_keep m ρ c main_arg13 (by decide) (by decide))
  have a6 : (fun k : Fin 128 => V5 m ρ c main_v59 (ix2 (0 : Fin 1) k)) = fun k => (m ((c : Thread nD τ).loc main_arg14)) (ix1 k) :=
    funext fun k => (t_v59 (W2 m ρ c) k).trans (by rw [W2_keep m ρ c main_arg14 (by decide) (by decide)])
  have a7 : (fun k : Fin 128 => V5 m ρ c main_v60 (ix2 (0 : Fin 1) k)) = fun k => (m ((c : Thread nD τ).loc main_arg15)) (ix1 k) :=
    funext fun k => (t_v60 (W2 m ρ c) k).trans (by rw [W2_keep m ρ c main_arg15 (by decide) (by decide)])
  have a8 : (fun k : Fin 128 => V5 m ρ c main_v61 (ix2 (0 : Fin 1) k)) = fun k => (m ((c : Thread nD τ).loc main_arg16)) (ix1 k) :=
    funext fun k => (t_v61 (W2 m ρ c) k).trans (by rw [W2_keep m ρ c main_arg16 (by decide) (by decide)])
  rw [a0, a1, a2, a3, a4, a5, a6, a7, a8]

end Cert.KernelIdeal.Res

end
-- ==== Proof.Claims.lean ====
/-
  The two idealized programs compute the same layer.  The kernel program's run ends with its two results at the layer's
  moved positions and new features of its arguments (the fold of its segments, walked back); the reference's run ends
  with its two results at the same functions of ITS arguments (its operations read one at a time, and two laws: a
  contraction over concatenated columns is the sum of the contractions over the bands, and dividing by a square root is
  multiplying by the reciprocal root when the radicand is positive or infinite).  The index columns of both programs are
  the same words of the edge-index argument; memories that agree on the arguments therefore end with equal results.
-/
import proofs.«166594_j8684423872621_2_alg».proof.Defs
import proofs.«166594_j8684423872621_2_alg».proof.Proof.Gen.KernelIdeal
import proofs.«166594_j8684423872621_2_alg».proof.Proof.Gen.ReferenceIdeal
import proofs.«166594_j8684423872621_2_alg».proof.Proof.Gen.Pre_finite_inputs
import proofs.«166594_j8684423872621_2_alg».proof.Proof.KIRun
import proofs.«166594_j8684423872621_2_alg».proof.Proof.KIValue
import proofs.«166594_j8684423872621_2_alg».proof.Proof.RefClaims

noncomputable section

namespace Cert.Proof.Both

open Idealize.ShloMosaic Idealize.ShloMosaic.TcCoe Idealize.ShloMosaic.ValueIdx Idealize.SL.Sem
open Cert.KernelIdeal.Hand Cert.KernelIdeal.Res Cert.KernelIdeal.HostV

/-- The gather columns and the scatter column of the two programs are the same words of the edge-index array. -/
theorem gr_agree (x2 : (⟨Cert.KernelIdeal.S2x800000, .i32⟩ : BufTy).Contents (Elt Ideal)) :
    Cert.ReferenceIdeal.Read.val_main_v9 (F := Ideal) x2 = normCol (rowWords x2) := rfl
theorem gc_agree (x2 : (⟨Cert.KernelIdeal.S2x800000, .i32⟩ : BufTy).Contents (Elt Ideal)) :
    Cert.ReferenceIdeal.Read.val_main_v16 (F := Ideal) x2 = normCol (colWords x2) := rfl
theorem sr_agree (x2 : (⟨Cert.KernelIdeal.S2x800000, .i32⟩ : BufTy).Contents (Elt Ideal)) :
    Cert.ReferenceIdeal.Read.val_main_v58 (F := Ideal) x2 = rawCol (rowWords x2) := rfl

section Kernel

variable (m : (ℓ : Loc Cert.KernelIdeal.nD Cert.KernelIdeal.τ Cert.KernelIdeal.sig) → Buf (Elt Ideal) ℓ) (ρ : Dev Cert.KernelIdeal.nD → PrngReg)

/-- The moved positions and the new features of the kernel program's arguments, per core. -/
def xres (c : Dev Cert.KernelIdeal.nD) : Buf (Elt Ideal) ((c.tc : Thread Cert.KernelIdeal.nD Cert.KernelIdeal.τ).loc Cert.KernelIdeal.main_v55) :=
  fun i => Cert.Egnn.xout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (grOf m c) (gcOf m c) (srOf m c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (i 0) (i 1)
def hres (c : Dev Cert.KernelIdeal.nD) : Buf (Elt Ideal) ((c.tc : Thread Cert.KernelIdeal.nD Cert.KernelIdeal.τ).loc Cert.KernelIdeal.main_v62) :=
  fun i => Cert.Egnn.hout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (grOf m c) (gcOf m c) (srOf m c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (i 0) (i 1)

open Cert.KernelIdeal in
/-- The kernel program runs, ends with its two results at the layer of its arguments, and leaves the arguments as they were. -/
theorem ker_run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v55) = xres m c
      ∧ r.2.mem ((c.tc : Thread nD τ).loc main_v62) = hres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run Cert.KernelIdeal.defs _ _).mono (fun r h c =>
    ⟨(h c _ (mem_uc main_v55 (by decide))).trans (funext fun i => by
        obtain ⟨n, k, rfl⟩ : ∃ (n : Fin 50000) (k : Fin 3), i = ix2 n k := ⟨i 0, i 1, eq_ix2 i⟩
        exact xout_at m ρ c n k),
     (h c _ (mem_uc main_v62 (by decide))).trans (funext fun i => by
        obtain ⟨n, j, rfl⟩ : ∃ (n : Fin 50000) (j : Fin 128), i = ix2 n j := ⟨i 0, i 1, eq_ix2 i⟩
        exact hout_at m ρ c n j),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c)⟩)
    (run_mem m ρ)

end Kernel

/-- THE ALGEBRAIC CLAIM: from memories that agree on the arguments both programs run, end with the layer's moved positions
    and new features of those arguments, element by element, and leave the arguments as they were. -/
theorem algebraic : Cert.algebraic_KernelIdeal_ReferenceIdeal := by
  intro m ρ m' ρ' _ hagree
  refine ⟨xres m, hres m, ker_run m ρ, ?_⟩
  refine (θ_run Cert.ReferenceIdeal.defs _ _).mono (fun r h c => ⟨(h c).1.trans ?_, (h c).2.1.trans ?_, (h c).2.2⟩)
    (Cert.Proof.RefSide.ref_run m' ρ')
  · obtain ⟨h0, h1, h2, h3, h4, h5, h6, h7, h8, h9, h10, h11, h12, h13, h14, h15, h16⟩ := hagree c
    unfold xres grOf gcOf srOf
    rw [h0, h1, h2, h3, h4, h5, h6, h7, h8, h9, h10, gr_agree, gc_agree, sr_agree]
    rfl
  · obtain ⟨h0, h1, h2, h3, h4, h5, h6, h7, h8, h9, h10, h11, h12, h13, h14, h15, h16⟩ := hagree c
    unfold hres grOf gcOf srOf
    rw [h0, h1, h2, h3, h4, h5, h6, h11, h12, h13, h14, h15, h16, gr_agree, gc_agree, sr_agree]
    rfl

end Cert.Proof.Both

end
-- ==== Proof.lean ====
/-
  The certificate's five claims for one graph-network layer on 50000 nodes and 800000 edges (positions in ℝ³, features
  in ℝ¹²⁸): an edge stage and a node stage as two blocked kernels among host gathers, a concatenate, one merged
  scatter-add and a few slices, against a plain array program with three scatter-adds.
  * The three frames.  Each kernel program is a chain of segments — four stretches of host operations and the two
    kernel regions —; every region's body loads whole blocks, computes, and stores whole blocks, so the buffers at each
    segment boundary are a fold from the launch memory, and no segment writes an argument.  The reference is a straight
    line of host operations; its frame is its run with the results dropped.
  * The idealization rewrote nothing, so there is nothing to preserve.
  * At the extended reals both programs compute the same layer (Proof/EgnnSpec.lean), for every input: the kernel cuts
    the first weight of each dense pair into the row bands that meet the concatenated pieces (a finite sum split in
    three), merges the three per-node sums into one scatter of concatenated columns (read column by column), and
    multiplies by the reciprocal square root where the reference divides by the square root (equal because the
    radicand, a mean of squares plus a positive ε, is positive or infinite).
-/
import proofs.«166594_j8684423872621_2_alg».proof.Defs
import proofs.«166594_j8684423872621_2_alg».proof.Proof.Gen.Kernel
import proofs.«166594_j8684423872621_2_alg».proof.Proof.Gen.KernelIdeal
import proofs.«166594_j8684423872621_2_alg».proof.Proof.Gen.ReferenceIdeal
import proofs.«166594_j8684423872621_2_alg».proof.Proof.Gen.Pre_finite_inputs
import proofs.«166594_j8684423872621_2_alg».proof.Proof.KRun
import proofs.«166594_j8684423872621_2_alg».proof.Proof.KIRun
import proofs.«166594_j8684423872621_2_alg».proof.Proof.RefClaims
import proofs.«166594_j8684423872621_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.RefSide.frame_ri,
    trivial,
    Cert.Proof.Both.algebraic⟩

end Cert.Proof

end
